-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S16384x3072, .bf16⟩
  | .hbm, ⟨13, _⟩ => ⟨S8x2048x3072, .bf16⟩
  | .hbm, ⟨14, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .bf16 = 32 ∨ (Rect.block (s := S16384x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x3072.size a
  hwx1_0 : ∀ i : grid1.Coords, EltTy.bits .bf16 = 32 ∨ (Rect.block (s := S8x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x3072.size a
  hwx1_1 : ∀ i : grid1.Coords, EltTy.bits .bf16 = 32 ∨ (Rect.block (s := S8x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x3072.size a
  hwx1_2 : ∀ i : grid1.Coords, EltTy.bits .bf16 = 32 ∨ (Rect.block (s := S8x2048x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.RefFrame.lean ====
/-
  The reference program's frame: its run terminates without a fault and leaves its seven argument arrays as they were.
  The run of the reference (a straight line of host operations) is read back by the generated run module; the frame
  is that run with the statement about the result array dropped.
-/
import proofs.«105470_j53377853555119_2_alg».proof.Defs
import proofs.«105470_j53377853555119_2_alg».proof.Proof.Gen.ReferenceIdeal
import proofs.«105470_j53377853555119_2_alg».proof.Proof.Gen.Pre_finite_inputs
import proofs.«105470_j53377853555119_2_alg».proof.Proof.Gen.ReferenceIdeal.Run
import proofs.«105470_j53377853555119_2_alg».proof.Proof.Gen.ReferenceIdeal.Read

noncomputable section

open Idealize.ShloMosaic Idealize.SL.Sem

namespace Cert.Proof.RefFrame

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The common specification: scaled dot-product attention with a softmax over the keys, as ONE real-valued function of
  the seven argument arrays, index by index.

  For a batch b, a position n and a feature e the three projections are
      q b n e = (∑ d, x b n d · wq d e) + bq e,     k, v likewise;
  the score of query i against key j is (∑ e, q b i e · k b j e) / 64 (the reference divides by √1024 = 32 and
  multiplies by 1/2; the kernel multiplies by 2⁻⁶); with M the largest score of the row,
      out b i d = ∑ j, (exp (s j − M) / ∑ j', exp (s j' − M)) · v b j d.
  The arrays are read as extended reals; the specification reads each entry's real part, so it is meaningful for any
  arrays and is what both programs compute when every entry is finite.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments: the input [8, 2048, 1024], a weight [1024, 1024], a bias [1024]. -/
abbrev SX : Shape := ⟨3, ![8, 2048, 1024]⟩
abbrev SW : Shape := ⟨2, ![1024, 1024]⟩
abbrev SB : Shape := ⟨1, ![1024]⟩

/-- Every entry of an array is a real number. -/
def Finite {S : Shape} (a : S.Idx → EReal) : Prop := ∀ i, a i = ((a i).toReal : EReal)

/-- One projection at (batch, position, feature): the input row times the weight column, plus the bias. -/
def proj (x : SX.Idx → EReal) (w : SW.Idx → EReal) (b : SB.Idx → EReal) (bt : Fin 8) (n : Fin 2048) (e : Fin 1024) : ℝ :=
  (∑ d : Fin 1024, (x (ix3 bt n d)).toReal * (w (ix2 d e)).toReal) + (b (ix1 e)).toReal

/-- The scaled score of query `i` against key `j` in batch `bt`. -/
def score (q k : Fin 8 → Fin 2048 → Fin 1024 → ℝ) (bt : Fin 8) (i j : Fin 2048) : ℝ :=
  (∑ e : Fin 1024, q bt i e * k bt j e) / 64

/-- The largest score of a query's row. -/
def rowMax (q k : Fin 8 → Fin 2048 → Fin 1024 → ℝ) (bt : Fin 8) (i : Fin 2048) : ℝ :=
  Finset.univ.sup' Finset.univ_nonempty (score q k bt i)

/-- The softmax-weighted sum of the values. -/
def attn (q k v : Fin 8 → Fin 2048 → Fin 1024 → ℝ) (bt : Fin 8) (i : Fin 2048) (d : Fin 1024) : ℝ :=
  ∑ j : Fin 2048, (Real.exp (score q k bt i j - rowMax q k bt i)
      / ∑ j' : Fin 2048, Real.exp (score q k bt i j' - rowMax q k bt i)) * v bt j d

/-- The result array as a function of the seven argument arrays. -/
def G (X : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  ((attn (proj X Wq bq) (proj X Wk bk) (proj X Wv bv) (i 0) (i 1) (i 2) : ℝ) : EReal)

end Cert.Spec

end
-- ==== Proof.RefValue.lean ====
/-
  The reference side: the reference program's result, read one host operation at a time, is the common specification
  `Cert.Spec.G` of the seven argument arrays whenever every argument entry is a real number.

  The argument: with every entry real, each projection entry is the coerced real (∑ d, x·w) + b; a score is the
  coerced ((∑ e, q·k) / √1024) · ½ = (∑ e, q·k) / 64; the row maximum, a fold of `max` from −∞ over the 2048 keys and
  one more `max` with −∞, is the coerced `Finset.sup'`; the exponential of a coerced real is the coerced `Real.exp`;
  the row's sum of exponentials is a coerced positive real, so the quotient by it is the coerced quotient; and the
  last contraction is the coerced sum of products. All of it stays inside the reals, where the extended reals'
  operations are the reals'.
-/
import proofs.«105470_j53377853555119_2_alg».proof.Proof.Spec
import proofs.«105470_j53377853555119_2_alg».proof.Proof.Gen.ReferenceIdeal.Read
import Idealize.ShloMosaic.Lib.ValueIdx
import Idealize.ShloMosaic.PureOps.Ideal.Laws

noncomputable section

open scoped BigOperators

namespace Cert.Proof.RefValue

open Idealize.ShloMosaic Idealize.ShloMosaic.ValueIdx Cert.ReferenceIdeal Cert.ReferenceIdeal.Read

/-! ## The extended reals' operations on coerced reals -/

/-- A finite sum of coerced reals is the coerced sum. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of coerced reals is the coerced sum of products. -/
private theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]
  exact Finset.sum_congr rfl fun i _ => (EReal.coe_mul _ _).symm

/-- The maximum of two coerced reals is the coerced maximum. -/
private theorem coe_max (a b : ℝ) : ((max a b : ℝ) : EReal) = max (a : EReal) (b : EReal) :=
  Monotone.map_max EReal.coe_strictMono.monotone

/-- From −∞, the fold of `max` over a nonempty finite set of coerced reals is the coerced largest of them. -/
private theorem fold_max_coe {ι : Type*} (s : Finset ι) (hs : s.Nonempty) (f : ι → ℝ) :
    s.fold max (⊥ : EReal) (fun i => ((f i : ℝ) : EReal)) = ((s.sup' hs f : ℝ) : EReal) := by
  have h1 : ((s.sup' hs f : ℝ) : EReal) = s.sup' hs (fun i => ((f i : ℝ) : EReal)) :=
    Finset.comp_sup'_eq_sup'_comp hs (fun r : ℝ => (r : EReal)) coe_max
  rw [h1, Finset.sup'_eq_sup]
  rfl

/-- The host quotient of a coerced real by a coerced nonzero real is the coerced quotient. -/
private theorem div_coe_coe (a b : ℝ) (hb : b ≠ 0) : Ideal.div (a : EReal) (b : EReal) = ((a / b : ℝ) : EReal) := by
  rw [Ideal.div_coe hb, ← EReal.coe_mul, mul_one_div]

/-! ## The program's three constants -/

/-- The word `0x44800000` is 1024. -/
private theorem ofBits_1024 : Ideal.ofBits .f32 0x44800000#32 = ((1024 : ℝ) : EReal) := by
  simp [Ideal.ofBits, Ideal.ieee, -EReal.coe_mul]; norm_num

/-- The word `0x3F000000` is one half. -/
private theorem ofBits_half : Ideal.ofBits .f32 0x3F000000#32 = (((1 : ℝ) / 2 : ℝ) : EReal) := by
  simp [Ideal.ofBits, Ideal.ieee, -EReal.coe_mul]; norm_num

/-- The word `0xFF800000` is −∞. -/
private theorem ofBits_neg_inf : Ideal.ofBits .f32 0xFF800000#32 = (⊥ : EReal) := by
  simp [Ideal.ofBits, Ideal.ieee]

/-- The square root of 1024 is 32. -/
private theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-! ## The stages of the reference program, read at coordinates -/

/-- The argument arrays' types: the input, a weight, a bias. -/
private abbrev TX : Type := (⟨S8x2048x1024, .f32⟩ : BufTy).Contents (Elt Ideal)
private abbrev TW : Type := (⟨S1024x1024, .f32⟩ : BufTy).Contents (Elt Ideal)
private abbrev TB : Type := (⟨S1024, .f32⟩ : BufTy).Contents (Elt Ideal)

/-- A projection (the contraction of the input with a weight, plus the broadcast bias) at (batch, position, feature)
    is the coerced real projection. -/
private theorem proj_value (x : TX) (w : TW) (b : TB) (hx : Cert.Spec.Finite x) (hw : Cert.Spec.Finite w)
    (hb : Cert.Spec.Finite b) (bt : Fin 8) (n : Fin 2048) (e : Fin 1024) :
    val_main_v3 (F := Ideal) x w b (ix3 bt n e) = ((Cert.Spec.proj x w b bt n e : ℝ) : EReal) := by
  rw [val_main_v3_apply, val_main_v0_apply, val_main_v2_apply, val_main_v1_apply, Ideal.addf_def]
  have el : ∀ k : Fin 1024, lidx_main_v0 (ix3 bt n e) k = ix3 bt n k := fun k => funext fun a => by
    match a with
    | ⟨0, _⟩ => rfl
    | ⟨1, _⟩ => rfl
    | ⟨2, _⟩ => rfl
  have er : ∀ k : Fin 1024, ridx_main_v0 (ix3 bt n e) k = ix2 k e := fun k => funext fun a => by
    match a with
    | ⟨0, _⟩ => rfl
    | ⟨1, _⟩ => rfl
  have eb : idx_main_v1 (idx_main_v2 (ix3 bt n e)) = ix1 e := funext fun a => by
    match a with
    | ⟨0, _⟩ => rfl
  simp only [el, er, eb]
  rw [Cert.Spec.proj, EReal.coe_add, ← coe_sum_mul, ← hb (ix1 e)]
  refine congrArg (· + b (ix1 e)) (Finset.sum_congr rfl fun k _ => ?_)
  rw [← hx, ← hw]

/-- The second and third projections are the first one's operations on other arguments. -/
private theorem v7_eq_v3 (x : TX) (w : TW) (b : TB) : val_main_v7 (F := Ideal) x w b = val_main_v3 (F := Ideal) x w b := rfl
private theorem v11_eq_v3 (x : TX) (w : TW) (b : TB) : val_main_v11 (F := Ideal) x w b = val_main_v3 (F := Ideal) x w b := rfl

/-- The scaled score at (batch, query, key): the contraction of the two projections over the features, divided by
    √1024 = 32 and multiplied by ½, is the coerced contraction divided by 64. -/
private theorem score_value (x0 : TX) (x1 : TW) (x2 : TB) (x3 : TW) (x4 : TB)
    (h0 : Cert.Spec.Finite x0) (h1 : Cert.Spec.Finite x1) (h2 : Cert.Spec.Finite x2) (h3 : Cert.Spec.Finite x3)
    (h4 : Cert.Spec.Finite x4) (bt : Fin 8) (i j : Fin 2048) :
    val_main_v17 (F := Ideal) x0 x1 x2 x3 x4 (ix3 bt i j)
      = ((Cert.Spec.score (Cert.Spec.proj x0 x1 x2) (Cert.Spec.proj x0 x3 x4) bt i j : ℝ) : EReal) := by
  rw [val_main_v17_apply, val_main_v15_apply, val_main_v16_apply, val_main_cst_0_apply, val_main_v14_apply,
    val_main_v13_apply, val_main_cst_apply, val_main_v12_apply, v7_eq_v3]
  rw [Ideal.mulf_def, Ideal.hostDivf_def, Ideal.hostUnary_sqrt_def, Ideal.ofBits_def, Ideal.ofBits_def, ofBits_1024,
    ofBits_half, sqrt_1024]
  have el : ∀ k : Fin 1024, lidx_main_v12 (ix3 bt i j) k = ix3 bt i k := fun k => funext fun a => by
    match a with
    | ⟨0, _⟩ => rfl
    | ⟨1, _⟩ => rfl
    | ⟨2, _⟩ => rfl
  have er : ∀ k : Fin 1024, ridx_main_v12 (ix3 bt i j) k = ix3 bt j k := fun k => funext fun a => by
    match a with
    | ⟨0, _⟩ => rfl
    | ⟨1, _⟩ => rfl
    | ⟨2, _⟩ => rfl
  simp only [el, er, proj_value x0 x1 x2 h0 h1 h2, proj_value x0 x3 x4 h0 h3 h4]
  rw [coe_sum_mul, div_coe_coe _ _ (by norm_num), ← EReal.coe_mul]
  congr 1
  unfold Cert.Spec.score
  ring

/-- The reduced index (batch, query) with key `k` put back on the last axis is (batch, query, key). -/
private theorem lift_ix3 (h : S8x2048x2048.Reduces [2] S8x2048) (bt : Fin 8) (i : Fin 2048)
    (k : Fin (S8x2048x2048.size 2)) : h.lift (ix2 bt i) k = ix3 bt i (⟨k.val, k.isLt⟩ : Fin 2048) := by
  funext c; apply Fin.ext
  fin_cases c <;> rfl

/-- From −∞ the host's reduce with a maximum body over the keys, of an array of coerced reals, is at (batch, query)
    the coerced largest entry of the row. -/
private theorem reduce_max_value (y : (⟨S8x2048x2048, .f32⟩ : BufTy).Contents (Elt Ideal))
    (s : Fin 8 → Fin 2048 → Fin 2048 → ℝ) (hy : ∀ bt i j, y (ix3 bt i j) = ((s bt i j : ℝ) : EReal))
    (h' : S8x2048x2048.ReducesTo [2] S8x2048) (hu : 0 < S_.numel) (bt : Fin 8) (i : Fin 2048) :
    Host.reduce (α := Ideal .f32) (FloatOps.maximumf (F := Ideal) (φ := .f32)) y (val_main_cst_1 (F := Ideal)) h' hu (ix2 bt i)
      = ((Finset.univ.sup' Finset.univ_nonempty (s bt i) : ℝ) : EReal) := by
  have h : S8x2048x2048.Reduces [2] S8x2048 := by decide
  rw [Host.reduce_eq_fold_single (FloatOps.maximumf (F := Ideal) (φ := .f32)) y _ h' h hu]
  have hinit : val_main_cst_1 (F := Ideal) (Shape.Idx.first hu) = (⊥ : EReal) := by
    rw [val_main_cst_1_apply, Ideal.ofBits_def, ofBits_neg_inf]
  rw [hinit]
  have hf : (y ∘ h.lift (ix2 bt i)) = fun k : Fin 2048 => ((s bt i k : ℝ) : EReal) := funext fun k => by
    show y (h.lift (ix2 bt i) k) = _
    rw [lift_ix3 h bt i k]; exact hy bt i _
  refine Eq.trans ?_ (fold_max_coe Finset.univ Finset.univ_nonempty (s bt i))
  exact congrArg (fun f => Finset.fold max (⊥ : EReal) f (Finset.univ : Finset (Fin 2048))) hf

/-- The row maximum at (batch, query): the reduce from −∞, then one more maximum with a broadcast −∞. -/
private theorem rowmax_value (x0 : TX) (x1 : TW) (x2 : TB) (x3 : TW) (x4 : TB)
    (h0 : Cert.Spec.Finite x0) (h1 : Cert.Spec.Finite x1) (h2 : Cert.Spec.Finite x2) (h3 : Cert.Spec.Finite x3)
    (h4 : Cert.Spec.Finite x4) (bt : Fin 8) (i : Fin 2048) :
    val_main_v20 (F := Ideal) x0 x1 x2 x3 x4 (ix2 bt i)
      = ((Cert.Spec.rowMax (Cert.Spec.proj x0 x1 x2) (Cert.Spec.proj x0 x3 x4) bt i : ℝ) : EReal) := by
  rw [val_main_v20_apply, val_main_v19_apply, val_main_cst_2_apply, Ideal.maximumf_def, Ideal.ofBits_def, ofBits_neg_inf,
    bot_sup_eq]
  unfold val_main_v18
  exact reduce_max_value _ _ (score_value x0 x1 x2 x3 x4 h0 h1 h2 h3 h4) _ _ bt i

/-- The exponential stage at (batch, query, key): the score minus the row maximum, broadcast back along the keys, under
    the exponential. -/
private theorem exp_value (x0 : TX) (x1 : TW) (x2 : TB) (x3 : TW) (x4 : TB)
    (h0 : Cert.Spec.Finite x0) (h1 : Cert.Spec.Finite x1) (h2 : Cert.Spec.Finite x2) (h3 : Cert.Spec.Finite x3)
    (h4 : Cert.Spec.Finite x4) (bt : Fin 8) (i j : Fin 2048) :
    val_main_v24 (F := Ideal) x0 x1 x2 x3 x4 (ix3 bt i j)
      = ((Real.exp (Cert.Spec.score (Cert.Spec.proj x0 x1 x2) (Cert.Spec.proj x0 x3 x4) bt i j
          - Cert.Spec.rowMax (Cert.Spec.proj x0 x1 x2) (Cert.Spec.proj x0 x3 x4) bt i) : ℝ) : EReal) := by
  rw [val_main_v24_apply, val_main_v23_apply, val_main_v22_apply, val_main_v21_apply, Ideal.hostUnary_exp_def,
    Ideal.subf_def]
  have e : idx_main_v21 (idx_main_v22 (ix3 bt i j)) = ix2 bt i := funext fun a => by
    match a with
    | ⟨0, _⟩ => rfl
    | ⟨1, _⟩ => rfl
  rw [e, score_value x0 x1 x2 x3 x4 h0 h1 h2 h3 h4, rowmax_value x0 x1 x2 x3 x4 h0 h1 h2 h3 h4, ← EReal.coe_sub,
    Ideal.exp_coe]

/-- The row's sum of exponentials at (batch, query): zero plus the sum over the keys. -/
private theorem sum_value (x0 : TX) (x1 : TW) (x2 : TB) (x3 : TW) (x4 : TB)
    (h0 : Cert.Spec.Finite x0) (h1 : Cert.Spec.Finite x1) (h2 : Cert.Spec.Finite x2) (h3 : Cert.Spec.Finite x3)
    (h4 : Cert.Spec.Finite x4) (bt : Fin 8) (i : Fin 2048) :
    val_main_v25 (F := Ideal) x0 x1 x2 x3 x4 (ix2 bt i)
      = ((∑ j : Fin 2048, Real.exp (Cert.Spec.score (Cert.Spec.proj x0 x1 x2) (Cert.Spec.proj x0 x3 x4) bt i j
          - Cert.Spec.rowMax (Cert.Spec.proj x0 x1 x2) (Cert.Spec.proj x0 x3 x4) bt i) : ℝ) : EReal) := by
  rw [val_main_v25_apply, val_main_cst_3_apply, Ideal.ofBits_def, Ideal.ofBits_zero_f32, zero_add]
  have e : ∀ k : Fin 2048, idx_main_v25 (ix2 bt i) k = ix3 bt i k := fun k => funext fun a => by
    match a with
    | ⟨0, _⟩ => rfl
    | ⟨1, _⟩ => rfl
    | ⟨2, _⟩ => rfl
  simp only [e, exp_value x0 x1 x2 x3 x4 h0 h1 h2 h3 h4]
  exact coe_sum _ _

/-- The softmax weight at (batch, query, key): the exponential over the row's sum, which is a positive real. -/
private theorem weight_value (x0 : TX) (x1 : TW) (x2 : TB) (x3 : TW) (x4 : TB)
    (h0 : Cert.Spec.Finite x0) (h1 : Cert.Spec.Finite x1) (h2 : Cert.Spec.Finite x2) (h3 : Cert.Spec.Finite x3)
    (h4 : Cert.Spec.Finite x4) (bt : Fin 8) (i j : Fin 2048) :
    val_main_v28 (F := Ideal) x0 x1 x2 x3 x4 (ix3 bt i j)
      = ((Real.exp (Cert.Spec.score (Cert.Spec.proj x0 x1 x2) (Cert.Spec.proj x0 x3 x4) bt i j
            - Cert.Spec.rowMax (Cert.Spec.proj x0 x1 x2) (Cert.Spec.proj x0 x3 x4) bt i)
          / ∑ j' : Fin 2048, Real.exp (Cert.Spec.score (Cert.Spec.proj x0 x1 x2) (Cert.Spec.proj x0 x3 x4) bt i j'
            - Cert.Spec.rowMax (Cert.Spec.proj x0 x1 x2) (Cert.Spec.proj x0 x3 x4) bt i) : ℝ) : EReal) := by
  rw [val_main_v28_apply, val_main_v27_apply, val_main_v26_apply, Ideal.hostDivf_def]
  have e : idx_main_v26 (idx_main_v27 (ix3 bt i j)) = ix2 bt i := funext fun a => by
    match a with
    | ⟨0, _⟩ => rfl
    | ⟨1, _⟩ => rfl
  rw [e, exp_value x0 x1 x2 x3 x4 h0 h1 h2 h3 h4, sum_value x0 x1 x2 x3 x4 h0 h1 h2 h3 h4]
  exact div_coe_coe _ _ (ne_of_gt (Finset.sum_pos (fun _ _ => Real.exp_pos _) Finset.univ_nonempty))

/-- The result at (batch, query, feature): the contraction of the weights with the third projection over the keys. -/
private theorem result_value (x0 : TX) (x1 : TW) (x2 : TB) (x3 : TW) (x4 : TB) (x5 : TW) (x6 : TB)
    (h0 : Cert.Spec.Finite x0) (h1 : Cert.Spec.Finite x1) (h2 : Cert.Spec.Finite x2) (h3 : Cert.Spec.Finite x3)
    (h4 : Cert.Spec.Finite x4) (h5 : Cert.Spec.Finite x5) (h6 : Cert.Spec.Finite x6)
    (bt : Fin 8) (i : Fin 2048) (d : Fin 1024) :
    val_main_v29 (F := Ideal) x0 x1 x2 x3 x4 x5 x6 (ix3 bt i d)
      = ((Cert.Spec.attn (Cert.Spec.proj x0 x1 x2) (Cert.Spec.proj x0 x3 x4) (Cert.Spec.proj x0 x5 x6) bt i d : ℝ) : EReal) := by
  rw [val_main_v29_apply, v11_eq_v3]
  have el : ∀ k : Fin 2048, lidx_main_v29 (ix3 bt i d) k = ix3 bt i k := fun k => funext fun a => by
    match a with
    | ⟨0, _⟩ => rfl
    | ⟨1, _⟩ => rfl
    | ⟨2, _⟩ => rfl
  have er : ∀ k : Fin 2048, ridx_main_v29 (ix3 bt i d) k = ix3 bt k d := fun k => funext fun a => by
    match a with
    | ⟨0, _⟩ => rfl
    | ⟨1, _⟩ => rfl
    | ⟨2, _⟩ => rfl
  simp only [el, er, weight_value x0 x1 x2 x3 x4 h0 h1 h2 h3 h4, proj_value x0 x5 x6 h0 h5 h6]
  unfold Cert.Spec.attn
  exact coe_sum_mul _ _ _

/-- THE REFERENCE IS THE SPECIFICATION: with every argument entry a real number, the reference program's result array
    is `G` of the seven arguments. -/
theorem ref_is_G (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : Cert.Spec.Finite x0) (h1 : Cert.Spec.Finite x1) (h2 : Cert.Spec.Finite x2) (h3 : Cert.Spec.Finite x3)
    (h4 : Cert.Spec.Finite x4) (h5 : Cert.Spec.Finite x5) (h6 : Cert.Spec.Finite x6) :
    Cert.ReferenceIdeal.Read.val_main_v29 (F := Ideal) x0 x1 x2 x3 x4 x5 x6 = Cert.Spec.G x0 x1 x2 x3 x4 x5 x6 := by
  funext i
  obtain ⟨bt, n, d, rfl⟩ : ∃ (bt : Fin 8) (n : Fin 2048) (d : Fin 1024), i = ix3 bt n d :=
    ⟨i 0, i 1, i 2, eq_ix3 i⟩
  exact result_value x0 x1 x2 x3 x4 x5 x6 h0 h1 h2 h3 h4 h5 h6 bt n d

end Cert.Proof.RefValue

end
-- ==== Proof.FiniteInputs.lean ====
/-
  Every entry of every argument is a real number, read off the precondition.

  The precondition is, for each of the seven argument arrays, the conjunction over all entries of |x| < +∞, and the
  conjunction of the seven results. If it holds then each conjunct holds at every entry; |x| is max x (−x), which is
  +∞ at both infinities, so an entry with |x| < +∞ is neither, and an extended real that is neither infinity is the
  coercion of its real part.
-/
import proofs.«105470_j53377853555119_2_alg».proof.Proof.Spec
import proofs.«105470_j53377853555119_2_alg».proof.Pre_finite_inputs
import proofs.«105470_j53377853555119_2_alg».proof.Proof.Gen.Pre_finite_inputs
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx Cert.Pre_finite_inputs

/-- The scalar shape has one index. -/
private instance : Subsingleton S_.Idx := ⟨fun a b => funext fun d => d.elim0⟩

/-- The word `0x7F800000` is +∞. -/
private theorem ofBits_inf : Ideal.ofBits .f32 0x7F800000#32 = (⊤ : EReal) := by
  simp [Ideal.ofBits, Ideal.ieee]

/-- An extended real whose absolute value max x (−x) is below +∞ is the coercion of its real part. -/
private theorem eq_coe_toReal_of_abs_lt_top (x : EReal) (h : max x (-x) < ⊤) : x = ((x.toReal : ℝ) : EReal) := by
  have htop : x ≠ ⊤ := fun e => by rw [e] at h; simp at h
  have hbot : x ≠ ⊥ := fun e => by rw [e] at h; simp at h
  exact (EReal.coe_toReal htop hbot).symm

/-- ONE ARRAY, of any shape: if the conjunction over all entries of |x| < +∞ (the absolute value compared with the
    broadcast constant +∞, reduced by `and` from `true` into a scalar) is `true`, every entry is a real number. -/
private theorem finite_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf .olt (Host.absf x) (broadcastInDim S ![] hb (constant (F := Ideal) S_ .f32 0x7F800000#32)))
        (constantI S_ 1 1#1) hr hu ix0 = 1#1) :
    Cert.Spec.Finite x := by
  intro i
  have hi := Host.reduce_andi_all _ _ hr hu ix0 e i
  have hc : Ideal.cmp .olt (max (x i) (-(x i))) (Ideal.ofBits .f32 0x7F800000#32) = 1#1 := hi
  rw [ofBits_inf] at hc
  refine eq_coe_toReal_of_abs_lt_top (x i) ?_
  by_contra hn
  simp [Ideal.cmp, hn] at hc

/-- THE PRECONDITION GIVES FINITENESS: if the printed predicate is `true`, every entry of each of the seven argument
    arrays is a real number. -/
theorem finite_of_pre (x0 : FVec Ideal S8x2048x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32)
    (h : Cert.Pre_finite_inputs.fn (F := Ideal) x0 x1 x2 x3 x4 x5 x6 = (fun _ => 1#1)) :
    Cert.Spec.Finite x0 ∧ Cert.Spec.Finite x1 ∧ Cert.Spec.Finite x2 ∧ Cert.Spec.Finite x3 ∧ Cert.Spec.Finite x4
      ∧ Cert.Spec.Finite x5 ∧ Cert.Spec.Finite x6 := by
  have h' := congrFun h ix0
  dsimp only [Cert.Pre_finite_inputs.fn, Cert.Pre_finite_inputs.fn_part1] at h'
  obtain ⟨h28, e6⟩ := IntOp.andi_eq_one.1 h'
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨finite_of_all x0 _ _ _ e0, finite_of_all x1 _ _ _ e1, finite_of_all x2 _ _ _ e2, finite_of_all x3 _ _ _ e3,
    finite_of_all x4 _ _ _ e4, finite_of_all x5 _ _ _ e5, finite_of_all x6 _ _ _ e6⟩

end Cert.Proof.FiniteInputs

end
-- ==== Proof.BitsRegion0.lean ====
/-
  The first kernel region (the fused projection): one grid axis of 32 points; at point t the body reads rows
  512·t … 512·t+511 of the flattened input, the whole concatenated weight and the whole concatenated bias, and writes
  rows 512·t … 512·t+511 of the projected array as one whole-block store.  This module states, at any entry contents
  `V` of the core's buffers, what each window's staging buffer holds before and after the body at every point, proves
  the body's triple by symbolic execution, and assembles the pipeline's proof data and body obligation.
-/
import proofs.«105470_j53377853555119_2_alg».proof.Proof.Gen.Kernel.Launch
import proofs.«105470_j53377853555119_2_alg».proof.Proof.Gen.Kernel.Skeleton
import proofs.«105470_j53377853555119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's accesses: each is the whole staging block. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- The output window's staging buffer after the body, from the three input blocks: its one store. -/
def out3 (x0 : Vec F S512x1024 .f32) (x1 : Vec F S1024x3072 .bf16) (x2 : Vec F S1x3072 .f32) : Vec F S512x3072 .bf16 :=
  View.canon [⟨rO, k0_pay1 (View.ld x0 rX) (View.ld x1 rW) (View.ld x2 rB)⟩]

/-- The one store covers the buffer. -/
theorem cover3 (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs: the inputs end as they were, the output at `out3` of the inputs. -/
theorem sound_kernel (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0_qkv_kernel i arg1 harg1 arg2 harg2 arg3 harg3 arg4 harg4) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the region on core `c`: the arrays as the region finds them; after the body at point `t` each
    input's buffer at its block and the output's at `out3` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.BitsRegion1Base.lean ====
/-
  The second kernel region (attention by the online softmax): a grid of 8 batches × 2 query blocks × 4 key blocks,
  the key block innermost.  Per point the body reads one block of 1024 queries, one block of 512 keys and one of 512
  values (three windows on the SAME projected array), keeps a running maximum, a running denominator and a running
  numerator in three scratch buffers carried from one key block to the next, and stores the quotient into the output
  block at the last key block only.  This module holds what the three control cases share: the two branch conditions
  in closed form over the grid, where the output window is idle, the staging and scratch memrefs, and the region's
  invariant spelt out buffer by buffer.
-/
import proofs.«105470_j53377853555119_2_alg».proof.Proof.Gen.Kernel.Launch
import proofs.«105470_j53377853555119_2_alg».proof.Proof.Gen.Kernel.Skeleton
import proofs.«105470_j53377853555119_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's first branch: "this is the first key block" (the running state is reset). -/
abbrev condI (i : grid1.Coords) : Prop := (Scalar.cmpi .ne (Scalar.extui (Scalar.cmpi .eq (BitVec.ofNat 32 (i 2).val) 0#32)) 0#32) = 1#1
/-- It holds at the points ≡ 0 (mod 4). -/
theorem hcondI : ∀ t : Fin cfg1.N, condI (grid1.coords t) ↔ t.val % 4 = 0 :=
  (by decide +kernel : ∀ t : Fin grid1.N, condI (grid1.coords t) ↔ t.val % 4 = 0)
/-- The body's second branch: "this is the last key block" (the quotient is stored). -/
abbrev condF (i : grid1.Coords) : Prop := k1_cond2 i = 1#1
/-- It holds at the points ≡ 3 (mod 4). -/
theorem hcondF : ∀ t : Fin cfg1.N, condF (grid1.coords t) ↔ t.val % 4 = 3 :=
  (by decide +kernel : ∀ t : Fin grid1.N, condF (grid1.coords t) ↔ t.val % 4 = 3)

/-- The input windows are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Away from the last key block the output window is idle and is not written back. -/
theorem idleAt_3 : ∀ t : Fin cfg1.N, ¬condF (grid1.coords t) → cfg1.idle 3 (grid1.coords t) = true := by decide +kernel
theorem noFlush_3 : ∀ t : Fin cfg1.N, ¬condF (grid1.coords t) → (cfg1.win 3).flush t = false := by decide +kernel
/-- At the last key block it is live. -/
theorem liveAt_3 : ∀ t : Fin cfg1.N, condF (grid1.coords t) → cfg1.idle 3 (grid1.coords t) = false := by decide +kernel

/-- One staging buffer of the output window, through which its contents are stated. -/
abbrev VO3 : View sig .tc .vmem S1x1024x1024 .f32 := (Memref.whole cc1_stg3_0 : Memref sig .tc .vmem S1x1024x1024 .f32).view
/-- Each window's current staging memref at point `t`, and its wholeness. -/
abbrev ms_0 (t : Fin cfg1.N) : Memref sig .tc .vmem S1x1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024x1024 .f32 := win1_3.stage (cfg1.slots t 3)
abbrev hs_3 (t : Fin cfg1.N) : (ms_3 t).IsWhole := hstage1_3 ((cfg1.slots t 3).cast nbuf1_3)
/-- The three scratch buffers: the running maximum, the running denominator, the running numerator. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2
abbrev VS0 : View sig .tc .vmem S1024x1 .f32 := scM0.view
abbrev VS1 : View sig .tc .vmem S1024x1 .f32 := scM1.view
abbrev VS2 : View sig .tc .vmem S1024x1024 .f32 := scM2.view

/-- A scoped buffer this region never touches, at some contents. -/
abbrev other (c : Dev nD) (r : Ref sig .tc) : sProp 𝕄 :=
  iprop(∃ f : Buf (Elt F) ((c : Thread nD τ).loc r), ((c : Thread nD τ).loc r) ↦{fullShare} f)

/-- The six staging buffers of the first region, which ride through this region untouched. -/
abbrev others (c : Dev nD) : sProp 𝕄 :=
  iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1)

/-- The region's invariant before the first point, buffer by buffer: the first region's staging buffers, the three
    scratch buffers at some contents, the generator register at some state. -/
theorem PhiA_eq (c : Dev nD) :
    (Pipeline.ΦA spec1 c : sProp 𝕄)
      = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
          ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

end Cert.Kernel.Region1

end
-- ==== Proof.BitsRegion1RunA.lean ====
/-
  The whole-body run of the attention kernel in control case A: on whole staging memrefs and scratch buffers the body
  runs to its end, the inputs' buffers as they were and each buffer it stores into holding its stores written as pieces;
  the pieces are found by the symbolic run.
-/
import proofs.«105470_j53377853555119_2_alg».proof.Proof.BitsRegion1Base

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Region1

end
-- ==== Proof.BitsRegion1RunB.lean ====
/-
  The whole-body run of the attention kernel in control case B: on whole staging memrefs and scratch buffers the body
  runs to its end, the inputs' buffers as they were and each buffer it stores into holding its stores written as pieces;
  the pieces are found by the symbolic run.
-/
import proofs.«105470_j53377853555119_2_alg».proof.Proof.BitsRegion1RunA

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Region1

end
-- ==== Proof.BitsRegion1RunC.lean ====
/-
  The whole-body run of the attention kernel in control case C: on whole staging memrefs and scratch buffers the body
  runs to its end, the inputs' buffers as they were and each buffer it stores into holding its stores written as pieces;
  the pieces are found by the symbolic run.
-/
import proofs.«105470_j53377853555119_2_alg».proof.Proof.BitsRegion1RunB

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]; · iexists _; iexact HS0
    isplitl [HS1]; · iexists _; iexact HS1
    iexists _; iexact HS2

end Cert.Kernel.Region1

end
-- ==== Proof.BitsRegion1Frame.lean ====
/-
  The second region's proof data and body obligation.  Per control case, what the body leaves in the output block and in
  the three scratch buffers (its stores read back; they tile each buffer); point by point, what those buffers hold after
  the body (the first key block starts afresh, the later ones continue from what the key block before left, the last
  also stores the output block); the region's invariant, which from the second point on holds the three scratch buffers at
  exactly what the point before left; and the body's triple at every point, by the three whole-body runs.
-/
import proofs.«105470_j53377853555119_2_alg».proof.Proof.BitsRegion1RunC

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In case A the stores into scratch 0 tile it, so they cover it. -/
theorem scover_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1.Idx) :
    ∃ pc ∈ (kernelRun_A c i arg3 harg3 arg4 harg4 arg5 harg5 arg6 harg6 arg7 harg7 arg8 harg8 arg9 harg9 hcI hcF x0 x1 x2).2.1, y ∈ pc.1.set :=
  View.cover_of_tiledL (kernelRun_A c i arg3 harg3 arg4 harg4 arg5 harg5 arg6 harg6 arg7 harg7 arg8 harg8 arg9 harg9 hcI hcF x0 x1 x2).2.1 S1024x1.size (by sl_kernel_rfl) y
/-- What case A leaves in scratch 0: its pieces read back. -/
def sout_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1 .f32 :=
  VS0.read (Elt F) (VS0.writes (Elt F) VS0.junk (kernelRun_A c i arg3 harg3 arg4 harg4 arg5 harg5 arg6 harg6 arg7 harg7 arg8 harg8 arg9 harg9 hcI hcF x0 x1 x2).2.1)
/-- In case A the stores into scratch 1 tile it, so they cover it. -/
theorem scover_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1.Idx) :
    ∃ pc ∈ (kernelRun_A c i arg3 harg3 arg4 harg4 arg5 harg5 arg6 harg6 arg7 harg7 arg8 harg8 arg9 harg9 hcI hcF x0 x1 x2).2.2.1, y ∈ pc.1.set :=
  View.cover_of_tiledL (kernelRun_A c i arg3 harg3 arg4 harg4 arg5 harg5 arg6 harg6 arg7 harg7 arg8 harg8 arg9 harg9 hcI hcF x0 x1 x2).2.2.1 S1024x1.size (by sl_kernel_rfl) y
/-- What case A leaves in scratch 1: its pieces read back. -/
def sout_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1 .f32 :=
  VS1.read (Elt F) (VS1.writes (Elt F) VS1.junk (kernelRun_A c i arg3 harg3 arg4 harg4 arg5 harg5 arg6 harg6 arg7 harg7 arg8 harg8 arg9 harg9 hcI hcF x0 x1 x2).2.2.1)
/-- In case A the stores into scratch 2 tile it, so they cover it. -/
theorem scover_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1024.Idx) :
    ∃ pc ∈ (kernelRun_A c i arg3 harg3 arg4 harg4 arg5 harg5 arg6 harg6 arg7 harg7 arg8 harg8 arg9 harg9 hcI hcF x0 x1 x2).2.2.2.1, y ∈ pc.1.set :=
  View.cover_of_tiledL (kernelRun_A c i arg3 harg3 arg4 harg4 arg5 harg5 arg6 harg6 arg7 harg7 arg8 harg8 arg9 harg9 hcI hcF x0 x1 x2).2.2.2.1 S1024x1024.size (by sl_kernel_rfl) y
/-- What case A leaves in scratch 2: its pieces read back. -/
def sout_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1024 .f32 :=
  VS2.read (Elt F) (VS2.writes (Elt F) VS2.junk (kernelRun_A c i arg3 harg3 arg4 harg4 arg5 harg5 arg6 harg6 arg7 harg7 arg8 harg8 arg9 harg9 hcI hcF x0 x1 x2).2.2.2.1)

/-- In case B the stores into scratch 0 tile it, so they cover it. -/
theorem scover_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_B c i arg3 harg3 arg4 harg4 arg5 harg5 arg6 harg6 arg7 harg7 arg8 harg8 arg9 harg9 hcI hcF x0 x1 x2 xs0 xs1 xs2).2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.1 S1024x1.size (by sl_kernel_rfl) y
/-- What case B leaves in scratch 0: its pieces read back. -/
def sout_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS0.read (Elt F) (VS0.writes (Elt F) VS0.junk (kernelRun_B c i arg3 harg3 arg4 harg4 arg5 harg5 arg6 harg6 arg7 harg7 arg8 harg8 arg9 harg9 hcI hcF x0 x1 x2 xs0 xs1 xs2).2.1)
/-- In case B the stores into scratch 1 tile it, so they cover it. -/
theorem scover_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_B c i arg3 harg3 arg4 harg4 arg5 harg5 arg6 harg6 arg7 harg7 arg8 harg8 arg9 harg9 hcI hcF x0 x1 x2 xs0 xs1 xs2).2.2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.2.1 S1024x1.size (by sl_kernel_rfl) y
/-- What case B leaves in scratch 1: its pieces read back. -/
def sout_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1.read (Elt F) (VS1.writes (Elt F) VS1.junk (kernelRun_B c i arg3 harg3 arg4 harg4 arg5 harg5 arg6 harg6 arg7 harg7 arg8 harg8 arg9 harg9 hcI hcF x0 x1 x2 xs0 xs1 xs2).2.2.1)
/-- In case B the stores into scratch 2 tile it, so they cover it. -/
theorem scover_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun_B c i arg3 harg3 arg4 harg4 arg5 harg5 arg6 harg6 arg7 harg7 arg8 harg8 arg9 harg9 hcI hcF x0 x1 x2 xs0 xs1 xs2).2.2.2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.2.2.1 S1024x1024.size (by sl_kernel_rfl) y
/-- What case B leaves in scratch 2: its pieces read back. -/
def sout_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS2.read (Elt F) (VS2.writes (Elt F) VS2.junk (kernelRun_B c i arg3 harg3 arg4 harg4 arg5 harg5 arg6 harg6 arg7 harg7 arg8 harg8 arg9 harg9 hcI hcF x0 x1 x2 xs0 xs1 xs2).2.2.2.1)

/-- In case C the stores into scratch 0 tile it, so they cover it. -/
theorem scover_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_C c i arg3 harg3 arg4 harg4 arg5 harg5 arg6 harg6 arg7 harg7 arg8 harg8 arg9 harg9 hcI hcF x0 x1 x2 xs0 xs1 xs2).2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.1 S1024x1.size (by sl_kernel_rfl) y
/-- What case C leaves in scratch 0: its pieces read back. -/
def sout_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS0.read (Elt F) (VS0.writes (Elt F) VS0.junk (kernelRun_C c i arg3 harg3 arg4 harg4 arg5 harg5 arg6 harg6 arg7 harg7 arg8 harg8 arg9 harg9 hcI hcF x0 x1 x2 xs0 xs1 xs2).2.1)
/-- In case C the stores into scratch 1 tile it, so they cover it. -/
theorem scover_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_C c i arg3 harg3 arg4 harg4 arg5 harg5 arg6 harg6 arg7 harg7 arg8 harg8 arg9 harg9 hcI hcF x0 x1 x2 xs0 xs1 xs2).2.2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.2.1 S1024x1.size (by sl_kernel_rfl) y
/-- What case C leaves in scratch 1: its pieces read back. -/
def sout_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1.read (Elt F) (VS1.writes (Elt F) VS1.junk (kernelRun_C c i arg3 harg3 arg4 harg4 arg5 harg5 arg6 harg6 arg7 harg7 arg8 harg8 arg9 harg9 hcI hcF x0 x1 x2 xs0 xs1 xs2).2.2.1)
/-- In case C the stores into scratch 2 tile it, so they cover it. -/
theorem scover_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun_C c i arg3 harg3 arg4 harg4 arg5 harg5 arg6 harg6 arg7 harg7 arg8 harg8 arg9 harg9 hcI hcF x0 x1 x2 xs0 xs1 xs2).2.2.2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.2.2.1 S1024x1024.size (by sl_kernel_rfl) y
/-- What case C leaves in scratch 2: its pieces read back. -/
def sout_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS2.read (Elt F) (VS2.writes (Elt F) VS2.junk (kernelRun_C c i arg3 harg3 arg4 harg4 arg5 harg5 arg6 harg6 arg7 harg7 arg8 harg8 arg9 harg9 hcI hcF x0 x1 x2 xs0 xs1 xs2).2.2.2.1)
/-- In the last case the store into the output block tiles it, so it covers it. -/
theorem cover_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun_C c i arg3 harg3 arg4 harg4 arg5 harg5 arg6 harg6 arg7 harg7 arg8 harg8 arg9 harg9 hcI hcF x0 x1 x2 xs0 xs1 xs2).1, y ∈ pc.1.set :=
  View.cover_of_tiledL (kernelRun_C c i arg3 harg3 arg4 harg4 arg5 harg5 arg6 harg6 arg7 harg7 arg8 harg8 arg9 harg9 hcI hcF x0 x1 x2 xs0 xs1 xs2).1 S1x1024x1024.size (by sl_kernel_rfl) y
/-- What the last case leaves in the output block: its pieces read back. -/
def out_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (kernelRun_C c i arg3 harg3 arg4 harg4 arg5 harg5 arg6 harg6 arg7 harg7 arg8 harg8 arg9 harg9 hcI hcF x0 x1 x2 xs0 xs1 xs2).1)

/-- The output block and the three scratch buffers, as one tuple. -/
abbrev Out4 : Type := Vec F S1x1024x1024 .f32 × Vec F S1024x1 .f32 × Vec F S1024x1 .f32 × Vec F S1024x1024 .f32

/-- A placeholder for the output block at the points that do not store into it (nothing reads it). -/
def junk3 : Vec F S1x1024x1024 .f32 := VO3.read (Elt F) (VO3.writes (Elt F) VO3.junk [])

/-- What a point of case A leaves in the output block and the three scratch buffers. -/
def stepA (c : Dev nD) (t : Fin cfg1.N) (hI : condI (grid1.coords t)) (hF : ¬condF (grid1.coords t)) : Out4 (F := F) :=
  (junk3, sout_A_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t), sout_A_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t), sout_A_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t))

/-- What a point of case B leaves in the output block and the three scratch buffers, from what the point before left. -/
def stepB (c : Dev nD) (t : Fin cfg1.N) (hI : ¬condI (grid1.coords t)) (hF : ¬condF (grid1.coords t)) (prev : Out4 (F := F)) : Out4 (F := F) :=
  (junk3, sout_B_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_B_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_B_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2)

/-- What a point of case C leaves in the output block and the three scratch buffers, from what the point before left. -/
def stepC (c : Dev nD) (t : Fin cfg1.N) (hI : ¬condI (grid1.coords t)) (hF : condF (grid1.coords t)) (prev : Out4 (F := F)) : Out4 (F := F) :=
  (out_C_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2)

/-- THE ACCUMULATION: what the output block and the scratch buffers hold after the body at position `n`. -/
def outsAt (c : Dev nD) : (n : ℕ) → n < cfg1.N → Out4 (F := F)
  | 0, hn => stepA V c ⟨0, hn⟩ ((hcondI ⟨0, hn⟩).mpr (Nat.zero_mod _)) (fun h => (fun h => by (try dsimp only at h); omega) ((hcondF ⟨0, hn⟩).mp h))
  | n + 1, hn =>
    if h0 : (n + 1) % 4 = 0 then
      stepA V c ⟨n + 1, hn⟩ ((hcondI ⟨n + 1, hn⟩).mpr h0) (fun h => (fun h => by (try dsimp only at h); omega) ((hcondF ⟨n + 1, hn⟩).mp h))
    else if h3 : (n + 1) % 4 = 3 then
      stepC V c ⟨n + 1, hn⟩ (fun h => h0 ((hcondI ⟨n + 1, hn⟩).mp h)) ((hcondF ⟨n + 1, hn⟩).mpr h3) (outsAt c n (Nat.lt_of_succ_lt hn))
    else
      stepB V c ⟨n + 1, hn⟩ (fun h => h0 ((hcondI ⟨n + 1, hn⟩).mp h)) (fun h => h3 ((hcondF ⟨n + 1, hn⟩).mp h)) (outsAt c n (Nat.lt_of_succ_lt hn))

theorem outsAt_A (c : Dev nD) (t : Fin cfg1.N) (h0 : t.val % 4 = 0) :
    outsAt V c t.val t.isLt = stepA V c t ((hcondI t).mpr h0) (fun h => (fun h => by omega) ((hcondF t).mp h)) := by
  obtain ⟨n, hn⟩ := t
  cases n with
  | zero => exact rfl
  | succ n => exact (dif_pos h0).trans rfl

theorem outsAt_B (c : Dev nD) (t : Fin cfg1.N) (h0 : ¬t.val % 4 = 0) (h3 : ¬t.val % 4 = 3) :
    outsAt V c t.val t.isLt = stepB V c t (fun h => h0 ((hcondI t).mp h)) (fun h => h3 ((hcondF t).mp h)) (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem outsAt_C (c : Dev nD) (t : Fin cfg1.N) (h0 : ¬t.val % 4 = 0) (h3 : t.val % 4 = 3) :
    outsAt V c t.val t.isLt = stepC V c t (fun h => h0 ((hcondI t).mp h)) ((hcondF t).mpr h3) (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The region's invariant before position `n`: before the first point every scratch buffer at anything; afterwards
    each scratch buffer at what the point before left in it. -/
def PhiS (c : Dev nD) : (n : ℕ) → n ≤ cfg1.N → sProp 𝕄
  | 0, _ => Pipeline.ΦA spec1 c
  | n + 1, hn => iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r)) := rfl

theorem PhiS_pos (c : Dev nD) (n : ℕ) (h : n ≤ cfg1.N) (hz : n ≠ 0) :
    PhiS V c n h = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ (∃ r, prngReg c r)) := by
  cases n with
  | zero => exact absurd rfl hz
  | succ n => rfl

/-- The proof data of the region on core `c`.  The three input windows sit on ONE array and hold the left half, the
    right half's left half and the right half's right half of its full share; the output's array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the closed forms of the two conditions say which case the point is in; the invariant hands
    the body the scratch buffers at what the point before left and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  rw [show (dat V c).leavesExact 2 t = owns (c : Thread nD τ) (ms_2 t) fullShare ((dat V c).after 2 t) from by
      unfold Dat.leavesExact; rw [liveAt_2 t], after_2]
  by_cases h0 : t.val % 4 = 0
  · have hI : condI (grid1.coords t) := (hcondI t).mpr h0
    have hF : ¬condF (grid1.coords t) := fun h => (fun h => by omega) ((hcondF t).mp h)
    rw [Dat.leavesExact_idle (dat V c) 3 t (idleAt_3 t hF) (noFlush_3 t hF)]
    rw [outsAt_A V c t h0]
    unfold stepA sout_A_0 sout_A_1 sout_A_2; (try dsimp only)
    by_cases hz : t.val = 0
    · rw [PhiS_castSucc V c t, PhiS_zero V c _ _ hz, PhiA_eq]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_A c (grid1.coords t) _ _ _ _ _ _ _ _ _ _ _ _ _ _ hI hF (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_A_0 c _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _)
          unfold owns; iexists _; isplitr
          swap; · iexact HS2
          ipureintro; exact View.read_writes_of_cover _ _ _ _ _ (scover_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_A c (grid1.coords t) _ _ _ _ _ _ _ _ _ _ _ _ _ _ hI hF (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_A_0 c _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _)
          unfold owns; iexists _; isplitr
          swap; · iexact HS2
          ipureintro; exact View.read_writes_of_cover _ _ _ _ _ (scover_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hI : ¬condI (grid1.coords t) := fun h => h0 ((hcondI t).mp h)
    have hz : t.val ≠ 0 := fun e => h0 (by rw [e])
    by_cases h3 : t.val % 4 = 3
    · have hF : condF (grid1.coords t) := (hcondF t).mpr h3
      rw [show (dat V c).leavesExact 3 t = owns (c : Thread nD τ) (ms_3 t) fullShare ((dat V c).after 3 t) from by
        unfold Dat.leavesExact; rw [liveAt_3 t hF], after_3]
      rw [outsAt_C V c t h0 h3]
      unfold stepC out_C_3 sout_C_0 sout_C_1 sout_C_2; (try dsimp only)
      rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_C c (grid1.coords t) _ _ _ _ _ _ _ _ _ _ _ _ _ _ hI hF (iblk V c 0 t) (iblk V c 1 t) (iblk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _)
          unfold owns; iexists _; isplitr
          swap; · iexact HS2
          ipureintro; exact View.read_writes_of_cover _ _ _ _ _ (scover_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_3 c _ _ _ _ _ _ _ _ _ _ _ _ _ _ _ _ _ _ _ _ _ _ _)
    · have hF : ¬condF (grid1.coords t) := fun h => h3 ((hcondF t).mp h)
      rw [Dat.leavesExact_idle (dat V c) 3 t (idleAt_3 t hF) (noFlush_3 t hF)]
      rw [outsAt_B V c t h0 h3]
      unfold stepB sout_B_0 sout_B_1 sout_B_2; (try dsimp only)
      rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_B c (grid1.coords t) _ _ _ _ _ _ _ _ _ _ _ _ _ _ hI hF (iblk V c 0 t) (iblk V c 1 t) (iblk V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _)
          unfold owns; iexists _; isplitr
          swap; · iexact HS2
          ipureintro; exact View.read_writes_of_cover _ _ _ _ _ (scover_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch buffers' named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HA0, HA1, HA2, HA3, HA4, HA5, HS0, HS1, HS2⟩, Hg⟩
  isplitl [HA0 HA1 HA2 HA3 HA4 HA5 HS0 HS1 HS2]
  · isplitl [HA0]; · iexact HA0
    isplitl [HA1]; · iexact HA1
    isplitl [HA2]; · iexact HA2
    isplitl [HA3]; · iexact HA3
    isplitl [HA4]; · iexact HA4
    isplitl [HA5]; · iexact HA5
    isplitl [HS0]; · iexists _; iexact HS0
    isplitl [HS1]; · iexists _; iexact HS1
    iexists _; iexact HS2
  iexact Hg

end Cert.Kernel.Region1

end
-- ==== Proof.BitsRun.lean ====
/-
  The whole run of the program: its four segments — the host operations that flatten the input and concatenate the
  weights and biases; the projection region; the reshape of the projected array; the attention region — chained over the
  contents of the core's buffers at each boundary.  Every weakly fair execution terminates without a fault; at the end the
  result array holds what the attention region's write-backs leave and the seven argument arrays hold what they held
  at launch.  In the attention region the projected array is read through three windows, which hold three parts of
  its full share (split at the region's entry, rejoined at its exit).
-/
import proofs.«105470_j53377853555119_2_alg».proof.Proof.BitsRegion0
import proofs.«105470_j53377853555119_2_alg».proof.Proof.BitsRegion1Frame
import proofs.«105470_j53377853555119_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev VE1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Region0.dat (VE1 m ρ) c).arrAt w cfg0.N
theorem W2_arr (c : Dev nD) (w : Fin cfg0.W) :
    W2 m ρ c (Proc.devRef .tc (Pipeline.arrRef spec0 w)) = (Region0.dat (VE1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VE2 : (c : Dev nD) → (b : Ref sig .tc) → Buf (Elt F) ((c : Thread nD τ).loc b) := fun c b => W2 m ρ c b
theorem hF0 (c : Dev nD) (w : Fin cfg0.W) : (Region0.dat (VE1 m ρ) c).arrAt w cfg0.N = VE2 m ρ c (Pipeline.arrRef spec0 w) :=
  (W2_arr m ρ c w).symm
theorem hrest0 (c : Dev nD) : ∀ b, b ∉ Finset.univ.image (Pipeline.arrRef spec0) → VE2 m ρ c b = VE1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev VE3 : (c : Dev nD) → (b : Ref sig .tc) → Buf (Elt F) ((c : Thread nD τ).loc b) := fun c b => W3 m ρ c b
/-- At the attention region's exit: the result array at what the write-backs leave, every other buffer as entered
    (the region's three input windows read one array and write nothing). -/
def W4 (c : Dev nD) : Valuation τ sig (Elt F) :=
  Function.update (W3 m ρ c) (Proc.devRef .tc main_v7) ((Region1.dat (VE3 m ρ) c).arrAt 3 cfg1.N : Buf (Elt F) ((c : Thread nD τ).loc main_v7))
theorem W4_main_v7 (c : Dev nD) : W4 m ρ c (Proc.devRef .tc main_v7) = (Region1.dat (VE3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..
abbrev VE4 : (c : Dev nD) → (b : Ref sig .tc) → Buf (Elt F) ((c : Thread nD τ).loc b) := fun c b => W4 m ρ c b

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (VE1 m ρ) c
  | ⟨1, _⟩ => fun c => Region1.dat (VE3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The attention region's arrays: one array through three windows -/

/-- The distinct buffers behind the attention region's arrays: the projected array and the result array. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v6) ↦{fullShare} Vv main_v6) ∗ (((c : Thread nD τ).loc main_v7) ↦{fullShare} Vv main_v7)) := by
  unfold Pipeline.arrBufs
  rw [show (Finset.univ.image (Pipeline.arrRef spec1)) = {main_v6, main_v7} from by decide]
  rw [BI.bigSep_insert (by decide), BI.bigSep_singleton]
  rfl

/-- The proof data's arrays, window by window: three parts of the projected array's share, the result array whole. -/
theorem arrays1_eq (c : Dev nD) (Fa : (w : Fin cfg1.W) → Buf (Elt F) ((cfg1.win w).arr.view.loc (c.tc : Thread nD τ))) :
    ((Region1.dat (VE3 m ρ) c).arrays Fa : sProp 𝕄)
      = iprop((((c : Thread nD τ).loc main_v6) ↦{fullShare.left} Fa 0) ∗ (((c : Thread nD τ).loc main_v6) ↦{fullShare.right.left} Fa 1)
          ∗ (((c : Thread nD τ).loc main_v6) ↦{fullShare.right.right} Fa 2) ∗ (((c : Thread nD τ).loc main_v7) ↦{fullShare} Fa 3)) := by
  unfold Dat.arrays
  rw [bigSep_W1, (arr_whole1 0).set_eq_univ, (arr_whole1 3).set_eq_univ]
  rfl

/-- ENTRY: the core's unscoped buffers are the region's arrays at the entry contents, the projected array's full share
    dealt among its three windows, and the unscoped rest. -/
theorem hsplit1 (c : Dev nD) :
    (unscopedBufs c (VE3 m ρ c) : sProp 𝕄)
      ⊢ iprop((Region1.dat (VE3 m ρ) c).arrays ((Region1.dat (VE3 m ρ) c).arrAt · 0) ∗ Pipeline.unscopedRest (Ix := Unit) (Name := ℕ) (U := UR sig nD τ) (Lvl := ℕ) spec1 c (VE3 m ρ c)) := by
  rw [Pipeline.unscopedBufs_split₀ cfgs 1 winFacts₀1.arr_unscoped c (VE3 m ρ c)]
  refine sep_mono ?_ .rfl
  rw [show (Pipeline.arrBufs (Ix := Unit) (Name := ℕ) (U := UR sig nD τ) (Lvl := ℕ) (cfgs 1).spec c (VE3 m ρ c) : sProp 𝕄) = Pipeline.arrBufs spec1 c (VE3 m ρ c) from rfl, arrBufs1_eq, arrays1_eq]
  iintro ⟨H6, H7⟩
  ihave H := (pointsTo_share (PosShare.mem_left_op_right fullShare)).1 $$ H6
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  iexact H7

/-- EXIT: the region's arrays after the last write-back — the three parts of the projected array, unchanged, rejoined;
    the result array — and the unscoped rest are the core's unscoped buffers at the exit contents. -/
theorem hjoin1 (c : Dev nD) :
    iprop((Region1.dat (VE3 m ρ) c).arrays ((Region1.dat (VE3 m ρ) c).arrAt · cfg1.N) ∗ Pipeline.unscopedRest (Ix := Unit) (Name := ℕ) (U := UR sig nD τ) (Lvl := ℕ) spec1 c (VE3 m ρ c))
      ⊢ (unscopedBufs c (VE4 m ρ c) : sProp 𝕄) := by
  rw [Pipeline.unscopedBufs_split₀ cfgs 1 winFacts₀1.arr_unscoped c (VE4 m ρ c)]
  refine sep_mono ?_ (Entails.of_eq ?_)
  · rw [show (Pipeline.arrBufs (Ix := Unit) (Name := ℕ) (U := UR sig nD τ) (Lvl := ℕ) (cfgs 1).spec c (VE4 m ρ c) : sProp 𝕄) = Pipeline.arrBufs spec1 c (VE4 m ρ c) from rfl, arrBufs1_eq, arrays1_eq,
      (Region1.dat (VE3 m ρ) c).arrAt_in 0 rfl, (Region1.dat (VE3 m ρ) c).arrAt_in 1 rfl, (Region1.dat (VE3 m ρ) c).arrAt_in 2 rfl]
    rw [show VE4 m ρ c main_v6 = VE3 m ρ c main_v6 from W4_of_ne m ρ c main_v6 (by decide),
      show VE4 m ρ c main_v7 = (Region1.dat (VE3 m ρ) c).arrAt 3 cfg1.N from W4_main_v7 m ρ c]
    iintro ⟨Hl, Hrl, Hrr, H7⟩
    isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H7
  · show Pipeline.unscopedRest (Ix := Unit) (Name := ℕ) (U := UR sig nD τ) (Lvl := ℕ) spec1 c (VE3 m ρ c) = Pipeline.unscopedRest spec1 c (VE4 m ρ c)
    unfold Pipeline.unscopedRest
    exact (bigSep_congr fun b hb => by
      rw [show VE4 m ρ c b = VE3 m ρ c b from W4_of_ne m ρ c b (fun e => (Finset.mem_sdiff.mp hb).2 (Finset.mem_image.mpr ⟨3, Finset.mem_univ _, e.symm⟩))]).symm

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (VE1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE1 m ρ c) (VE2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation (VE3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Region1.hin (VE3 m ρ) c)
    unfold Pipeline.ΦA
    iintro ⟨Hp, -, Hr⟩
    isplitl [Hr]; · iexact Hr
    iexact Hp
  hout c := by
    rw [Pipeline.ownSems0_none]
    refine (Region1.hout (VE3 m ρ) c).trans ?_
    unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has the result array at what the attention region's write-backs leave and the seven argument
    arrays as launched. -/
theorem run : θ_run defs (onTc (τ := τ) (main (F := F))) ⟨m, fun _ => 0, ρ⟩ (fun r => ∀ c : Dev nD,
      r.2.mem ((c.tc : Thread nD τ).loc main_v7) = (Region1.dat (VE3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Kernel.Run

end
-- ==== Proof.IdealRegion0.lean ====
/-
  The first kernel region (the fused projection): one grid axis of 32 points; at point t the body reads rows
  512·t … 512·t+511 of the flattened input, the whole concatenated weight and the whole concatenated bias, and writes
  rows 512·t … 512·t+511 of the projected array as one whole-block store.  This module states, at any entry contents
  `V` of the core's buffers, what each window's staging buffer holds before and after the body at every point, proves
  the body's triple by symbolic execution, and assembles the pipeline's proof data and body obligation.
-/
import proofs.«105470_j53377853555119_2_alg».proof.Proof.Gen.KernelIdeal.Launch
import proofs.«105470_j53377853555119_2_alg».proof.Proof.Gen.KernelIdeal.Skeleton
import proofs.«105470_j53377853555119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's accesses: each is the whole staging block. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- The output window's staging buffer after the body, from the three input blocks: its one store. -/
def out3 (x0 : Vec F S512x1024 .f32) (x1 : Vec F S1024x3072 .bf16) (x2 : Vec F S1x3072 .f32) : Vec F S512x3072 .bf16 :=
  View.canon [⟨rO, k0_pay1 (View.ld x0 rX) (View.ld x1 rW) (View.ld x2 rB)⟩]

/-- The one store covers the buffer. -/
theorem cover3 (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs: the inputs end as they were, the output at `out3` of the inputs. -/
theorem sound_kernel (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0_qkv_kernel i arg1 harg1 arg2 harg2 arg3 harg3 arg4 harg4) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the region on core `c`: the arrays as the region finds them; after the body at point `t` each
    input's buffer at its block and the output's at `out3` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.IdealRegion1Base.lean ====
/-
  The second kernel region (attention by the online softmax): a grid of 8 batches × 2 query blocks × 4 key blocks,
  the key block innermost.  Per point the body reads one block of 1024 queries, one block of 512 keys and one of 512
  values (three windows on the SAME projected array), keeps a running maximum, a running denominator and a running
  numerator in three scratch buffers carried from one key block to the next, and stores the quotient into the output
  block at the last key block only.  This module holds what the three control cases share: the two branch conditions
  in closed form over the grid, where the output window is idle, the staging and scratch memrefs, and the region's
  invariant spelt out buffer by buffer.
-/
import proofs.«105470_j53377853555119_2_alg».proof.Proof.Gen.KernelIdeal.Launch
import proofs.«105470_j53377853555119_2_alg».proof.Proof.Gen.KernelIdeal.Skeleton
import proofs.«105470_j53377853555119_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's first branch: "this is the first key block" (the running state is reset). -/
abbrev condI (i : grid1.Coords) : Prop := (Scalar.cmpi .ne (Scalar.extui (Scalar.cmpi .eq (BitVec.ofNat 32 (i 2).val) 0#32)) 0#32) = 1#1
/-- It holds at the points ≡ 0 (mod 4). -/
theorem hcondI : ∀ t : Fin cfg1.N, condI (grid1.coords t) ↔ t.val % 4 = 0 :=
  (by decide +kernel : ∀ t : Fin grid1.N, condI (grid1.coords t) ↔ t.val % 4 = 0)
/-- The body's second branch: "this is the last key block" (the quotient is stored). -/
abbrev condF (i : grid1.Coords) : Prop := k1_cond2 i = 1#1
/-- It holds at the points ≡ 3 (mod 4). -/
theorem hcondF : ∀ t : Fin cfg1.N, condF (grid1.coords t) ↔ t.val % 4 = 3 :=
  (by decide +kernel : ∀ t : Fin grid1.N, condF (grid1.coords t) ↔ t.val % 4 = 3)

/-- The input windows are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Away from the last key block the output window is idle and is not written back. -/
theorem idleAt_3 : ∀ t : Fin cfg1.N, ¬condF (grid1.coords t) → cfg1.idle 3 (grid1.coords t) = true := by decide +kernel
theorem noFlush_3 : ∀ t : Fin cfg1.N, ¬condF (grid1.coords t) → (cfg1.win 3).flush t = false := by decide +kernel
/-- At the last key block it is live. -/
theorem liveAt_3 : ∀ t : Fin cfg1.N, condF (grid1.coords t) → cfg1.idle 3 (grid1.coords t) = false := by decide +kernel

/-- One staging buffer of the output window, through which its contents are stated. -/
abbrev VO3 : View sig .tc .vmem S1x1024x1024 .f32 := (Memref.whole cc1_stg3_0 : Memref sig .tc .vmem S1x1024x1024 .f32).view
/-- Each window's current staging memref at point `t`, and its wholeness. -/
abbrev ms_0 (t : Fin cfg1.N) : Memref sig .tc .vmem S1x1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024x1024 .f32 := win1_3.stage (cfg1.slots t 3)
abbrev hs_3 (t : Fin cfg1.N) : (ms_3 t).IsWhole := hstage1_3 ((cfg1.slots t 3).cast nbuf1_3)
/-- The three scratch buffers: the running maximum, the running denominator, the running numerator. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2
abbrev VS0 : View sig .tc .vmem S1024x1 .f32 := scM0.view
abbrev VS1 : View sig .tc .vmem S1024x1 .f32 := scM1.view
abbrev VS2 : View sig .tc .vmem S1024x1024 .f32 := scM2.view

/-- A scoped buffer this region never touches, at some contents. -/
abbrev other (c : Dev nD) (r : Ref sig .tc) : sProp 𝕄 :=
  iprop(∃ f : Buf (Elt F) ((c : Thread nD τ).loc r), ((c : Thread nD τ).loc r) ↦{fullShare} f)

/-- The six staging buffers of the first region, which ride through this region untouched. -/
abbrev others (c : Dev nD) : sProp 𝕄 :=
  iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1)

/-- The region's invariant before the first point, buffer by buffer: the first region's staging buffers, the three
    scratch buffers at some contents, the generator register at some state. -/
theorem PhiA_eq (c : Dev nD) :
    (Pipeline.ΦA spec1 c : sProp 𝕄)
      = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
          ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

end Cert.KernelIdeal.Region1

end
-- ==== Proof.IdealRegion1RunA.lean ====
/-
  The whole-body run of the attention kernel in control case A: on whole staging memrefs and scratch buffers the body
  runs to its end, the inputs' buffers as they were and each buffer it stores into holding its stores written as pieces;
  the pieces are found by the symbolic run.
-/
import proofs.«105470_j53377853555119_2_alg».proof.Proof.IdealRegion1Base

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Region1

end
-- ==== Proof.IdealRegion1RunB.lean ====
/-
  The whole-body run of the attention kernel in control case B: on whole staging memrefs and scratch buffers the body
  runs to its end, the inputs' buffers as they were and each buffer it stores into holding its stores written as pieces;
  the pieces are found by the symbolic run.
-/
import proofs.«105470_j53377853555119_2_alg».proof.Proof.IdealRegion1RunA

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Region1

end
-- ==== Proof.IdealRegion1RunC.lean ====
/-
  The whole-body run of the attention kernel in control case C: on whole staging memrefs and scratch buffers the body
  runs to its end, the inputs' buffers as they were and each buffer it stores into holding its stores written as pieces;
  the pieces are found by the symbolic run.
-/
import proofs.«105470_j53377853555119_2_alg».proof.Proof.IdealRegion1RunB

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hcI | exact hcF)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]; · iexists _; iexact HS0
    isplitl [HS1]; · iexists _; iexact HS1
    iexists _; iexact HS2

end Cert.KernelIdeal.Region1

end
-- ==== Proof.IdealRegion1Frame.lean ====
/-
  The second region's proof data and body obligation.  Per control case, what the body leaves in the output block and in
  the three scratch buffers (its stores read back; they tile each buffer); point by point, what those buffers hold after
  the body (the first key block starts afresh, the later ones continue from what the key block before left, the last
  also stores the output block); the region's invariant, which from the second point on holds the three scratch buffers at
  exactly what the point before left; and the body's triple at every point, by the three whole-body runs.
-/
import proofs.«105470_j53377853555119_2_alg».proof.Proof.IdealRegion1RunC

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In case A the stores into scratch 0 tile it, so they cover it. -/
theorem scover_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1.Idx) :
    ∃ pc ∈ (kernelRun_A c i arg3 harg3 arg4 harg4 arg5 harg5 arg6 harg6 arg7 harg7 arg8 harg8 arg9 harg9 hcI hcF x0 x1 x2).2.1, y ∈ pc.1.set :=
  View.cover_of_tiledL (kernelRun_A c i arg3 harg3 arg4 harg4 arg5 harg5 arg6 harg6 arg7 harg7 arg8 harg8 arg9 harg9 hcI hcF x0 x1 x2).2.1 S1024x1.size (by sl_kernel_rfl) y
/-- What case A leaves in scratch 0: its pieces read back. -/
def sout_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1 .f32 :=
  VS0.read (Elt F) (VS0.writes (Elt F) VS0.junk (kernelRun_A c i arg3 harg3 arg4 harg4 arg5 harg5 arg6 harg6 arg7 harg7 arg8 harg8 arg9 harg9 hcI hcF x0 x1 x2).2.1)
/-- In case A the stores into scratch 1 tile it, so they cover it. -/
theorem scover_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1.Idx) :
    ∃ pc ∈ (kernelRun_A c i arg3 harg3 arg4 harg4 arg5 harg5 arg6 harg6 arg7 harg7 arg8 harg8 arg9 harg9 hcI hcF x0 x1 x2).2.2.1, y ∈ pc.1.set :=
  View.cover_of_tiledL (kernelRun_A c i arg3 harg3 arg4 harg4 arg5 harg5 arg6 harg6 arg7 harg7 arg8 harg8 arg9 harg9 hcI hcF x0 x1 x2).2.2.1 S1024x1.size (by sl_kernel_rfl) y
/-- What case A leaves in scratch 1: its pieces read back. -/
def sout_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1 .f32 :=
  VS1.read (Elt F) (VS1.writes (Elt F) VS1.junk (kernelRun_A c i arg3 harg3 arg4 harg4 arg5 harg5 arg6 harg6 arg7 harg7 arg8 harg8 arg9 harg9 hcI hcF x0 x1 x2).2.2.1)
/-- In case A the stores into scratch 2 tile it, so they cover it. -/
theorem scover_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) (y : S1024x1024.Idx) :
    ∃ pc ∈ (kernelRun_A c i arg3 harg3 arg4 harg4 arg5 harg5 arg6 harg6 arg7 harg7 arg8 harg8 arg9 harg9 hcI hcF x0 x1 x2).2.2.2.1, y ∈ pc.1.set :=
  View.cover_of_tiledL (kernelRun_A c i arg3 harg3 arg4 harg4 arg5 harg5 arg6 harg6 arg7 harg7 arg8 harg8 arg9 harg9 hcI hcF x0 x1 x2).2.2.2.1 S1024x1024.size (by sl_kernel_rfl) y
/-- What case A leaves in scratch 2: its pieces read back. -/
def sout_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) : Vec F S1024x1024 .f32 :=
  VS2.read (Elt F) (VS2.writes (Elt F) VS2.junk (kernelRun_A c i arg3 harg3 arg4 harg4 arg5 harg5 arg6 harg6 arg7 harg7 arg8 harg8 arg9 harg9 hcI hcF x0 x1 x2).2.2.2.1)

/-- In case B the stores into scratch 0 tile it, so they cover it. -/
theorem scover_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_B c i arg3 harg3 arg4 harg4 arg5 harg5 arg6 harg6 arg7 harg7 arg8 harg8 arg9 harg9 hcI hcF x0 x1 x2 xs0 xs1 xs2).2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.1 S1024x1.size (by sl_kernel_rfl) y
/-- What case B leaves in scratch 0: its pieces read back. -/
def sout_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS0.read (Elt F) (VS0.writes (Elt F) VS0.junk (kernelRun_B c i arg3 harg3 arg4 harg4 arg5 harg5 arg6 harg6 arg7 harg7 arg8 harg8 arg9 harg9 hcI hcF x0 x1 x2 xs0 xs1 xs2).2.1)
/-- In case B the stores into scratch 1 tile it, so they cover it. -/
theorem scover_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_B c i arg3 harg3 arg4 harg4 arg5 harg5 arg6 harg6 arg7 harg7 arg8 harg8 arg9 harg9 hcI hcF x0 x1 x2 xs0 xs1 xs2).2.2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.2.1 S1024x1.size (by sl_kernel_rfl) y
/-- What case B leaves in scratch 1: its pieces read back. -/
def sout_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1.read (Elt F) (VS1.writes (Elt F) VS1.junk (kernelRun_B c i arg3 harg3 arg4 harg4 arg5 harg5 arg6 harg6 arg7 harg7 arg8 harg8 arg9 harg9 hcI hcF x0 x1 x2 xs0 xs1 xs2).2.2.1)
/-- In case B the stores into scratch 2 tile it, so they cover it. -/
theorem scover_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun_B c i arg3 harg3 arg4 harg4 arg5 harg5 arg6 harg6 arg7 harg7 arg8 harg8 arg9 harg9 hcI hcF x0 x1 x2 xs0 xs1 xs2).2.2.2.1, y ∈ pc.1.set :=
  View.cover_of_tiledL (kernelRun_B c i arg3 harg3 arg4 harg4 arg5 harg5 arg6 harg6 arg7 harg7 arg8 harg8 arg9 harg9 hcI hcF x0 x1 x2 xs0 xs1 xs2).2.2.2.1 S1024x1024.size (by sl_kernel_rfl) y
/-- What case B leaves in scratch 2: its pieces read back. -/
def sout_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS2.read (Elt F) (VS2.writes (Elt F) VS2.junk (kernelRun_B c i arg3 harg3 arg4 harg4 arg5 harg5 arg6 harg6 arg7 harg7 arg8 harg8 arg9 harg9 hcI hcF x0 x1 x2 xs0 xs1 xs2).2.2.2.1)

/-- In case C the stores into scratch 0 tile it, so they cover it. -/
theorem scover_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_C c i arg3 harg3 arg4 harg4 arg5 harg5 arg6 harg6 arg7 harg7 arg8 harg8 arg9 harg9 hcI hcF x0 x1 x2 xs0 xs1 xs2).2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.1 S1024x1.size (by sl_kernel_rfl) y
/-- What case C leaves in scratch 0: its pieces read back. -/
def sout_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS0.read (Elt F) (VS0.writes (Elt F) VS0.junk (kernelRun_C c i arg3 harg3 arg4 harg4 arg5 harg5 arg6 harg6 arg7 harg7 arg8 harg8 arg9 harg9 hcI hcF x0 x1 x2 xs0 xs1 xs2).2.1)
/-- In case C the stores into scratch 1 tile it, so they cover it. -/
theorem scover_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun_C c i arg3 harg3 arg4 harg4 arg5 harg5 arg6 harg6 arg7 harg7 arg8 harg8 arg9 harg9 hcI hcF x0 x1 x2 xs0 xs1 xs2).2.2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.2.1 S1024x1.size (by sl_kernel_rfl) y
/-- What case C leaves in scratch 1: its pieces read back. -/
def sout_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1.read (Elt F) (VS1.writes (Elt F) VS1.junk (kernelRun_C c i arg3 harg3 arg4 harg4 arg5 harg5 arg6 harg6 arg7 harg7 arg8 harg8 arg9 harg9 hcI hcF x0 x1 x2 xs0 xs1 xs2).2.2.1)
/-- In case C the stores into scratch 2 tile it, so they cover it. -/
theorem scover_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun_C c i arg3 harg3 arg4 harg4 arg5 harg5 arg6 harg6 arg7 harg7 arg8 harg8 arg9 harg9 hcI hcF x0 x1 x2 xs0 xs1 xs2).2.2.2.1, y ∈ pc.1.set :=
  View.cover_of_tiledL (kernelRun_C c i arg3 harg3 arg4 harg4 arg5 harg5 arg6 harg6 arg7 harg7 arg8 harg8 arg9 harg9 hcI hcF x0 x1 x2 xs0 xs1 xs2).2.2.2.1 S1024x1024.size (by sl_kernel_rfl) y
/-- What case C leaves in scratch 2: its pieces read back. -/
def sout_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS2.read (Elt F) (VS2.writes (Elt F) VS2.junk (kernelRun_C c i arg3 harg3 arg4 harg4 arg5 harg5 arg6 harg6 arg7 harg7 arg8 harg8 arg9 harg9 hcI hcF x0 x1 x2 xs0 xs1 xs2).2.2.2.1)
/-- In the last case the store into the output block tiles it, so it covers it. -/
theorem cover_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun_C c i arg3 harg3 arg4 harg4 arg5 harg5 arg6 harg6 arg7 harg7 arg8 harg8 arg9 harg9 hcI hcF x0 x1 x2 xs0 xs1 xs2).1, y ∈ pc.1.set :=
  View.cover_of_tiledL (kernelRun_C c i arg3 harg3 arg4 harg4 arg5 harg5 arg6 harg6 arg7 harg7 arg8 harg8 arg9 harg9 hcI hcF x0 x1 x2 xs0 xs1 xs2).1 S1x1024x1024.size (by sl_kernel_rfl) y
/-- What the last case leaves in the output block: its pieces read back. -/
def out_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (kernelRun_C c i arg3 harg3 arg4 harg4 arg5 harg5 arg6 harg6 arg7 harg7 arg8 harg8 arg9 harg9 hcI hcF x0 x1 x2 xs0 xs1 xs2).1)

/-- The output block and the three scratch buffers, as one tuple. -/
abbrev Out4 : Type := Vec F S1x1024x1024 .f32 × Vec F S1024x1 .f32 × Vec F S1024x1 .f32 × Vec F S1024x1024 .f32

/-- A placeholder for the output block at the points that do not store into it (nothing reads it). -/
def junk3 : Vec F S1x1024x1024 .f32 := VO3.read (Elt F) (VO3.writes (Elt F) VO3.junk [])

/-- What a point of case A leaves in the output block and the three scratch buffers. -/
def stepA (c : Dev nD) (t : Fin cfg1.N) (hI : condI (grid1.coords t)) (hF : ¬condF (grid1.coords t)) : Out4 (F := F) :=
  (junk3, sout_A_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t), sout_A_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t), sout_A_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t))

/-- What a point of case B leaves in the output block and the three scratch buffers, from what the point before left. -/
def stepB (c : Dev nD) (t : Fin cfg1.N) (hI : ¬condI (grid1.coords t)) (hF : ¬condF (grid1.coords t)) (prev : Out4 (F := F)) : Out4 (F := F) :=
  (junk3, sout_B_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_B_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_B_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2)

/-- What a point of case C leaves in the output block and the three scratch buffers, from what the point before left. -/
def stepC (c : Dev nD) (t : Fin cfg1.N) (hI : ¬condI (grid1.coords t)) (hF : condF (grid1.coords t)) (prev : Out4 (F := F)) : Out4 (F := F) :=
  (out_C_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2, sout_C_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hI hF (iblk V c 0 t) (iblk V c 1 t) (iblk V c 2 t) prev.2.1 prev.2.2.1 prev.2.2.2)

/-- THE ACCUMULATION: what the output block and the scratch buffers hold after the body at position `n`. -/
def outsAt (c : Dev nD) : (n : ℕ) → n < cfg1.N → Out4 (F := F)
  | 0, hn => stepA V c ⟨0, hn⟩ ((hcondI ⟨0, hn⟩).mpr (Nat.zero_mod _)) (fun h => (fun h => by (try dsimp only at h); omega) ((hcondF ⟨0, hn⟩).mp h))
  | n + 1, hn =>
    if h0 : (n + 1) % 4 = 0 then
      stepA V c ⟨n + 1, hn⟩ ((hcondI ⟨n + 1, hn⟩).mpr h0) (fun h => (fun h => by (try dsimp only at h); omega) ((hcondF ⟨n + 1, hn⟩).mp h))
    else if h3 : (n + 1) % 4 = 3 then
      stepC V c ⟨n + 1, hn⟩ (fun h => h0 ((hcondI ⟨n + 1, hn⟩).mp h)) ((hcondF ⟨n + 1, hn⟩).mpr h3) (outsAt c n (Nat.lt_of_succ_lt hn))
    else
      stepB V c ⟨n + 1, hn⟩ (fun h => h0 ((hcondI ⟨n + 1, hn⟩).mp h)) (fun h => h3 ((hcondF ⟨n + 1, hn⟩).mp h)) (outsAt c n (Nat.lt_of_succ_lt hn))

theorem outsAt_A (c : Dev nD) (t : Fin cfg1.N) (h0 : t.val % 4 = 0) :
    outsAt V c t.val t.isLt = stepA V c t ((hcondI t).mpr h0) (fun h => (fun h => by omega) ((hcondF t).mp h)) := by
  obtain ⟨n, hn⟩ := t
  cases n with
  | zero => exact rfl
  | succ n => exact (dif_pos h0).trans rfl

theorem outsAt_B (c : Dev nD) (t : Fin cfg1.N) (h0 : ¬t.val % 4 = 0) (h3 : ¬t.val % 4 = 3) :
    outsAt V c t.val t.isLt = stepB V c t (fun h => h0 ((hcondI t).mp h)) (fun h => h3 ((hcondF t).mp h)) (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem outsAt_C (c : Dev nD) (t : Fin cfg1.N) (h0 : ¬t.val % 4 = 0) (h3 : t.val % 4 = 3) :
    outsAt V c t.val t.isLt = stepC V c t (fun h => h0 ((hcondI t).mp h)) ((hcondF t).mpr h3) (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The region's invariant before position `n`: before the first point every scratch buffer at anything; afterwards
    each scratch buffer at what the point before left in it. -/
def PhiS (c : Dev nD) : (n : ℕ) → n ≤ cfg1.N → sProp 𝕄
  | 0, _ => Pipeline.ΦA spec1 c
  | n + 1, hn => iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r)) := rfl

theorem PhiS_pos (c : Dev nD) (n : ℕ) (h : n ≤ cfg1.N) (hz : n ≠ 0) :
    PhiS V c n h = iprop(iprop(other (F := F) c cc0_stg0_0 ∗ other (F := F) c cc0_stg0_1 ∗ other (F := F) c cc0_stg1_0 ∗ other (F := F) c cc0_stg2_0 ∗ other (F := F) c cc0_stg3_0 ∗ other (F := F) c cc0_stg3_1
      ∗ owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ (∃ r, prngReg c r)) := by
  cases n with
  | zero => exact absurd rfl hz
  | succ n => rfl

/-- The proof data of the region on core `c`.  The three input windows sit on ONE array and hold the left half, the
    right half's left half and the right half's right half of its full share; the output's array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the closed forms of the two conditions say which case the point is in; the invariant hands
    the body the scratch buffers at what the point before left and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  rw [show (dat V c).leavesExact 2 t = owns (c : Thread nD τ) (ms_2 t) fullShare ((dat V c).after 2 t) from by
      unfold Dat.leavesExact; rw [liveAt_2 t], after_2]
  by_cases h0 : t.val % 4 = 0
  · have hI : condI (grid1.coords t) := (hcondI t).mpr h0
    have hF : ¬condF (grid1.coords t) := fun h => (fun h => by omega) ((hcondF t).mp h)
    rw [Dat.leavesExact_idle (dat V c) 3 t (idleAt_3 t hF) (noFlush_3 t hF)]
    rw [outsAt_A V c t h0]
    unfold stepA sout_A_0 sout_A_1 sout_A_2; (try dsimp only)
    by_cases hz : t.val = 0
    · rw [PhiS_castSucc V c t, PhiS_zero V c _ _ hz, PhiA_eq]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_A c (grid1.coords t) _ _ _ _ _ _ _ _ _ _ _ _ _ _ hI hF (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_A_0 c _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _)
          unfold owns; iexists _; isplitr
          swap; · iexact HS2
          ipureintro; exact View.read_writes_of_cover _ _ _ _ _ (scover_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_A c (grid1.coords t) _ _ _ _ _ _ _ _ _ _ _ _ _ _ hI hF (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_A_0 c _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _)
          unfold owns; iexists _; isplitr
          swap; · iexact HS2
          ipureintro; exact View.read_writes_of_cover _ _ _ _ _ (scover_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hI : ¬condI (grid1.coords t) := fun h => h0 ((hcondI t).mp h)
    have hz : t.val ≠ 0 := fun e => h0 (by rw [e])
    by_cases h3 : t.val % 4 = 3
    · have hF : condF (grid1.coords t) := (hcondF t).mpr h3
      rw [show (dat V c).leavesExact 3 t = owns (c : Thread nD τ) (ms_3 t) fullShare ((dat V c).after 3 t) from by
        unfold Dat.leavesExact; rw [liveAt_3 t hF], after_3]
      rw [outsAt_C V c t h0 h3]
      unfold stepC out_C_3 sout_C_0 sout_C_1 sout_C_2; (try dsimp only)
      rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_C c (grid1.coords t) _ _ _ _ _ _ _ _ _ _ _ _ _ _ hI hF (iblk V c 0 t) (iblk V c 1 t) (iblk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _)
          unfold owns; iexists _; isplitr
          swap; · iexact HS2
          ipureintro; exact View.read_writes_of_cover _ _ _ _ _ (scover_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_3 c _ _ _ _ _ _ _ _ _ _ _ _ _ _ _ _ _ _ _ _ _ _ _)
    · have hF : ¬condF (grid1.coords t) := fun h => h3 ((hcondF t).mp h)
      rw [Dat.leavesExact_idle (dat V c) 3 t (idleAt_3 t hF) (noFlush_3 t hF)]
      rw [outsAt_B V c t h0 h3]
      unfold stepB sout_B_0 sout_B_1 sout_B_2; (try dsimp only)
      rw [PhiS_castSucc V c t, PhiS_pos V c _ _ hz]
      iintro ⟨⟨⟨HA0, HA1, HA2, HA3, HA4, HA5, HS0, HS1, HS2⟩, Hg⟩, Ho, ⟨%d0, H0⟩, ⟨%d1, H1⟩, ⟨%d2, H2⟩, ⟨%d3, H3⟩⟩
      iapply ((kernelRun_B c (grid1.coords t) _ _ _ _ _ _ _ _ _ _ _ _ _ _ hI hF (iblk V c 0 t) (iblk V c 1 t) (iblk V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA0 HA1 HA2 HA3 HA4 HA5 HS0 HS1 HS2 Hg]
      · isplitl [HA0 HA1 HA2 HA3 HA4 HA5 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HS0]
          · unfold owns; iexists _; isplitr
            swap; · iexact HS0
            ipureintro; exact View.read_writes_of_cover _ _ _ _ _ (scover_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _)
          unfold owns; iexists _; isplitr
          swap; · iexact HS2
          ipureintro; exact View.read_writes_of_cover _ _ _ _ _ (scover_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch buffers' named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HA0, HA1, HA2, HA3, HA4, HA5, HS0, HS1, HS2⟩, Hg⟩
  isplitl [HA0 HA1 HA2 HA3 HA4 HA5 HS0 HS1 HS2]
  · isplitl [HA0]; · iexact HA0
    isplitl [HA1]; · iexact HA1
    isplitl [HA2]; · iexact HA2
    isplitl [HA3]; · iexact HA3
    isplitl [HA4]; · iexact HA4
    isplitl [HA5]; · iexact HA5
    isplitl [HS0]; · iexists _; iexact HS0
    isplitl [HS1]; · iexists _; iexact HS1
    iexists _; iexact HS2
  iexact Hg

end Cert.KernelIdeal.Region1

end
-- ==== Proof.IdealRun.lean ====
/-
  The whole run of the program: its four segments — the host operations that flatten the input and concatenate the
  weights and biases; the projection region; the reshape of the projected array; the attention region — chained over the
  contents of the core's buffers at each boundary.  Every weakly fair execution terminates without a fault; at the end the
  result array holds what the attention region's write-backs leave and the seven argument arrays hold what they held
  at launch.  In the attention region the projected array is read through three windows, which hold three parts of
  its full share (split at the region's entry, rejoined at its exit).
-/
import proofs.«105470_j53377853555119_2_alg».proof.Proof.IdealRegion0
import proofs.«105470_j53377853555119_2_alg».proof.Proof.IdealRegion1Frame
import proofs.«105470_j53377853555119_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev VE1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Region0.dat (VE1 m ρ) c).arrAt w cfg0.N
theorem W2_arr (c : Dev nD) (w : Fin cfg0.W) :
    W2 m ρ c (Proc.devRef .tc (Pipeline.arrRef spec0 w)) = (Region0.dat (VE1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VE2 : (c : Dev nD) → (b : Ref sig .tc) → Buf (Elt F) ((c : Thread nD τ).loc b) := fun c b => W2 m ρ c b
theorem hF0 (c : Dev nD) (w : Fin cfg0.W) : (Region0.dat (VE1 m ρ) c).arrAt w cfg0.N = VE2 m ρ c (Pipeline.arrRef spec0 w) :=
  (W2_arr m ρ c w).symm
theorem hrest0 (c : Dev nD) : ∀ b, b ∉ Finset.univ.image (Pipeline.arrRef spec0) → VE2 m ρ c b = VE1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev VE3 : (c : Dev nD) → (b : Ref sig .tc) → Buf (Elt F) ((c : Thread nD τ).loc b) := fun c b => W3 m ρ c b
/-- At the attention region's exit: the result array at what the write-backs leave, every other buffer as entered
    (the region's three input windows read one array and write nothing). -/
def W4 (c : Dev nD) : Valuation τ sig (Elt F) :=
  Function.update (W3 m ρ c) (Proc.devRef .tc main_v7) ((Region1.dat (VE3 m ρ) c).arrAt 3 cfg1.N : Buf (Elt F) ((c : Thread nD τ).loc main_v7))
theorem W4_main_v7 (c : Dev nD) : W4 m ρ c (Proc.devRef .tc main_v7) = (Region1.dat (VE3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..
abbrev VE4 : (c : Dev nD) → (b : Ref sig .tc) → Buf (Elt F) ((c : Thread nD τ).loc b) := fun c b => W4 m ρ c b

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (VE1 m ρ) c
  | ⟨1, _⟩ => fun c => Region1.dat (VE3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The attention region's arrays: one array through three windows -/

/-- The distinct buffers behind the attention region's arrays: the projected array and the result array. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v6) ↦{fullShare} Vv main_v6) ∗ (((c : Thread nD τ).loc main_v7) ↦{fullShare} Vv main_v7)) := by
  unfold Pipeline.arrBufs
  rw [show (Finset.univ.image (Pipeline.arrRef spec1)) = {main_v6, main_v7} from by decide]
  rw [BI.bigSep_insert (by decide), BI.bigSep_singleton]
  rfl

/-- The proof data's arrays, window by window: three parts of the projected array's share, the result array whole. -/
theorem arrays1_eq (c : Dev nD) (Fa : (w : Fin cfg1.W) → Buf (Elt F) ((cfg1.win w).arr.view.loc (c.tc : Thread nD τ))) :
    ((Region1.dat (VE3 m ρ) c).arrays Fa : sProp 𝕄)
      = iprop((((c : Thread nD τ).loc main_v6) ↦{fullShare.left} Fa 0) ∗ (((c : Thread nD τ).loc main_v6) ↦{fullShare.right.left} Fa 1)
          ∗ (((c : Thread nD τ).loc main_v6) ↦{fullShare.right.right} Fa 2) ∗ (((c : Thread nD τ).loc main_v7) ↦{fullShare} Fa 3)) := by
  unfold Dat.arrays
  rw [bigSep_W1, (arr_whole1 0).set_eq_univ, (arr_whole1 3).set_eq_univ]
  rfl

/-- ENTRY: the core's unscoped buffers are the region's arrays at the entry contents, the projected array's full share
    dealt among its three windows, and the unscoped rest. -/
theorem hsplit1 (c : Dev nD) :
    (unscopedBufs c (VE3 m ρ c) : sProp 𝕄)
      ⊢ iprop((Region1.dat (VE3 m ρ) c).arrays ((Region1.dat (VE3 m ρ) c).arrAt · 0) ∗ Pipeline.unscopedRest (Ix := Unit) (Name := ℕ) (U := UR sig nD τ) (Lvl := ℕ) spec1 c (VE3 m ρ c)) := by
  rw [Pipeline.unscopedBufs_split₀ cfgs 1 winFacts₀1.arr_unscoped c (VE3 m ρ c)]
  refine sep_mono ?_ .rfl
  rw [show (Pipeline.arrBufs (Ix := Unit) (Name := ℕ) (U := UR sig nD τ) (Lvl := ℕ) (cfgs 1).spec c (VE3 m ρ c) : sProp 𝕄) = Pipeline.arrBufs spec1 c (VE3 m ρ c) from rfl, arrBufs1_eq, arrays1_eq]
  iintro ⟨H6, H7⟩
  ihave H := (pointsTo_share (PosShare.mem_left_op_right fullShare)).1 $$ H6
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  iexact H7

/-- EXIT: the region's arrays after the last write-back — the three parts of the projected array, unchanged, rejoined;
    the result array — and the unscoped rest are the core's unscoped buffers at the exit contents. -/
theorem hjoin1 (c : Dev nD) :
    iprop((Region1.dat (VE3 m ρ) c).arrays ((Region1.dat (VE3 m ρ) c).arrAt · cfg1.N) ∗ Pipeline.unscopedRest (Ix := Unit) (Name := ℕ) (U := UR sig nD τ) (Lvl := ℕ) spec1 c (VE3 m ρ c))
      ⊢ (unscopedBufs c (VE4 m ρ c) : sProp 𝕄) := by
  rw [Pipeline.unscopedBufs_split₀ cfgs 1 winFacts₀1.arr_unscoped c (VE4 m ρ c)]
  refine sep_mono ?_ (Entails.of_eq ?_)
  · rw [show (Pipeline.arrBufs (Ix := Unit) (Name := ℕ) (U := UR sig nD τ) (Lvl := ℕ) (cfgs 1).spec c (VE4 m ρ c) : sProp 𝕄) = Pipeline.arrBufs spec1 c (VE4 m ρ c) from rfl, arrBufs1_eq, arrays1_eq,
      (Region1.dat (VE3 m ρ) c).arrAt_in 0 rfl, (Region1.dat (VE3 m ρ) c).arrAt_in 1 rfl, (Region1.dat (VE3 m ρ) c).arrAt_in 2 rfl]
    rw [show VE4 m ρ c main_v6 = VE3 m ρ c main_v6 from W4_of_ne m ρ c main_v6 (by decide),
      show VE4 m ρ c main_v7 = (Region1.dat (VE3 m ρ) c).arrAt 3 cfg1.N from W4_main_v7 m ρ c]
    iintro ⟨Hl, Hrl, Hrr, H7⟩
    isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H7
  · show Pipeline.unscopedRest (Ix := Unit) (Name := ℕ) (U := UR sig nD τ) (Lvl := ℕ) spec1 c (VE3 m ρ c) = Pipeline.unscopedRest spec1 c (VE4 m ρ c)
    unfold Pipeline.unscopedRest
    exact (bigSep_congr fun b hb => by
      rw [show VE4 m ρ c b = VE3 m ρ c b from W4_of_ne m ρ c b (fun e => (Finset.mem_sdiff.mp hb).2 (Finset.mem_image.mpr ⟨3, Finset.mem_univ _, e.symm⟩))]).symm

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (VE1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE1 m ρ c) (VE2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation (VE3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Region1.hin (VE3 m ρ) c)
    unfold Pipeline.ΦA
    iintro ⟨Hp, -, Hr⟩
    isplitl [Hr]; · iexact Hr
    iexact Hp
  hout c := by
    rw [Pipeline.ownSems0_none]
    refine (Region1.hout (VE3 m ρ) c).trans ?_
    unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has the result array at what the attention region's write-backs leave and the seven argument
    arrays as launched. -/
theorem run : θ_run defs (onTc (τ := τ) (main (F := F))) ⟨m, fun _ => 0, ρ⟩ (fun r => ∀ c : Dev nD,
      r.2.mem ((c.tc : Thread nD τ).loc main_v7) = (Region1.dat (VE3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.IdealValue0Pay.lean ====
/-
  The projection body's arithmetic at one element.  The body forms, from a row block x of the flattened input, the
  concatenated weight w and the concatenated bias b (one row), the block  x · w + b  (the bias broadcast down the rows).
  At the ideal values the format changes are the identity and the matrix product into a zero accumulator is the plain
  sum over the contraction index, so the element in row r and column e of the block is
  (∑ d, x[r, d] · w[d, e]) + b[0, e].
-/
import proofs.«105470_j53377853555119_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Value0

open Idealize.ShloMosaic Idealize.ShloMosaic.TcCoe Idealize.ShloMosaic.ValueIdx
open Cert.KernelIdeal Cert.KernelIdeal.Gen
open scoped BigOperators

/-- The dimension numbers of the body's matrix product: one contracting axis, of extent 1024. -/
abbrev dotQKV : DotDims S512x1024 S1024x3072 S512x3072 := dot_S512x1024_S1024x3072_S512x3072_1_0_0_1_n_n

/-- The left operand's index at output index (r, e) and contraction index q is (r, q). -/
theorem lhs_0 (j : S512x3072.Idx) (q : dotQKV.contr.Idx) : (dotQKV.lhsIdx j q 0).val = (j 0).val := by
  unfold DotDims.lhsIdx
  rw [dif_neg (show ¬(0 : Fin S512x1024.rank) ∈ dotQKV.lhsBatch by decide), dif_pos (show (0 : Fin S512x1024.rank) ∈ dotQKV.lhsNonContracting by decide)]
  rfl
theorem lhs_1 (j : S512x3072.Idx) (q : dotQKV.contr.Idx) : (dotQKV.lhsIdx j q 1).val = (q ⟨0, by decide⟩).val :=
  dotQKV.lhsIdx_val_of_single rfl j q
/-- The right operand's index at output index (r, e) and contraction index q is (q, e). -/
theorem rhs_0 (j : S512x3072.Idx) (q : dotQKV.contr.Idx) : (dotQKV.rhsIdx j q 0).val = (q ⟨0, by decide⟩).val :=
  dotQKV.rhsIdx_val_of_single rfl j q
theorem rhs_1 (j : S512x3072.Idx) (q : dotQKV.contr.Idx) : (dotQKV.rhsIdx j q 1).val = (j 1).val := by
  unfold DotDims.rhsIdx
  rw [dif_neg (show ¬(1 : Fin S1024x3072.rank) ∈ dotQKV.rhsBatch by decide), dif_pos (show (1 : Fin S1024x3072.rank) ∈ dotQKV.rhsNonContracting by decide)]
  rfl

/-- The matrix product into the zero accumulator, at an element: the sum over the contraction coordinate. -/
theorem matmul_zero_apply (l : FVec Ideal S512x1024 .bf16) (w : FVec Ideal S1024x3072 .bf16) (r : Fin 512) (e : Fin 3072) :
    FloatOps.matmul dotQKV none l w (constant (F := Ideal) S512x3072 .f32 0x00000000#32) (ix2 r e)
      = ∑ d : Fin 1024, l (ix2 r d) * w (ix2 d e) := by
  rw [Ideal.matmul_constant_zero_apply, ← Equiv.sum_comp (contrEquiv1 dotQKV 1024 rfl rfl).symm]
  refine Finset.sum_congr rfl fun k _ => ?_
  have hk := contrEquiv1_symm_val dotQKV 1024 rfl rfl k
  have el : dotQKV.lhsIdx (ix2 r e) ((contrEquiv1 dotQKV 1024 rfl rfl).symm k) = ix2 r k := funext fun a => Fin.ext (by
    match a with
    | ⟨0, _⟩ => exact lhs_0 _ _
    | ⟨1, _⟩ => exact (lhs_1 _ _).trans hk)
  have er : dotQKV.rhsIdx (ix2 r e) ((contrEquiv1 dotQKV 1024 rfl rfl).symm k) = ix2 k e := funext fun a => Fin.ext (by
    match a with
    | ⟨0, _⟩ => exact (rhs_0 _ _).trans hk
    | ⟨1, _⟩ => exact rhs_1 _ _)
  rw [el, er]

/-- The bias row broadcast down the rows, at an element: the row's entry in that column. -/
theorem bias_apply (b : FVec Ideal S1x3072 .f32) (r : Fin 512) (e : Fin 3072) :
    broadcastTo S512x3072 b broadcasts_S1x3072_S512x3072 (ix2 r e) = b (ix2 0 e) :=
  broadcastTo_apply b broadcasts_S1x3072_S512x3072 (ix2 r e) (ix2 0 e) fun a => by
    match a with
    | ⟨0, _⟩ => rfl
    | ⟨1, _⟩ => show e.val = if (3072 : Nat) = 1 then 0 else e.val; rw [if_neg (by decide)]

/-- THE BODY'S BLOCK AT AN ELEMENT: row r of x against column e of w, plus the bias entry of column e. -/
theorem pay_apply (x0 : Vec Ideal S512x1024 .f32) (x1 : Vec Ideal S1024x3072 .bf16) (x2 : Vec Ideal S1x3072 .f32)
    (r : Fin 512) (e : Fin 3072) :
    (k0_pay1 (F := Ideal) x0 x1 x2 : S512x3072.Idx → EReal) (ix2 r e)
      = (∑ d : Fin 1024, (x0 : S512x1024.Idx → EReal) (ix2 r d) * (x1 : S1024x3072.Idx → EReal) (ix2 d e))
        + (x2 : S1x3072.Idx → EReal) (ix2 0 e) := by
  unfold k0_pay1
  simp only [shapeCast_self, matmul]
  rw [truncf_apply, addf_apply, matmul_zero_apply, bias_apply]
  rfl

end Cert.KernelIdeal.Value0

end
-- ==== Proof.IdealValue0Host.lean ====
/-
  What the projection region finds in its three input arrays, read at an index, as entries of the seven argument arrays.
  Before the region the program flattens the input [8, 2048, 1024] to [16384, 1024] (row 2048·b + n is row n of batch b),
  lays the three weight matrices side by side along the columns into [1024, 3072] (a format change follows, the identity
  at the ideal values), and lays the three bias vectors end to end into [3072], viewed as one row [1, 3072].  So column
  e, 1024 + e, 2048 + e of the concatenated weight (e < 1024) is column e of the first, second, third matrix, and
  likewise for the bias.
-/
import proofs.«105470_j53377853555119_2_alg».proof.Proof.IdealRun
import Idealize.ShloMosaic.Lib.Pipeline.Value
import Idealize.ShloMosaic.Lib.ValueIdx
import Idealize.ShloMosaic.PureOps.Ideal.Laws

noncomputable section

namespace Cert.KernelIdeal.Value0

open Idealize.ShloMosaic Idealize.ShloMosaic.TcCoe Idealize.ShloMosaic.ValueIdx Idealize.ShloMosaic.StableHlo
open Idealize.SL Idealize.SL.Sem
open Cert.KernelIdeal Cert.KernelIdeal.Gen
open scoped BigOperators

/-! ## Three pieces laid along an axis, read at an index -/

/-- Three [1024, 1024] matrices side by side: column e of each third is column e of the matrix lying there. -/
theorem concat_cols (A B C : S1024x1024.Idx → EReal) (d e : Fin 1024) :
    concatenate S1024x3072 1 [⟨S1024x1024, A⟩, ⟨S1024x1024, B⟩, ⟨S1024x1024, C⟩]
        concatenates_S1024x1024_S1024x1024_S1024x1024_S1024x3072_d1 (ix2 d (⟨e.val, by omega⟩ : Fin 3072)) = A (ix2 d e)
    ∧ concatenate S1024x3072 1 [⟨S1024x1024, A⟩, ⟨S1024x1024, B⟩, ⟨S1024x1024, C⟩]
        concatenates_S1024x1024_S1024x1024_S1024x1024_S1024x3072_d1 (ix2 d (⟨1024 + e.val, by omega⟩ : Fin 3072)) = B (ix2 d e)
    ∧ concatenate S1024x3072 1 [⟨S1024x1024, A⟩, ⟨S1024x1024, B⟩, ⟨S1024x1024, C⟩]
        concatenates_S1024x1024_S1024x1024_S1024x1024_S1024x3072_d1 (ix2 d (⟨2048 + e.val, by omega⟩ : Fin 3072)) = C (ix2 d e) := by
  refine ⟨?_, ?_, ?_⟩
  · refine concatenate_apply_piece (1 : Fin S1024x3072.rank) _ _ _ 0 (by show (0 : Nat) < 3; omega) S1024x1024 A rfl rfl 0 rfl (ix2 d e) (fun b hb => ?_) ?_
    · match b with
      | ⟨0, _⟩ => rfl
      | ⟨1, _⟩ => exact absurd rfl hb
    · show 0 + e.val = e.val; omega
  · refine concatenate_apply_piece (1 : Fin S1024x3072.rank) _ _ _ 1 (by show (1 : Nat) < 3; omega) S1024x1024 B rfl rfl 1024 rfl (ix2 d e) (fun b hb => ?_) ?_
    · match b with
      | ⟨0, _⟩ => rfl
      | ⟨1, _⟩ => exact absurd rfl hb
    · show 1024 + e.val = 1024 + e.val; rfl
  · refine concatenate_apply_piece (1 : Fin S1024x3072.rank) _ _ _ 2 (by show (2 : Nat) < 3; omega) S1024x1024 C rfl rfl 2048 rfl (ix2 d e) (fun b hb => ?_) ?_
    · match b with
      | ⟨0, _⟩ => rfl
      | ⟨1, _⟩ => exact absurd rfl hb
    · show 2048 + e.val = 2048 + e.val; rfl

/-- Three vectors of 1024 entries end to end: entry e of each third is entry e of the vector lying there. -/
theorem concat_vecs (A B C : S1024.Idx → EReal) (e : Fin 1024) :
    concatenate S3072 0 [⟨S1024, A⟩, ⟨S1024, B⟩, ⟨S1024, C⟩]
        concatenates_S1024_S1024_S1024_S3072_d0 (ix1 (⟨e.val, by omega⟩ : Fin 3072)) = A (ix1 e)
    ∧ concatenate S3072 0 [⟨S1024, A⟩, ⟨S1024, B⟩, ⟨S1024, C⟩]
        concatenates_S1024_S1024_S1024_S3072_d0 (ix1 (⟨1024 + e.val, by omega⟩ : Fin 3072)) = B (ix1 e)
    ∧ concatenate S3072 0 [⟨S1024, A⟩, ⟨S1024, B⟩, ⟨S1024, C⟩]
        concatenates_S1024_S1024_S1024_S3072_d0 (ix1 (⟨2048 + e.val, by omega⟩ : Fin 3072)) = C (ix1 e) := by
  refine ⟨?_, ?_, ?_⟩
  · refine concatenate_apply_piece (0 : Fin S3072.rank) _ _ _ 0 (by show (0 : Nat) < 3; omega) S1024 A rfl rfl 0 rfl (ix1 e) (fun b hb => ?_) ?_
    · match b with
      | ⟨0, _⟩ => exact absurd rfl hb
    · show 0 + e.val = e.val; omega
  · refine concatenate_apply_piece (0 : Fin S3072.rank) _ _ _ 1 (by show (1 : Nat) < 3; omega) S1024 B rfl rfl 1024 rfl (ix1 e) (fun b hb => ?_) ?_
    · match b with
      | ⟨0, _⟩ => exact absurd rfl hb
    · show 1024 + e.val = 1024 + e.val; rfl
  · refine concatenate_apply_piece (0 : Fin S3072.rank) _ _ _ 2 (by show (2 : Nat) < 3; omega) S1024 C rfl rfl 2048 rfl (ix1 e) (fun b hb => ?_) ?_
    · match b with
      | ⟨0, _⟩ => exact absurd rfl hb
    · show 2048 + e.val = 2048 + e.val; rfl

/-- A vector of 3072 entries viewed as one row: the row's entry in column e is the vector's entry e. -/
theorem row_apply (v : S3072.Idx → EReal) (e : Fin 3072) :
    shapeCast S1x3072 v shapeCasts_S3072_S1x3072 (ix2 (0 : Fin 1) e) = v (ix1 e) := by
  refine shapeCast_apply v shapeCasts_S3072_S1x3072 _ (ix1 e) ?_
  rw [Shape.rowMajor_val_one, Shape.rowMajor_val_two]
  show e.val = 0 * 3072 + e.val
  omega

/-- The input flattened: row 2048·b + n of the [16384, 1024] array is row n of batch b. -/
theorem flat_apply (x : S8x2048x1024.Idx → EReal) (bt : Fin 8) (n : Fin 2048) (d : Fin 1024) :
    shapeCast S16384x1024 x shapeCasts_S8x2048x1024_S16384x1024 (ix2 (⟨2048 * bt.val + n.val, by omega⟩ : Fin 16384) d) = x (ix3 bt n d) := by
  refine shapeCast_apply x shapeCasts_S8x2048x1024_S16384x1024 _ (ix3 bt n d) ?_
  rw [Shape.rowMajor_val_three, Shape.rowMajor_val_two]
  show (bt.val * 2048 + n.val) * 1024 + d.val = (2048 * bt.val + n.val) * 1024 + d.val
  omega

/-! ## The region's input arrays as the host operations leave them -/

variable (m : (ℓ : Loc nD τ sig) → Buf (Elt Ideal) ℓ) (ρ : Dev nD → PrngReg)

/-- The flattened input is the reshape of the first argument. -/
theorem v0_eq (c : Dev nD) : (Run.VE1 m ρ c main_v0 : S16384x1024.Idx → EReal)
    = shapeCast S16384x1024 (m ((c : Thread nD τ).loc main_arg0) : S8x2048x1024.Idx → EReal) shapeCasts_S8x2048x1024_S16384x1024 := by
  dsimp only [Run.VE1, Run.W1, hostOps0]; after_results; rfl

/-- The concatenated weight, after its format change. -/
theorem v2_eq (c : Dev nD) : (Run.VE1 m ρ c main_v2 : S1024x3072.Idx → EReal)
    = truncf .bf16 (concatenate S1024x3072 1 [⟨S1024x1024, (m ((c : Thread nD τ).loc main_arg1) : S1024x1024.Idx → EReal)⟩, ⟨S1024x1024, (m ((c : Thread nD τ).loc main_arg3) : S1024x1024.Idx → EReal)⟩, ⟨S1024x1024, (m ((c : Thread nD τ).loc main_arg5) : S1024x1024.Idx → EReal)⟩] concatenates_S1024x1024_S1024x1024_S1024x1024_S1024x3072_d1 : FVec Ideal S1024x3072 .f32) bitsLt_bf16_f32 := by
  dsimp only [Run.VE1, Run.W1, hostOps0]; after_results; rfl

/-- The concatenated bias as one row. -/
theorem v4_eq (c : Dev nD) : (Run.VE1 m ρ c main_v4 : S1x3072.Idx → EReal)
    = shapeCast S1x3072 (concatenate S3072 0 [⟨S1024, (m ((c : Thread nD τ).loc main_arg2) : S1024.Idx → EReal)⟩, ⟨S1024, (m ((c : Thread nD τ).loc main_arg4) : S1024.Idx → EReal)⟩, ⟨S1024, (m ((c : Thread nD τ).loc main_arg6) : S1024.Idx → EReal)⟩] concatenates_S1024_S1024_S1024_S3072_d0 : S3072.Idx → EReal) shapeCasts_S3072_S1x3072 := by
  dsimp only [Run.VE1, Run.W1, hostOps0]; after_results; rfl

/-- Row 2048·b + n of the flattened input is row n of batch b of the first argument. -/
theorem v0_apply (c : Dev nD) (bt : Fin 8) (n : Fin 2048) (d : Fin 1024) :
    (Run.VE1 m ρ c main_v0 : S16384x1024.Idx → EReal) (ix2 (⟨2048 * bt.val + n.val, by omega⟩ : Fin 16384) d)
      = (m ((c : Thread nD τ).loc main_arg0) : S8x2048x1024.Idx → EReal) (ix3 bt n d) := by
  rw [v0_eq]; exact flat_apply _ bt n d

/-- The concatenated weight's columns, third by third. -/
theorem v2_apply_q (c : Dev nD) (d e : Fin 1024) :
    (Run.VE1 m ρ c main_v2 : S1024x3072.Idx → EReal) (ix2 d (⟨e.val, by omega⟩ : Fin 3072))
      = (m ((c : Thread nD τ).loc main_arg1) : S1024x1024.Idx → EReal) (ix2 d e) := by
  rw [v2_eq, truncf_apply]; exact (concat_cols _ _ _ d e).1
theorem v2_apply_k (c : Dev nD) (d e : Fin 1024) :
    (Run.VE1 m ρ c main_v2 : S1024x3072.Idx → EReal) (ix2 d (⟨1024 + e.val, by omega⟩ : Fin 3072))
      = (m ((c : Thread nD τ).loc main_arg3) : S1024x1024.Idx → EReal) (ix2 d e) := by
  rw [v2_eq, truncf_apply]; exact (concat_cols _ _ _ d e).2.1
theorem v2_apply_v (c : Dev nD) (d e : Fin 1024) :
    (Run.VE1 m ρ c main_v2 : S1024x3072.Idx → EReal) (ix2 d (⟨2048 + e.val, by omega⟩ : Fin 3072))
      = (m ((c : Thread nD τ).loc main_arg5) : S1024x1024.Idx → EReal) (ix2 d e) := by
  rw [v2_eq, truncf_apply]; exact (concat_cols _ _ _ d e).2.2

/-- The bias row's entries, third by third. -/
theorem v4_apply_q (c : Dev nD) (e : Fin 1024) :
    (Run.VE1 m ρ c main_v4 : S1x3072.Idx → EReal) (ix2 (0 : Fin 1) (⟨e.val, by omega⟩ : Fin 3072))
      = (m ((c : Thread nD τ).loc main_arg2) : S1024.Idx → EReal) (ix1 e) := by
  rw [v4_eq, row_apply]; exact (concat_vecs _ _ _ e).1
theorem v4_apply_k (c : Dev nD) (e : Fin 1024) :
    (Run.VE1 m ρ c main_v4 : S1x3072.Idx → EReal) (ix2 (0 : Fin 1) (⟨1024 + e.val, by omega⟩ : Fin 3072))
      = (m ((c : Thread nD τ).loc main_arg4) : S1024.Idx → EReal) (ix1 e) := by
  rw [v4_eq, row_apply]; exact (concat_vecs _ _ _ e).2.1
theorem v4_apply_v (c : Dev nD) (e : Fin 1024) :
    (Run.VE1 m ρ c main_v4 : S1x3072.Idx → EReal) (ix2 (0 : Fin 1) (⟨2048 + e.val, by omega⟩ : Fin 3072))
      = (m ((c : Thread nD τ).loc main_arg6) : S1024.Idx → EReal) (ix1 e) := by
  rw [v4_eq, row_apply]; exact (concat_vecs _ _ _ e).2.2

end Cert.KernelIdeal.Value0

end
-- ==== Proof.IdealValue0.lean ====
/-
  The projected array at the attention region's entry, as a function of the seven argument arrays.
  The projection region writes, at grid point t, rows 512·t … 512·t + 511 of  x · w + b  (x the flattened input, w the
  three weight matrices side by side, b the three biases end to end); its 32 blocks cover the [16384, 3072] array, which
  therefore ends holding that one function of the region's inputs.  Read through the reshape to [8, 2048, 3072] and the
  host operations before the region, entry (b, n, e) of each third of the columns is
  (∑ d, X[b, n, d] · W[d, e]) + bias[e]  for that third's weight matrix W and bias.
-/
import proofs.«105470_j53377853555119_2_alg».proof.Proof.IdealValue0Pay
import proofs.«105470_j53377853555119_2_alg».proof.Proof.IdealValue0Host
import Idealize.ShloMosaic.Lib.Pipeline.Value
import Idealize.ShloMosaic.Lib.ValueIdx
import Idealize.ShloMosaic.PureOps.Ideal.Laws

noncomputable section

namespace Cert.KernelIdeal.Value0

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen
open scoped BigOperators

/-- The zero offsets of a whole-block access, however spelt. -/
theorem zero_offsets : (![0, 0] : Fin 2 → Nat) = fun _ => 0 := funext fun a => by fin_cases a <;> rfl

/-- The windows' block indices at grid point t, decided over the 32 points: the input rows and the output rows move with
    t along axis 0; the weight and the bias are one block each. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- THE PROJECTED ARRAY as one function of the region's three input arrays: entry (r, e) is row r of the flattened input
    against column e of the concatenated weight, plus entry e of the bias row. -/
def projected (X : S16384x1024.Idx → EReal) (Wt : S1024x3072.Idx → EReal) (B : S1x3072.Idx → EReal) : S16384x3072.Idx → EReal :=
  fun i => (∑ d : Fin 1024, X (ix2 (⟨(i 0).val, (i 0).isLt⟩ : Fin 16384) d) * Wt (ix2 d (⟨(i 1).val, (i 1).isLt⟩ : Fin 3072)))
    + B (ix2 (0 : Fin 1) (⟨(i 1).val, (i 1).isLt⟩ : Fin 3072))

/-- It at an index given by its coordinates. -/
theorem projected_apply (X : S16384x1024.Idx → EReal) (Wt : S1024x3072.Idx → EReal) (B : S1x3072.Idx → EReal) (r : Fin 16384) (e : Fin 3072) :
    projected X Wt B (ix2 r e) = (∑ d : Fin 1024, X (ix2 r d) * Wt (ix2 d e)) + B (ix2 (0 : Fin 1) e) := rfl

/-- The body's block at point T, element by element, is the block of `projected` under rows 512·T … 512·T + 511, whenever the
    input block holds those rows of the flattened input. -/
theorem block_apply (X : S16384x1024.Idx → EReal) (Wt : S1024x3072.Idx → EReal) (B : S1x3072.Idx → EReal)
    (x0 : Vec Ideal S512x1024 .f32) (T : Nat)
    (h0 : ∀ (r : Fin 512) (d : Fin 1024) (k : S16384x1024.Idx), (k 0).val = 512 * T + r.val → (k 1).val = d.val → x0 (ix2 r d) = X k)
    (j : S512x3072.Idx) (i : S16384x3072.Idx) (hi0 : (i 0).val = 512 * T + (j 0).val) (hi1 : (i 1).val = (j 1).val) :
    (k0_pay1 (F := Ideal) x0 Wt B : S512x3072.Idx → EReal) j = projected X Wt B i := by
  obtain ⟨r, e, rfl⟩ : ∃ (r : Fin 512) (e : Fin 3072), j = ix2 r e := ⟨j 0, j 1, eq_ix2 j⟩
  rw [pay_apply]
  unfold projected
  have he : (⟨(i 1).val, (i 1).isLt⟩ : Fin 3072) = e := Fin.ext hi1
  rw [he]
  refine congrArg (· + B (ix2 (0 : Fin 1) e)) (Finset.sum_congr rfl fun d _ => ?_)
  rw [h0 r d (ix2 (⟨(i 0).val, (i 0).isLt⟩ : Fin 16384) d) hi0 rfl]

variable (V : (c : Dev nD) → (b : Ref sig .tc) → Buf (Elt Ideal) ((c : Thread nD τ).loc b))

/-! ## The input blocks at a grid point -/

/-- The input window's block at point t is rows 512·t … 512·t + 511 of the flattened input. -/
theorem iblk0_apply (c : Dev nD) (t : Fin cfg0.N) (x : S512x1024.Idx) (k : S16384x1024.Idx)
    (hk0 : (k 0).val = 512 * t.val + (x 0).val) (hk1 : (k 1).val = (x 1).val) :
    (Region0.iblk V c 0 t : Vec Ideal S512x1024 .f32) x = (V c main_v0 : S16384x1024.Idx → EReal) k := by
  obtain ⟨e0, e1, -⟩ := block_indices t
  unfold Region0.iblk
  rw [View.read_apply]
  refine congrArg (V c main_v0 : S16384x1024.Idx → EReal) ?_
  funext a; apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The weight window's block is the whole concatenated weight at every point. -/
theorem iblk1_eq (c : Dev nD) (t : Fin cfg0.N) :
    (Region0.iblk V c 1 t : Vec Ideal S1024x3072 .bf16) = (V c main_v2 : S1024x3072.Idx → EReal) := by
  obtain ⟨-, -, e2, e3, -⟩ := block_indices t
  funext x
  unfold Region0.iblk
  rw [View.read_apply]
  refine congrArg (V c main_v2 : S1024x3072.Idx → EReal) ?_
  funext a; apply Fin.ext
  match a with
  | ⟨0, _⟩ => show win0_1.index t (0 : Fin 2) * 1024 + 1 * (x 0).val = (x 0).val; rw [e2]; omega
  | ⟨1, _⟩ => show win0_1.index t (1 : Fin 2) * 3072 + 1 * (x 1).val = (x 1).val; rw [e3]; omega

/-- The bias window's block is the whole bias row at every point. -/
theorem iblk2_eq (c : Dev nD) (t : Fin cfg0.N) :
    (Region0.iblk V c 2 t : Vec Ideal S1x3072 .f32) = (V c main_v4 : S1x3072.Idx → EReal) := by
  obtain ⟨-, -, -, -, e4, e5, -⟩ := block_indices t
  funext x
  unfold Region0.iblk
  rw [View.read_apply]
  refine congrArg (V c main_v4 : S1x3072.Idx → EReal) ?_
  funext a; apply Fin.ext
  match a with
  | ⟨0, _⟩ => show win0_2.index t (0 : Fin 2) * 1 + 1 * (x 0).val = (x 0).val; rw [e4]; omega
  | ⟨1, _⟩ => show win0_2.index t (1 : Fin 2) * 3072 + 1 * (x 1).val = (x 1).val; rw [e5]; omega

/-! ## From blocks to the array -/

/-- What point t writes back is block t of `projected` of the arrays as the region finds them. -/
theorem writeback_eq (c : Dev nD) (t : Fin cfg0.N) :
    (Region0.dat V c).flushed 3 t
      = ((cfg0.win 3).blk t).view.read (Elt Ideal) (projected (V c main_v0) (V c main_v2) (V c main_v4)) := by
  show (cfg0.win 3).cut (grid0.coords t) ((Region0.dat V c).after 3 t) = _
  rw [Region0.after_3]
  unfold Region0.out3
  rw [View.canon_unit_zero zero_offsets]
  simp only [View.ld_unit_zero (S := S512x1024) zero_offsets, View.ld_unit_zero (S := S1024x3072) zero_offsets, View.ld_unit_zero (S := S1x3072) zero_offsets]
  rw [iblk1_eq, iblk2_eq]
  obtain ⟨-, -, -, -, -, -, e6, e7⟩ := block_indices t
  funext j
  show (k0_pay1 (F := Ideal) (Region0.iblk V c 0 t) (V c main_v2) (V c main_v4) : S512x3072.Idx → EReal) j
    = projected (V c main_v0) (V c main_v2) (V c main_v4) (((cfg0.win 3).blk t).view.emb j)
  refine block_apply (V c main_v0) (V c main_v2) (V c main_v4) (Region0.iblk V c 0 t) t.val
    (fun r d k hk0 hk1 => iblk0_apply V c t (ix2 r d) k hk0 hk1) j _ ?_ ?_
  · show win0_3.index t (0 : Fin 2) * 512 + 1 * (j 0).val = 512 * t.val + (j 0).val; rw [e6]; omega
  · show win0_3.index t (1 : Fin 2) * 3072 + 1 * (j 1).val = (j 1).val; rw [e7]; omega

/-- Every row of the projected array is in some point's block: row r in the block of point r / 512. -/
theorem rows_covered (i : S16384x3072.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 3072 := (i 1).isLt
  obtain ⟨t, ht⟩ : ∃ t : Fin cfg0.N, t.val = (i 0).val / 512 := ⟨⟨(i 0).val / 512, by rw [hN]; omega⟩, rfl⟩
  obtain ⟨-, -, -, -, -, -, e6, e7⟩ := block_indices t
  refine ⟨t, flush0_3 t, ?_⟩
  show i ∈ ((View.whole main_v5).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 3072 ≤ (i 1).val ∧ (i 1).val < win0_3.index t (1 : Fin 2) * 3072 + 3072; rw [e7]; omega

/-- So the projected array ends holding `projected`. -/
theorem array_eq (c : Dev nD) :
    (Region0.dat V c).arrAt 3 cfg0.N = projected (V c main_v0) (V c main_v2) (V c main_v4) :=
  (Region0.dat V c).arrAt_eq_of_cover 3 (projected (V c main_v0) (V c main_v2) (V c main_v4)) (fun t _ => writeback_eq V c t) rows_covered

variable (m : (ℓ : Loc nD τ sig) → Buf (Elt Ideal) ℓ) (ρ : Dev nD → PrngReg)

/-! ## Through the run's boundaries -/

/-- The projected array at the region's exit. -/
theorem exit_eq (c : Dev nD) : (Run.W2 m ρ c (Proc.devRef .tc main_v5) : S16384x3072.Idx → EReal)
    = projected (Run.VE1 m ρ c main_v0) (Run.VE1 m ρ c main_v2) (Run.VE1 m ρ c main_v4) :=
  (Run.W2_arr m ρ c 3).trans (array_eq (Run.VE1 m ρ) c)

/-- Its three-axis view, which the attention region enters with, is its reshape. -/
theorem entry_eq (c : Dev nD) : (Run.VE3 m ρ c main_v6 : S8x2048x3072.Idx → EReal)
    = shapeCast S8x2048x3072 (Run.W2 m ρ c (Proc.devRef .tc main_v5) : S16384x3072.Idx → EReal) shapeCasts_S16384x3072_S8x2048x3072 := by
  dsimp only [Run.VE3, Run.W3, hostOps1]; after_results; rfl

/-- Entry (b, n, e) of the view is entry (2048·b + n, e) of the projected array. -/
theorem entry_apply (c : Dev nD) (bt : Fin 8) (n : Fin 2048) (e : Fin 3072) :
    (Run.VE3 m ρ c main_v6 : S8x2048x3072.Idx → EReal) (ix3 bt n e)
      = projected (Run.VE1 m ρ c main_v0) (Run.VE1 m ρ c main_v2) (Run.VE1 m ρ c main_v4) (ix2 (⟨2048 * bt.val + n.val, by omega⟩ : Fin 16384) e) := by
  rw [entry_eq, ← exit_eq]
  refine shapeCast_apply _ shapeCasts_S16384x3072_S8x2048x3072 _ (ix2 (⟨2048 * bt.val + n.val, by omega⟩ : Fin 16384) e) ?_
  rw [Shape.rowMajor_val_three, Shape.rowMajor_val_two]
  show (2048 * bt.val + n.val) * 3072 + e.val = (bt.val * 2048 + n.val) * 3072 + e.val
  omega

/-! ## The projected array at the attention region's entry -/

/-- Product and sum in the extended reals. -/
local notation:70 a:70 " *ₑ " b:71 => HMul.hMul (α := EReal) (β := EReal) (γ := EReal) a b
local notation:65 a:65 " +ₑ " b:66 => HAdd.hAdd (α := EReal) (β := EReal) (γ := EReal) a b

/-- The query third: columns 0 … 1023 are the input against the first weight matrix, plus the first bias. -/
theorem v6_q (c : Dev nD) (bt : Fin 8) (n : Fin 2048) (e : Fin 1024) :
    (Run.VE3 (F := Ideal) m ρ c main_v6 : S8x2048x3072.Idx → EReal) (ix3 bt n (⟨e.val, by omega⟩ : Fin 3072))
      = (∑ d : Fin 1024, (m ((c : Thread nD τ).loc main_arg0) : S8x2048x1024.Idx → EReal) (ix3 bt n d)
            *ₑ (m ((c : Thread nD τ).loc main_arg1) : S1024x1024.Idx → EReal) (ix2 d e))
        +ₑ (m ((c : Thread nD τ).loc main_arg2) : S1024.Idx → EReal) (ix1 e) := by
  rw [entry_apply, projected_apply, v4_apply_q]
  refine congrArg₂ (HAdd.hAdd (α := EReal) (β := EReal) (γ := EReal)) (Finset.sum_congr rfl fun d _ => ?_) rfl
  rw [v0_apply, v2_apply_q]

/-- The key third: columns 1024 … 2047 are the input against the second weight matrix, plus the second bias. -/
theorem v6_k (c : Dev nD) (bt : Fin 8) (n : Fin 2048) (e : Fin 1024) :
    (Run.VE3 (F := Ideal) m ρ c main_v6 : S8x2048x3072.Idx → EReal) (ix3 bt n (⟨1024 + e.val, by omega⟩ : Fin 3072))
      = (∑ d : Fin 1024, (m ((c : Thread nD τ).loc main_arg0) : S8x2048x1024.Idx → EReal) (ix3 bt n d)
            *ₑ (m ((c : Thread nD τ).loc main_arg3) : S1024x1024.Idx → EReal) (ix2 d e))
        +ₑ (m ((c : Thread nD τ).loc main_arg4) : S1024.Idx → EReal) (ix1 e) := by
  rw [entry_apply, projected_apply, v4_apply_k]
  refine congrArg₂ (HAdd.hAdd (α := EReal) (β := EReal) (γ := EReal)) (Finset.sum_congr rfl fun d _ => ?_) rfl
  rw [v0_apply, v2_apply_k]

/-- The value third: columns 2048 … 3072 − 1 are the input against the third weight matrix, plus the third bias. -/
theorem v6_v (c : Dev nD) (bt : Fin 8) (n : Fin 2048) (e : Fin 1024) :
    (Run.VE3 (F := Ideal) m ρ c main_v6 : S8x2048x3072.Idx → EReal) (ix3 bt n (⟨2048 + e.val, by omega⟩ : Fin 3072))
      = (∑ d : Fin 1024, (m ((c : Thread nD τ).loc main_arg0) : S8x2048x1024.Idx → EReal) (ix3 bt n d)
            *ₑ (m ((c : Thread nD τ).loc main_arg5) : S1024x1024.Idx → EReal) (ix2 d e))
        +ₑ (m ((c : Thread nD τ).loc main_arg6) : S1024.Idx → EReal) (ix1 e) := by
  rw [entry_apply, projected_apply, v4_apply_v]
  refine congrArg₂ (HAdd.hAdd (α := EReal) (β := EReal) (γ := EReal)) (Finset.sum_congr rfl fun d _ => ?_) rfl
  rw [v0_apply, v2_apply_v]

end Cert.KernelIdeal.Value0

end
-- ==== Proof.IdealRegion1Pieces.lean ====
/-
  What the three whole-body runs found, as plain terms of the body's arithmetic: after a point the running maximum is
  the old maximum joined with the block's row maxima, the running denominator and numerator are the old ones rescaled
  plus the block's contributions, and at the last key block the output block is the numerator divided by the
  denominator.  At the first key block the "old" values are the constants the body has just stored (−∞, 0, 0).
-/
import proofs.«105470_j53377853555119_2_alg».proof.Proof.IdealRegion1Frame
import Idealize.ShloMosaic.Lib.Pipeline.Value

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 2000000 in
theorem sout_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) :
    sout_A_0 c i arg3 harg3 arg4 harg4 arg5 harg5 arg6 harg6 arg7 harg7 arg8 harg8 arg9 harg9 hcI hcF x0 x1 x2 = k1_pay2 (k1_pay9 x0 x1 (k1_pay4 (F := F))) := by
  unfold sout_A_0
  rw [View.read_writes_eq_canon _ _ _ (scover_A_0 c i arg3 harg3 arg4 harg4 arg5 harg5 arg6 harg6 arg7 harg7 arg8 harg8 arg9 harg9 hcI hcF x0 x1 x2)]
  unfold kernelRun_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) :
    sout_A_1 c i arg3 harg3 arg4 harg4 arg5 harg5 arg6 harg6 arg7 harg7 arg8 harg8 arg9 harg9 hcI hcF x0 x1 x2 = k1_pay12 x0 x1 (k1_pay4 (F := F)) (k1_pay4 (F := F)) (k1_pay5 (F := F)) := by
  unfold sout_A_1
  rw [View.read_writes_eq_canon _ _ _ (scover_A_1 c i arg3 harg3 arg4 harg4 arg5 harg5 arg6 harg6 arg7 harg7 arg8 harg8 arg9 harg9 hcI hcF x0 x1 x2)]
  unfold kernelRun_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : condI i) (hcF : ¬condF i)
    (x0 : Vec F S1x1024x1024 .bf16) (x1 : Vec F S1x512x1024 .bf16) (x2 : Vec F S1x512x1024 .bf16) :
    sout_A_2 c i arg3 harg3 arg4 harg4 arg5 harg5 arg6 harg6 arg7 harg7 arg8 harg8 arg9 harg9 hcI hcF x0 x1 x2 = k1_pay1 (k1_pay7 x2) (k1_pay10 x0 x1 (k1_pay4 (F := F)) (k1_pay4 (F := F))) (k1_pay11 x0 x1 (k1_pay4 (F := F))) (k1_pay6 (F := F)) := by
  unfold sout_A_2
  rw [View.read_writes_eq_canon _ _ _ (scover_A_2 c i arg3 harg3 arg4 harg4 arg5 harg5 arg6 harg6 arg7 harg7 arg8 harg8 arg9 harg9 hcI hcF x0 x1 x2)]
  unfold kernelRun_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_B_0 c i arg3 harg3 arg4 harg4 arg5 harg5 arg6 harg6 arg7 harg7 arg8 harg8 arg9 harg9 hcI hcF x0 x1 x2 xs0 xs1 xs2 = k1_pay2 (k1_pay9 x0 x1 (xs0)) := by
  unfold sout_B_0
  rw [View.read_writes_eq_canon _ _ _ (scover_B_0 c i arg3 harg3 arg4 harg4 arg5 harg5 arg6 harg6 arg7 harg7 arg8 harg8 arg9 harg9 hcI hcF x0 x1 x2 xs0 xs1 xs2)]
  unfold kernelRun_B
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_B_1 c i arg3 harg3 arg4 harg4 arg5 harg5 arg6 harg6 arg7 harg7 arg8 harg8 arg9 harg9 hcI hcF x0 x1 x2 xs0 xs1 xs2 = k1_pay12 x0 x1 (xs0) (xs0) (xs1) := by
  unfold sout_B_1
  rw [View.read_writes_eq_canon _ _ _ (scover_B_1 c i arg3 harg3 arg4 harg4 arg5 harg5 arg6 harg6 arg7 harg7 arg8 harg8 arg9 harg9 hcI hcF x0 x1 x2 xs0 xs1 xs2)]
  unfold kernelRun_B
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : ¬condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_B_2 c i arg3 harg3 arg4 harg4 arg5 harg5 arg6 harg6 arg7 harg7 arg8 harg8 arg9 harg9 hcI hcF x0 x1 x2 xs0 xs1 xs2 = k1_pay1 (k1_pay7 x2) (k1_pay10 x0 x1 (xs0) (xs0)) (k1_pay11 x0 x1 (xs0)) (xs2) := by
  unfold sout_B_2
  rw [View.read_writes_eq_canon _ _ _ (scover_B_2 c i arg3 harg3 arg4 harg4 arg5 harg5 arg6 harg6 arg7 harg7 arg8 harg8 arg9 harg9 hcI hcF x0 x1 x2 xs0 xs1 xs2)]
  unfold kernelRun_B
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_C_0 c i arg3 harg3 arg4 harg4 arg5 harg5 arg6 harg6 arg7 harg7 arg8 harg8 arg9 harg9 hcI hcF x0 x1 x2 xs0 xs1 xs2 = k1_pay2 (k1_pay9 x0 x1 (xs0)) := by
  unfold sout_C_0
  rw [View.read_writes_eq_canon _ _ _ (scover_C_0 c i arg3 harg3 arg4 harg4 arg5 harg5 arg6 harg6 arg7 harg7 arg8 harg8 arg9 harg9 hcI hcF x0 x1 x2 xs0 xs1 xs2)]
  unfold kernelRun_C
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_C_1 c i arg3 harg3 arg4 harg4 arg5 harg5 arg6 harg6 arg7 harg7 arg8 harg8 arg9 harg9 hcI hcF x0 x1 x2 xs0 xs1 xs2 = k1_pay12 x0 x1 (xs0) (xs0) (xs1) := by
  unfold sout_C_1
  rw [View.read_writes_eq_canon _ _ _ (scover_C_1 c i arg3 harg3 arg4 harg4 arg5 harg5 arg6 harg6 arg7 harg7 arg8 harg8 arg9 harg9 hcI hcF x0 x1 x2 xs0 xs1 xs2)]
  unfold kernelRun_C
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem sout_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout_C_2 c i arg3 harg3 arg4 harg4 arg5 harg5 arg6 harg6 arg7 harg7 arg8 harg8 arg9 harg9 hcI hcF x0 x1 x2 xs0 xs1 xs2 = k1_pay1 (k1_pay7 x2) (k1_pay10 x0 x1 (xs0) (xs0)) (k1_pay11 x0 x1 (xs0)) (xs2) := by
  unfold sout_C_2
  rw [View.read_writes_eq_canon _ _ _ (scover_C_2 c i arg3 harg3 arg4 harg4 arg5 harg5 arg6 harg6 arg7 harg7 arg8 harg8 arg9 harg9 hcI hcF x0 x1 x2 xs0 xs1 xs2)]
  unfold kernelRun_C
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

set_option maxHeartbeats 2000000 in
theorem out_C_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hcI : ¬condI i) (hcF : condF i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    out_C_3 c i arg3 harg3 arg4 harg4 arg5 harg5 arg6 harg6 arg7 harg7 arg8 harg8 arg9 harg9 hcI hcF x0 x1 x2 xs0 xs1 xs2 = k1_pay3 (k1_pay1 (k1_pay7 x2) (k1_pay10 x0 x1 (xs0) (xs0)) (k1_pay11 x0 x1 (xs0)) (xs2)) (k1_pay12 x0 x1 (xs0) (xs0) (xs1)) := by
  unfold out_C_3
  rw [View.read_writes_eq_canon _ _ _ (cover_C_3 c i arg3 harg3 arg4 harg4 arg5 harg5 arg6 harg6 arg7 harg7 arg8 harg8 arg9 harg9 hcI hcF x0 x1 x2 xs0 xs1 xs2)]
  unfold kernelRun_C
  dsimp only
  sl_unfold_run_names
  rw [View.canon_cons_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  try rfl

end Cert.KernelIdeal.Region1

end
-- ==== Proof.IdealValue1Blocks.lean ====
/-
  The attention region's blocks.  A grid point t (0 ≤ t < 64) is batch t / 8, query block (t / 4) mod 2, key block
  t mod 4.  The query window reads rows 1024·qb … of columns 0 … 1023 of the projected array, the key window rows
  512·kb … of columns 1024 … 2047, the value window the same rows of columns 2048 … 3071; the output window is written
  back at the last key block of each (batch, query block), and those sixteen blocks tile the result array.
-/
import proofs.«105470_j53377853555119_2_alg».proof.Proof.IdealRegion1Pieces
import Idealize.ShloMosaic.Lib.ValueIdx
import Idealize.ShloMosaic.Lib.Pipeline.Value

set_option maxRecDepth 16384

noncomputable section

namespace Cert.KernelIdeal.Value1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region1

variable (V : (c : Dev nD) → (b : Ref sig .tc) → Buf (Elt Ideal) ((c : Thread nD τ).loc b)) (c : Dev nD)

/-- The four windows' block indices at point `t`, decided over the grid. -/
theorem idx_facts : ∀ t : Fin cfg1.N,
    win1_0.index t (0 : Fin 3) = t.val / 8 ∧ win1_0.index t (1 : Fin 3) = (t.val / 4) % 2 ∧ win1_0.index t (2 : Fin 3) = 0
    ∧ win1_1.index t (0 : Fin 3) = t.val / 8 ∧ win1_1.index t (1 : Fin 3) = t.val % 4 ∧ win1_1.index t (2 : Fin 3) = 1
    ∧ win1_2.index t (0 : Fin 3) = t.val / 8 ∧ win1_2.index t (1 : Fin 3) = t.val % 4 ∧ win1_2.index t (2 : Fin 3) = 2
    ∧ win1_3.index t (0 : Fin 3) = t.val / 8 ∧ win1_3.index t (1 : Fin 3) = (t.val / 4) % 2 ∧ win1_3.index t (2 : Fin 3) = 0 :=
  (by decide +kernel : ∀ t : Fin grid1.N, _)

/-- The query block at point `t`: row `r`, feature `e` is the projected array at (batch, 1024·qb + r, e). -/
theorem iblk0_apply (t : Fin cfg1.N) (r : Fin 1024) (e : Fin 1024) :
    iblk V c 0 t (ix3 (0 : Fin 1) r e)
      = (V c main_v6 : S8x2048x3072.Idx → EReal) (ix3 (⟨t.val / 8, by have := t.isLt; have : cfg1.N = 64 := N_1; omega⟩ : Fin 8) (⟨1024 * ((t.val / 4) % 2) + r.val, by omega⟩ : Fin 2048) (⟨e.val, by omega⟩ : Fin 3072)) := by
  obtain ⟨e0, e1, e2, -⟩ := idx_facts t
  show (V c main_v6 : S8x2048x3072.Idx → EReal) (((cfg1.win 0).blk t).view.emb (ix3 (0 : Fin 1) r e)) = _
  refine congrArg (V c main_v6 : S8x2048x3072.Idx → EReal) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = 1024 * ((t.val / 4) % 2) + r.val; omega
  | ⟨2, _⟩ => show win1_0.index t (2 : Fin 3) * 1024 + 1 * e.val = e.val; omega

/-- The key block at point `t`: key `j`, feature `e` is the projected array at (batch, 512·kb + j, 1024 + e). -/
theorem iblk1_apply (t : Fin cfg1.N) (j : Fin 512) (e : Fin 1024) :
    iblk V c 1 t (ix3 (0 : Fin 1) j e)
      = (V c main_v6 : S8x2048x3072.Idx → EReal) (ix3 (⟨t.val / 8, by have := t.isLt; have : cfg1.N = 64 := N_1; omega⟩ : Fin 8) (⟨j.val + 512 * (t.val % 4), by omega⟩ : Fin 2048) (⟨1024 + e.val, by omega⟩ : Fin 3072)) := by
  obtain ⟨-, -, -, e0, e1, e2, -⟩ := idx_facts t
  show (V c main_v6 : S8x2048x3072.Idx → EReal) (((cfg1.win 1).blk t).view.emb (ix3 (0 : Fin 1) j e)) = _
  refine congrArg (V c main_v6 : S8x2048x3072.Idx → EReal) (funext fun a => Fin.ext ?_)
  match a with
  | ⟨0, _⟩ => show win1_1.index t (0 : Fin 3) * 1 + 1 * 0 = t.val / 8; omega
  | ⟨1, _⟩ => show win1_1.index t (1 : Fin 3) * 512 + 1 * j.val = j.val + 512 * (t.val % 4); omega
  | ⟨2, _⟩ => show win1_1.index t (2 : Fin 3) * 1024 + 1 * e.val = 1024 + e.val; omega

/-- The value block at point `t`: key `j`, feature `e` is the projected array at (batch, 512·kb + j, 2048 + e). -/
theorem iblk2_apply (t : Fin cfg1.N) (j : Fin 512) (e : Fin 1024) :
    iblk V c 2 t (ix3 (0 : Fin 1) j e)
      = (V c main_v6 : S8x2048x3072.Idx → EReal) (ix3 (⟨t.val / 8, by have := t.isLt; have : cfg1.N = 64 := N_1; omega⟩ : Fin 8) (⟨j.val + 512 * (t.val % 4), by omega⟩ : Fin 2048) (⟨2048 + e.val, by omega⟩ : Fin 3072)) := by
  obtain ⟨-, -, -, -, -, -, e0, e1, e2, -⟩ := idx_facts t
  show (V c main_v6 : S8x2048x3072.Idx → EReal) (((cfg1.win 2).blk t).view.emb (ix3 (0 : Fin 1) j e)) = _
  refine congrArg (V c main_v6 : S8x2048x3072.Idx → EReal) (funext fun a => Fin.ext ?_)
  match a with
  | ⟨0, _⟩ => show win1_2.index t (0 : Fin 3) * 1 + 1 * 0 = t.val / 8; omega
  | ⟨1, _⟩ => show win1_2.index t (1 : Fin 3) * 512 + 1 * j.val = j.val + 512 * (t.val % 4); omega
  | ⟨2, _⟩ => show win1_2.index t (2 : Fin 3) * 1024 + 1 * e.val = 2048 + e.val; omega

/-- The output block at point `t` sits at (batch, 1024·qb + r, d) of the result array. -/
theorem oblk_emb (t : Fin cfg1.N) (y : S1x1024x1024.Idx) :
    (((cfg1.win 3).blk t).view.emb y : S8x2048x1024.Idx)
      = ix3 (⟨t.val / 8, by have := t.isLt; have : cfg1.N = 64 := N_1; omega⟩ : Fin 8) (⟨1024 * ((t.val / 4) % 2) + (y 1).val, by have h1 : (y 1).val < 1024 := (y 1).isLt; omega⟩ : Fin 2048) (⟨(y 2).val, (y 2).isLt⟩ : Fin 1024) := by
  obtain ⟨-, -, -, -, -, -, -, -, -, e0, e1, e2⟩ := idx_facts t
  funext a; apply Fin.ext
  match a with
  | ⟨0, _⟩ => show win1_3.index t (0 : Fin 3) * 1 + 1 * (y 0).val = t.val / 8; have : (y 0).val < 1 := (y 0).isLt; omega
  | ⟨1, _⟩ => show win1_3.index t (1 : Fin 3) * 1024 + 1 * (y 1).val = 1024 * ((t.val / 4) % 2) + (y 1).val; omega
  | ⟨2, _⟩ => show win1_3.index t (2 : Fin 3) * 1024 + 1 * (y 2).val = (y 2).val; omega

/-- An index of the result array is in point `t`'s block iff each coordinate is in the block's range. -/
theorem mem_blk3 (t : Fin cfg1.N) (i : S8x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v7).slice (win1_3.rect t)).set ↔ _
  rw [View.set_slice_whole, Rect.mem_set_unit]
  exact Iff.rfl

/-- Every index of the result array is in the block of a point that writes back: batch b, query block qb, last key block. -/
theorem cover3 (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : cfg1.N = 64 := N_1
  refine ⟨⟨8 * (i 0).val + 4 * ((i 1).val / 1024) + 3, by omega⟩, (flush1_3 _).mpr (by show (8 * (i 0).val + 4 * ((i 1).val / 1024) + 3) % 4 = 3; omega), ?_⟩
  rw [mem_blk3]
  obtain ⟨-, -, -, -, -, -, -, -, -, e0, e1, e2⟩ := idx_facts ⟨8 * (i 0).val + 4 * ((i 1).val / 1024) + 3, by omega⟩
  intro a
  match a with
  | ⟨0, _⟩ => show win1_3.index _ (0 : Fin 3) * 1 ≤ (i 0).val ∧ (i 0).val < win1_3.index _ (0 : Fin 3) * 1 + 1; simp only at e0; omega
  | ⟨1, _⟩ => show win1_3.index _ (1 : Fin 3) * 1024 ≤ (i 1).val ∧ (i 1).val < win1_3.index _ (1 : Fin 3) * 1024 + 1024; simp only at e1; omega
  | ⟨2, _⟩ => show win1_3.index _ (2 : Fin 3) * 1024 ≤ (i 2).val ∧ (i 2).val < win1_3.index _ (2 : Fin 3) * 1024 + 1024; simp only at e2; omega

end Cert.KernelIdeal.Value1

end
-- ==== Proof.LibOnlineSoftmax.lean ====
/-
  The online softmax, as mathematics.

  A row of attention is a softmax-weighted sum: over a finite set of keys with real scores `σ k` and
  real values `ν k`, the number `∑ k, (exp (σ k - μ) / ∑ k', exp (σ k' - μ)) * ν k`, where `μ` is the largest
  score (any shift `μ` gives the same number). The ONLINE form walks over the keys block by block and keeps
  three numbers: the running maximum `μ`, the running denominator `lam = ∑ k ∈ K, exp (σ k - μ)` and the
  running numerator `alpha = ∑ k ∈ K, exp (σ k - μ) * ν k` over the set `K` of keys seen so far; at a new
  block `J` it moves to `μ' = max μ (max over J)`, multiplies the two sums by `exp (μ - μ')` and adds the
  block's terms; at the end it divides.

  Part A proves, over the reals, that this is the closed form: the rescaling step keeps the two sums in
  their closed form over `K ∪ J` (`rescale_den`, `rescale_num`), the running maximum is the maximum over
  `K ∪ J` (`running_max`), the three together (`step_invariant`), the first block (`first_block_closed`),
  positivity of the denominator and the final quotient as the weighted sum (`den_pos`, `quotient_eq`), and
  that the weights do not depend on the shift (`weight_shift`).

  Part B is about the extended reals `EReal = [-∞, +∞]` with the exact operations of the ideal reading of
  floats (`x + y`, `x - y`, `x * y`, `max x y`, `Ideal.exp`, `Ideal.div`): the walk STARTS from the
  maximum `⊥ = -∞` with both sums `0`, and Part B shows that each step lands on (the coercion of) a real
  number: from `⊥` the rescaling factor is `exp (-∞) = 0` and the new sums are the block's own
  (`first_block_*`); from real state the step is the real step (`later_block_*`); the final quotient is the
  real quotient (`div_coe_coe`); and a fold of `max` from `-∞` over coerced reals is the coerced maximum
  (`fold_max_*`). `coe_finset_sum` is the coercion of a finite sum.

  Part C reindexes a sum, and a maximum, over `n` blocks of `b` keys as one over `n * b` keys, the key of
  block `t` at offset `j` being `j + b * t`.
-/
import Mathlib.Data.Finset.Lattice.Fold
import Mathlib.Data.Finset.Lattice.Prod
import Mathlib.Logic.Equiv.Fin.Basic
import Mathlib.Algebra.BigOperators.Group.Finset.Basic
import Mathlib.Algebra.BigOperators.Group.Finset.Sigma
import Mathlib.Algebra.BigOperators.Field
import Mathlib.Analysis.SpecialFunctions.Exp
import Mathlib.Data.EReal.Inv
import Idealize.ShloMosaic.PureOps.Ideal
import Idealize.ShloMosaic.PureOps.Ideal.Laws

namespace Cert.Lib.OnlineSoftmax

open scoped BigOperators
open Idealize.ShloMosaic

/-! ## Part A: the real-number identities -/

section Real

variable {κ : Type*} [DecidableEq κ] (σ ν : κ → ℝ)

/-- One term of the rescaling: `exp (μ - μ') * exp (σ - μ) = exp (σ - μ')`. -/
theorem exp_rescale (μ μ' s : ℝ) : Real.exp (μ - μ') * Real.exp (s - μ) = Real.exp (s - μ') := by
  rw [← Real.exp_add]; congr 1; ring

/-- The rescaling step keeps the DENOMINATOR in closed form, for any old shift `μ` and new shift `μ'`:
    `exp (μ - μ') * ∑ k ∈ K, exp (σ k - μ) + ∑ j ∈ J, exp (σ j - μ') = ∑ k ∈ K ∪ J, exp (σ k - μ')`
    for disjoint `K`, `J`. Nothing is assumed of `μ`, `μ'`. -/
theorem rescale_den_any (K J : Finset κ) (hKJ : Disjoint K J) (μ μ' : ℝ) :
    Real.exp (μ - μ') * (∑ k ∈ K, Real.exp (σ k - μ)) + ∑ j ∈ J, Real.exp (σ j - μ')
      = ∑ k ∈ K ∪ J, Real.exp (σ k - μ') := by
  rw [Finset.sum_union hKJ, Finset.mul_sum]
  congr 1
  exact Finset.sum_congr rfl fun k _ => exp_rescale μ μ' (σ k)

/-- The rescaling step keeps the NUMERATOR (the sums weighted by the values `ν`) in closed form, for any
    old shift `μ` and new shift `μ'`. -/
theorem rescale_num_any (K J : Finset κ) (hKJ : Disjoint K J) (μ μ' : ℝ) :
    Real.exp (μ - μ') * (∑ k ∈ K, Real.exp (σ k - μ) * ν k) + ∑ j ∈ J, Real.exp (σ j - μ') * ν j
      = ∑ k ∈ K ∪ J, Real.exp (σ k - μ') * ν k := by
  rw [Finset.sum_union hKJ, Finset.mul_sum]
  congr 1
  refine Finset.sum_congr rfl fun k _ => ?_
  rw [← mul_assoc, exp_rescale]

/-- (Denominator.) With `lam` the closed form over `K` at shift `μ` and `μ' = max μ (max over J)`:
    `exp (μ - μ') * lam + ∑ j ∈ J, exp (σ j - μ') = ∑ k ∈ K ∪ J, exp (σ k - μ')`. That `μ` is the maximum
    over `K` is not needed. -/
theorem rescale_den (K J : Finset κ) (hJ : J.Nonempty) (hKJ : Disjoint K J) (μ lam : ℝ)
    (hlam : lam = ∑ k ∈ K, Real.exp (σ k - μ)) :
    Real.exp (μ - max μ (J.sup' hJ σ)) * lam + ∑ j ∈ J, Real.exp (σ j - max μ (J.sup' hJ σ))
      = ∑ k ∈ K ∪ J, Real.exp (σ k - max μ (J.sup' hJ σ)) := by
  rw [hlam]; exact rescale_den_any σ K J hKJ μ _

/-- (Numerator.) With `alpha` the closed form over `K` at shift `μ` and `μ' = max μ (max over J)`:
    `exp (μ - μ') * alpha + ∑ j ∈ J, exp (σ j - μ') * ν j = ∑ k ∈ K ∪ J, exp (σ k - μ') * ν k`. -/
theorem rescale_num (K J : Finset κ) (hJ : J.Nonempty) (hKJ : Disjoint K J) (μ alpha : ℝ)
    (halpha : alpha = ∑ k ∈ K, Real.exp (σ k - μ) * ν k) :
    Real.exp (μ - max μ (J.sup' hJ σ)) * alpha + ∑ j ∈ J, Real.exp (σ j - max μ (J.sup' hJ σ)) * ν j
      = ∑ k ∈ K ∪ J, Real.exp (σ k - max μ (J.sup' hJ σ)) * ν k := by
  rw [halpha]; exact rescale_num_any σ ν K J hKJ μ _

/-- The running maximum: if `μ` is the maximum of `σ` over `K`, then `max μ (max over J)` is the
    maximum over `K ∪ J`. -/
theorem running_max (K J : Finset κ) (hK : K.Nonempty) (hJ : J.Nonempty) (μ : ℝ) (hμ : μ = K.sup' hK σ) :
    max μ (J.sup' hJ σ) = (K ∪ J).sup' (hK.mono Finset.subset_union_left) σ := by
  rw [hμ, Finset.sup'_union hK hJ σ]

/-- One step of the walk keeps all three closed forms: from the maximum, denominator and
    numerator over `K` to those over `K ∪ J`. -/
theorem step_invariant (K J : Finset κ) (hK : K.Nonempty) (hJ : J.Nonempty) (hKJ : Disjoint K J)
    (μ lam alpha : ℝ) (hμ : μ = K.sup' hK σ) (hlam : lam = ∑ k ∈ K, Real.exp (σ k - μ))
    (halpha : alpha = ∑ k ∈ K, Real.exp (σ k - μ) * ν k) :
    let μ' := max μ (J.sup' hJ σ)
    μ' = (K ∪ J).sup' (hK.mono Finset.subset_union_left) σ
      ∧ Real.exp (μ - μ') * lam + ∑ j ∈ J, Real.exp (σ j - μ') = ∑ k ∈ K ∪ J, Real.exp (σ k - μ')
      ∧ Real.exp (μ - μ') * alpha + ∑ j ∈ J, Real.exp (σ j - μ') * ν j
          = ∑ k ∈ K ∪ J, Real.exp (σ k - μ') * ν k :=
  ⟨running_max σ K J hK hJ μ hμ, rescale_den σ K J hJ hKJ μ lam hlam, rescale_num σ ν K J hJ hKJ μ alpha halpha⟩

/-- (The first block.) From nothing (`K = ∅`) the three closed forms over `∅ ∪ J` are the block's own:
    its maximum `μ' = max over J`, `∑ j ∈ J, exp (σ j - μ')` and `∑ j ∈ J, exp (σ j - μ') * ν j`. -/
theorem first_block_closed (J : Finset κ) (hJ : J.Nonempty) (μ' : ℝ) :
    (∅ ∪ J).sup' ((Finset.empty_union J).symm ▸ hJ) σ = J.sup' hJ σ
      ∧ ∑ k ∈ ∅ ∪ J, Real.exp (σ k - μ') = ∑ j ∈ J, Real.exp (σ j - μ')
      ∧ ∑ k ∈ ∅ ∪ J, Real.exp (σ k - μ') * ν k = ∑ j ∈ J, Real.exp (σ j - μ') * ν j := by
  refine ⟨?_, ?_, ?_⟩
  · exact Finset.sup'_congr _ (Finset.empty_union J) fun _ _ => rfl
  · rw [Finset.empty_union]
  · rw [Finset.empty_union]

/-- The denominator over a nonempty set of keys is positive. -/
theorem den_pos (K : Finset κ) (hK : K.Nonempty) (μ lam : ℝ) (hlam : lam = ∑ k ∈ K, Real.exp (σ k - μ)) :
    0 < lam := by
  rw [hlam]; exact Finset.sum_pos (fun k _ => Real.exp_pos _) hK

/-- The final quotient is the softmax-weighted sum of the values:
    `alpha / lam = ∑ k ∈ K, (exp (σ k - μ) / ∑ k' ∈ K, exp (σ k' - μ)) * ν k`. -/
theorem quotient_eq (K : Finset κ) (μ lam alpha : ℝ) (hlam : lam = ∑ k ∈ K, Real.exp (σ k - μ))
    (halpha : alpha = ∑ k ∈ K, Real.exp (σ k - μ) * ν k) :
    alpha / lam = ∑ k ∈ K, (Real.exp (σ k - μ) / ∑ k' ∈ K, Real.exp (σ k' - μ)) * ν k := by
  rw [halpha, hlam, Finset.sum_div]
  exact Finset.sum_congr rfl fun k _ => by rw [div_mul_eq_mul_div]

/-- The softmax weights do not depend on the shift: `exp (σ k - μ) / ∑ exp (σ k' - μ)` is the same number
    for every `μ` (both are `exp (σ k) / ∑ exp (σ k')` after cancelling `exp (-μ)`). -/
theorem weight_shift (K : Finset κ) (μ μ₂ : ℝ) (k : κ) :
    Real.exp (σ k - μ) / ∑ k' ∈ K, Real.exp (σ k' - μ)
      = Real.exp (σ k - μ₂) / ∑ k' ∈ K, Real.exp (σ k' - μ₂) := by
  have h : ∀ s : ℝ, Real.exp (s - μ) = Real.exp (μ₂ - μ) * Real.exp (s - μ₂) := fun s =>
    (exp_rescale μ₂ μ s).symm
  rw [h (σ k), Finset.sum_congr rfl fun k' _ => h (σ k'), ← Finset.mul_sum,
    mul_div_mul_left _ _ (Real.exp_pos _).ne']

end Real

/-! ## Part B: the extended-real steps land on real numbers

The operations are those of the ideal reading of floats: `addf`, `subf`, `mulf` are EReal's `+`, `-`, `*`;
`maximumf` is `max`; `exp` is `Ideal.exp` (`exp ⊥ = 0`); `divf` is `Ideal.div`. The lemmas are stated
over these terms, the right sides of `Ideal.addf_def`, `Ideal.subf_def`, `Ideal.mulf_def`,
`Ideal.maximumf_def`, `Ideal.exp_def`, `Ideal.divf_def`. -/

section Extended

variable {ι : Type*}

/-- The coercion of a finite sum of reals is the sum of the coercions. -/
theorem coe_finset_sum (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- `max` of two coerced reals is the coerced `max` (about `maximumf`). -/
theorem max_coe_coe (a b : ℝ) : max (a : EReal) (b : EReal) = ((max a b : ℝ) : EReal) :=
  (EReal.coe_strictMono.monotone.map_max).symm

/-- `max ⊥ x = x`: the maximum against `-∞` (about `maximumf`). -/
theorem max_bot_left (x : EReal) : max (⊥ : EReal) x = x := bot_sup_eq x

/-- `exp (-∞ - x) = 0` for every extended real `x` (about `exp` of a `subf`): `⊥ - x = ⊥`. -/
theorem exp_bot_sub (x : EReal) : Ideal.exp (⊥ - x) = 0 := by
  rw [EReal.bot_sub, Ideal.exp_bot]

/-- `exp (↑a - ↑b) = ↑(Real.exp (a - b))` (about `exp` of a `subf` of two reals). -/
theorem exp_coe_sub_coe (a b : ℝ) :
    Ideal.exp ((a : EReal) - (b : EReal)) = ((Real.exp (a - b) : ℝ) : EReal) := by
  rw [← EReal.coe_sub, Ideal.exp_coe]

/-- The block's sum of `exp (↑(s j) - ↑M)` is the coerced real sum (about a sum of `exp` of `subf`). -/
theorem sum_exp_coe_sub_coe (J : Finset ι) (s : ι → ℝ) (M : ℝ) :
    ∑ j ∈ J, Ideal.exp ((s j : EReal) - (M : EReal)) = ((∑ j ∈ J, Real.exp (s j - M) : ℝ) : EReal) := by
  rw [coe_finset_sum]
  exact Finset.sum_congr rfl fun j _ => exp_coe_sub_coe (s j) M

/-- `↑a * ↑l + ↑x = ↑(a * l + x)` (about an `addf` of a `mulf`). -/
theorem coe_mul_add_coe (a l x : ℝ) : (a : EReal) * (l : EReal) + (x : EReal) = ((a * l + x : ℝ) : EReal) := by
  rw [EReal.coe_add, EReal.coe_mul]

/-! ### The first block: from `m = ⊥`, with both sums `0` -/

/-- (`maximumf`.) From `m = ⊥` the new maximum `max m bm` is the block's maximum `↑M`. -/
theorem first_block_max {m bm : EReal} {M : ℝ} (hm : m = ⊥) (hbm : bm = (M : EReal)) :
    max m bm = (M : EReal) := by
  rw [hm, hbm, max_bot_left]

/-- (`exp` of `subf` of `maximumf`.) From `m = ⊥` the rescaling factor `exp (m - max m bm)` is `0`,
    whatever the block's maximum. -/
theorem first_block_scale {m : EReal} (hm : m = ⊥) (bm : EReal) : Ideal.exp (m - max m bm) = 0 := by
  rw [hm, exp_bot_sub]

/-- (`addf` of `mulf`.) From `m = ⊥` the updated sum `exp (m - max m bm) * l + x` is the block's
    term `x`, whatever the old sum `l` (the walk has `l = 0`; `0 * l = 0` for every extended real). -/
theorem first_block_acc {m : EReal} (hm : m = ⊥) (bm l x : EReal) :
    Ideal.exp (m - max m bm) * l + x = x := by
  rw [first_block_scale hm, zero_mul, zero_add]

/-- (The new denominator.) From `m = ⊥`, with the block's maximum `bm = ↑M` and real block scores
    `s j`: `exp (m - max m bm) * l + ∑ j ∈ J, exp (↑(s j) - max m bm) = ↑(∑ j ∈ J, Real.exp (s j - M))`
    (about `addf (mulf (exp (subf m m')) l) (Σ exp (subf s m'))` with `m' = maximumf m bm`). -/
theorem first_block_den {m bm : EReal} {M : ℝ} (hm : m = ⊥) (hbm : bm = (M : EReal)) (l : EReal)
    (J : Finset ι) (s : ι → ℝ) :
    Ideal.exp (m - max m bm) * l + ∑ j ∈ J, Ideal.exp ((s j : EReal) - max m bm)
      = ((∑ j ∈ J, Real.exp (s j - M) : ℝ) : EReal) := by
  rw [first_block_acc hm, first_block_max hm hbm, sum_exp_coe_sub_coe]

/-- (The new numerator.) From `m = ⊥`, with the block's maximum `bm = ↑M`, real block scores `s j`
    and real values `v j`: the updated sum with the block's term `∑ j ∈ J, exp (↑(s j) - max m bm) * ↑(v j)`
    is `↑(∑ j ∈ J, Real.exp (s j - M) * v j)`. -/
theorem first_block_num {m bm : EReal} {M : ℝ} (hm : m = ⊥) (hbm : bm = (M : EReal)) (acc : EReal)
    (J : Finset ι) (s v : ι → ℝ) :
    Ideal.exp (m - max m bm) * acc + ∑ j ∈ J, Ideal.exp ((s j : EReal) - max m bm) * (v j : EReal)
      = ((∑ j ∈ J, Real.exp (s j - M) * v j : ℝ) : EReal) := by
  rw [first_block_acc hm, first_block_max hm hbm, coe_finset_sum]
  exact Finset.sum_congr rfl fun j _ => by rw [exp_coe_sub_coe, EReal.coe_mul]

/-! ### A later block: from real state `m = ↑μ`, `l = ↑lam`, `acc = ↑alpha` -/

/-- (`maximumf`.) From `m = ↑μ` the new maximum is `↑(max μ M)`. -/
theorem later_block_max {m bm : EReal} {μ M : ℝ} (hm : m = (μ : EReal)) (hbm : bm = (M : EReal)) :
    max m bm = ((max μ M : ℝ) : EReal) := by
  rw [hm, hbm, max_coe_coe]

/-- (`exp` of `subf` of `maximumf`.) From `m = ↑μ` the rescaling factor is
    `↑(Real.exp (μ - max μ M))`. -/
theorem later_block_scale {m bm : EReal} {μ M : ℝ} (hm : m = (μ : EReal)) (hbm : bm = (M : EReal)) :
    Ideal.exp (m - max m bm) = ((Real.exp (μ - max μ M) : ℝ) : EReal) := by
  rw [later_block_max hm hbm, hm, exp_coe_sub_coe]

/-- (`addf` of `mulf`.) From real state the updated sum `exp (m - max m bm) * l + x` with a real
    block term `x = ↑X` is `↑(Real.exp (μ - max μ M) * lam + X)`. -/
theorem later_block_acc {m bm l x : EReal} {μ M lam X : ℝ} (hm : m = (μ : EReal)) (hbm : bm = (M : EReal))
    (hl : l = (lam : EReal)) (hx : x = (X : EReal)) :
    Ideal.exp (m - max m bm) * l + x = ((Real.exp (μ - max μ M) * lam + X : ℝ) : EReal) := by
  rw [later_block_scale hm hbm, hl, hx, coe_mul_add_coe]

/-- (The new denominator.) From real state, with the block's maximum `bm = ↑M` and real block scores:
    `exp (m - max m bm) * l + ∑ j ∈ J, exp (↑(s j) - max m bm)
       = ↑(Real.exp (μ - max μ M) * lam + ∑ j ∈ J, Real.exp (s j - max μ M))`. -/
theorem later_block_den {m bm l : EReal} {μ M lam : ℝ} (hm : m = (μ : EReal)) (hbm : bm = (M : EReal))
    (hl : l = (lam : EReal)) (J : Finset ι) (s : ι → ℝ) :
    Ideal.exp (m - max m bm) * l + ∑ j ∈ J, Ideal.exp ((s j : EReal) - max m bm)
      = ((Real.exp (μ - max μ M) * lam + ∑ j ∈ J, Real.exp (s j - max μ M) : ℝ) : EReal) := by
  refine later_block_acc hm hbm hl ?_
  rw [later_block_max hm hbm, sum_exp_coe_sub_coe]

/-- (The new numerator.) From real state, with real block scores `s j` and real values `v j`:
    `exp (m - max m bm) * acc + ∑ j ∈ J, exp (↑(s j) - max m bm) * ↑(v j)
       = ↑(Real.exp (μ - max μ M) * alpha + ∑ j ∈ J, Real.exp (s j - max μ M) * v j)`. -/
theorem later_block_num {m bm acc : EReal} {μ M alpha : ℝ} (hm : m = (μ : EReal)) (hbm : bm = (M : EReal))
    (hacc : acc = (alpha : EReal)) (J : Finset ι) (s v : ι → ℝ) :
    Ideal.exp (m - max m bm) * acc + ∑ j ∈ J, Ideal.exp ((s j : EReal) - max m bm) * (v j : EReal)
      = ((Real.exp (μ - max μ M) * alpha + ∑ j ∈ J, Real.exp (s j - max μ M) * v j : ℝ) : EReal) := by
  refine later_block_acc hm hbm hacc ?_
  rw [later_block_max hm hbm, coe_finset_sum]
  exact Finset.sum_congr rfl fun j _ => by rw [exp_coe_sub_coe, EReal.coe_mul]

/-! ### The final quotient -/

/-- (`divf`.) `Ideal.div ↑alpha ↑lam = ↑(alpha / lam)` for `lam ≠ 0`: the library's `Ideal.div_coe`
    (division by a nonzero real is the product with its reciprocal) read back as a real quotient. -/
theorem div_coe_coe (alpha : ℝ) {lam : ℝ} (h : lam ≠ 0) :
    Ideal.div (alpha : EReal) (lam : EReal) = ((alpha / lam : ℝ) : EReal) := by
  rw [Ideal.div_coe h, ← EReal.coe_mul, mul_one_div]

/-- (With equations.) The same for extended reals known to be those reals. -/
theorem div_of_eq_coe {a l : EReal} {alpha lam : ℝ} (ha : a = (alpha : EReal)) (hl : l = (lam : EReal))
    (h : lam ≠ 0) : Ideal.div a l = ((alpha / lam : ℝ) : EReal) := by
  rw [ha, hl, div_coe_coe alpha h]

/-! ### A fold of `max` over coerced reals

A `vector.multi_reduction <maximumf>` over one axis reads at the ideal values as
`Finset.univ.fold max (ofBits φ acc) (src ∘ lift j)` (`Ideal.multiReduction_maximumf_single`) and the host's
`reduce` with a `maximumf` body as the same fold with `FloatOps.maximumf` for `max`
(`Host.reduce_eq_fold_single`); the accumulator's pattern `0xFF800000` is `-∞`. -/

/-- The f32 pattern `0xFF800000` denotes `-∞`. -/
theorem ofBits_f32_neg_inf : Ideal.ofBits .f32 0xFF800000#32 = ⊥ := by
  simp [Ideal.ofBits, Ideal.ieee]

/-- A fold of the ideal `maximumf` is the fold of `max`: one function. -/
theorem fold_maximumf_eq_fold_max {φ : FTy} (b : Ideal φ) (g : ι → Ideal φ) (S : Finset ι) :
    S.fold (FloatOps.maximumf (F := Ideal) (φ := φ)) b g = S.fold (max : EReal → EReal → EReal) b g := rfl

/-- The fold of `max` from any `b` over a nonempty set of coerced reals is `max b ↑(the maximum)`. -/
theorem fold_max_coe (S : Finset ι) (hS : S.Nonempty) (b : EReal) (f : ι → ℝ) :
    S.fold max b (fun i => (f i : EReal)) = max b ((S.sup' hS f : ℝ) : EReal) := by
  induction hS using Finset.Nonempty.cons_induction with
  | singleton a => rw [Finset.fold_singleton, Finset.sup'_singleton, max_comm]
  | cons a S ha hS ih =>
    rw [Finset.fold_cons, ih, Finset.sup'_cons hS, ← max_coe_coe, max_left_comm]

/-- (From `-∞`.) The fold of `max` from `⊥` over a nonempty set of coerced reals is the coerced maximum
    (`Finset.sup'`). -/
theorem fold_max_bot_coe (S : Finset ι) (hS : S.Nonempty) (f : ι → ℝ) :
    S.fold max (⊥ : EReal) (fun i => (f i : EReal)) = ((S.sup' hS f : ℝ) : EReal) := by
  rw [fold_max_coe S hS, max_bot_left]

/-- (With equations.) The fold of `max` from an initial value known to be `⊥`, over a nonempty set, of a
    function that is pointwise a coerced real. -/
theorem fold_max_of_eq {b : EReal} (hb : b = ⊥) (S : Finset ι) (hS : S.Nonempty) (g : ι → EReal) (f : ι → ℝ)
    (hg : ∀ i, g i = (f i : EReal)) : S.fold max b g = ((S.sup' hS f : ℝ) : EReal) := by
  rw [hb, show g = fun i => (f i : EReal) from funext hg, fold_max_bot_coe]

/-- (After `Ideal.ofBits_def`.) The fold of `max` from the pattern `0xFF800000`, written with
    `Ideal.ofBits`, over all of a nonempty finite index type, of a function that is pointwise a coerced real. -/
theorem fold_max_neg_inf_univ [Fintype ι] [Nonempty ι] (g : ι → EReal) (f : ι → ℝ) (hg : ∀ i, g i = (f i : EReal)) :
    (Finset.univ : Finset ι).fold max (Ideal.ofBits .f32 0xFF800000#32) g
      = ((Finset.univ.sup' Finset.univ_nonempty f : ℝ) : EReal) :=
  fold_max_of_eq ofBits_f32_neg_inf _ _ g f hg

/-- The f32 pattern `0xFF800000` denotes `-∞`, written with the instance's field `FloatOps.ofBits` (the form
    `Ideal.multiReduction_maximumf_single` and `Host.reduce_eq_fold_single` leave before `Ideal.ofBits_def`). -/
theorem floatOps_ofBits_f32_neg_inf : FloatOps.ofBits (F := Ideal) .f32 0xFF800000#32 = (⊥ : EReal) :=
  ofBits_f32_neg_inf

/-- (As the reduction law leaves it.) The same fold with the initial value written `FloatOps.ofBits`:
    the right side of `Ideal.multiReduction_maximumf_single` with `g = src ∘ h.lift j`. -/
theorem fold_max_floatOps_neg_inf_univ [Fintype ι] [Nonempty ι] (g : ι → EReal) (f : ι → ℝ)
    (hg : ∀ i, g i = (f i : EReal)) :
    (Finset.univ : Finset ι).fold max (FloatOps.ofBits (F := Ideal) .f32 0xFF800000#32) g
      = ((Finset.univ.sup' Finset.univ_nonempty f : ℝ) : EReal) :=
  fold_max_of_eq floatOps_ofBits_f32_neg_inf _ _ g f hg

end Extended

/-! ## Part C: `n` blocks of `b` keys as `n * b` keys

`finProdFinEquiv : Fin n × Fin b ≃ Fin (n * b)` sends block `t`, offset `j` to the key `j + b * t`. -/

section Blocks

variable {n b : ℕ}

/-- The key of block `t` at offset `j` is `j + b * t`. -/
theorem blockKey_val (t : Fin n) (j : Fin b) : ((finProdFinEquiv (t, j) : Fin (n * b)) : ℕ) = j + b * t := rfl

/-- (Sum.) A sum over `n * b` keys is the sum over the `n` blocks of the sums over each block's `b` keys. -/
theorem sum_blocks {M : Type*} [AddCommMonoid M] (f : Fin (n * b) → M) :
    ∑ k : Fin (n * b), f k = ∑ t : Fin n, ∑ j : Fin b, f (finProdFinEquiv (t, j)) := by
  rw [← Fintype.sum_prod_type']
  exact (Fintype.sum_equiv finProdFinEquiv (fun p => f (finProdFinEquiv p)) f fun _ => rfl).symm

/-- (Sum, by the key's number.) For a summand given on the key's number `k : ℕ`: the key of block `t` at
    offset `j` is `j + b * t`. -/
theorem sum_blocks_nat {M : Type*} [AddCommMonoid M] (g : ℕ → M) :
    ∑ k : Fin (n * b), g (k : ℕ) = ∑ t : Fin n, ∑ j : Fin b, g ((j : ℕ) + b * (t : ℕ)) :=
  sum_blocks fun k : Fin (n * b) => g (k : ℕ)

/-- (Maximum.) The maximum over `n * b` keys is the maximum over the `n` blocks of each block's maximum. -/
theorem sup'_blocks {α : Type*} [SemilatticeSup α] (f : Fin (n * b) → α)
    (hnb : (Finset.univ : Finset (Fin (n * b))).Nonempty) (hn : (Finset.univ : Finset (Fin n)).Nonempty)
    (hb : (Finset.univ : Finset (Fin b)).Nonempty) :
    Finset.univ.sup' hnb f
      = Finset.univ.sup' hn fun t : Fin n => Finset.univ.sup' hb fun j : Fin b => f (finProdFinEquiv (t, j)) := by
  refine eq_of_forall_ge_iff fun c => ?_
  simp only [Finset.sup'_le_iff, Finset.mem_univ, true_imp_iff]
  refine ⟨fun h t j => h _, fun h k => ?_⟩
  have := h (finProdFinEquiv.symm k).1 (finProdFinEquiv.symm k).2
  rwa [Prod.mk.eta, Equiv.apply_symm_apply] at this

/-- (Maximum, by the key's number.) The same for a function of the key's number `k : ℕ`. -/
theorem sup'_blocks_nat {α : Type*} [SemilatticeSup α] (g : ℕ → α)
    (hnb : (Finset.univ : Finset (Fin (n * b))).Nonempty) (hn : (Finset.univ : Finset (Fin n)).Nonempty)
    (hb : (Finset.univ : Finset (Fin b)).Nonempty) :
    Finset.univ.sup' hnb (fun k : Fin (n * b) => g (k : ℕ))
      = Finset.univ.sup' hn fun t : Fin n => Finset.univ.sup' hb fun j : Fin b => g ((j : ℕ) + b * (t : ℕ)) :=
  sup'_blocks (fun k : Fin (n * b) => g (k : ℕ)) hnb hn hb

end Blocks

end Cert.Lib.OnlineSoftmax
-- ==== Proof.IdealPayloads.lean ====
/-
  The scores and the new running maximum of one step of the attention kernel, read at an index as real
  numbers.

  The kernel walks over the keys in blocks of 512. At one step it holds a block of 1024 queries (rows `r`,
  each a vector of 1024 numbers) and a block of 512 keys, and per query row a running maximum. With
  `sc r j = (∑ e, q r e * k j e) / 64` the scaled score of query `r` against key `j` of the block and
  `bmax r` the largest score of the row over the block, it computes

    the scores              sc r j
    the new maximum         max μ (bmax r)      (bmax r itself from the start value -∞),

  and it starts the running maximum at `-∞` and the two running sums at `0`.

  Floats are read at the ideal instance: an extended real, every operation exact, a change of format the
  identity. Each payload of the kernel body is unfolded, the index is pushed through the pointwise
  operations, and each operation that is not pointwise (a shape cast, a transpose, a lane maximum, a matrix
  product) is read at an index by one small lemma. The extended-real maximum then lands on a coerced real by
  the general lemmas on the online softmax.
-/
import proofs.«105470_j53377853555119_2_alg».proof.Proof.Gen.KernelIdeal.Skeleton
import proofs.«105470_j53377853555119_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open scoped BigOperators
open Idealize.ShloMosaic Idealize.ShloMosaic.ValueIdx
open Cert.KernelIdeal Cert.KernelIdeal.Gen
open Cert.Lib.OnlineSoftmax

/-! ## Layout operations read at an index given by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The literals -/

/-- The f32 pattern `0x3C800000` is `2⁻⁶ = 1/64`. -/
theorem ofBits_f32_one_sixtyfourth : Ideal.ofBits .f32 0x3C800000#32 = ((1 / 64 : ℝ) : EReal) := by
  simp [Ideal.ofBits, Ideal.ieee]
  rw [← EReal.coe_mul]
  norm_num

/-! ## The matrix product of the scores read at an index

It contracts the left operand's axis 1 with the right operand's axis 0, into a zero accumulator: the element
at `(r, c)` is the sum over the contraction coordinate `e` of `lhs (r, e) * rhs (e, c)`. -/

theorem qk_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem qk_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of the queries `[1024, 1024]` with the transposed keys `[1024, 512]` at `(r, j)`. -/
theorem matmul_qk_apply (lhs : FVec Ideal S1024x1024 .bf16) (rhs : FVec Ideal S1024x512 .bf16) (r : Fin 1024) (j : Fin 512) :
    matmul dot_S1024x1024_S1024x512_S1024x512_1_0_0_1_n_n none lhs rhs (constant (F := Ideal) S1024x512 .f32 0x00000000#32) (ix2 r j)
      = ∑ e : Fin 1024, lhs (ix2 r e) * rhs (ix2 e j) := by
  show FloatOps.matmul dot_S1024x1024_S1024x512_S1024x512_1_0_0_1_n_n none lhs rhs (constant (F := Ideal) S1024x512 .f32 0x00000000#32) (ix2 r j) = _
  rw [Ideal.matmul_constant_zero_apply, ← Equiv.sum_comp (contrEquiv1 dot_S1024x1024_S1024x512_S1024x512_1_0_0_1_n_n 1024 rfl rfl).symm]
  refine Finset.sum_congr rfl fun e _ => ?_
  have hk := contrEquiv1_symm_val dot_S1024x1024_S1024x512_S1024x512_1_0_0_1_n_n 1024 rfl rfl e
  have el : dot_S1024x1024_S1024x512_S1024x512_1_0_0_1_n_n.lhsIdx (ix2 r j) ((contrEquiv1 dot_S1024x1024_S1024x512_S1024x512_1_0_0_1_n_n 1024 rfl rfl).symm e) = ix2 r e := funext fun a => Fin.ext (by
    match a with
    | ⟨0, _⟩ => exact qk_lhs_0 _ _
    | ⟨1, _⟩ => exact (dot_S1024x1024_S1024x512_S1024x512_1_0_0_1_n_n.lhsIdx_val_of_single rfl _ _).trans hk)
  have er : dot_S1024x1024_S1024x512_S1024x512_1_0_0_1_n_n.rhsIdx (ix2 r j) ((contrEquiv1 dot_S1024x1024_S1024x512_S1024x512_1_0_0_1_n_n 1024 rfl rfl).symm e) = ix2 e j := funext fun a => Fin.ext (by
    match a with
    | ⟨0, _⟩ => exact (dot_S1024x1024_S1024x512_S1024x512_1_0_0_1_n_n.rhsIdx_val_of_single rfl _ _).trans hk
    | ⟨1, _⟩ => exact qk_rhs_1 _ _)
  rw [el, er]

/-! ## The lane maximum read at an index

A reduction over axis 1 of a `[1024, 512]` vector reads, at row `r`, the fold over the row's 512 entries. The
accumulator's word `0xFF800000` is the pattern of `-∞`. -/

/-- The source index over row `r` with coordinate `k` on the reduced axis is `(r, k)`. -/
theorem lift_row (h : S1024x512.Reduces [1] S1024) (r : Fin 1024) (k : Fin 512) : h.lift (ix1 r) k = ix2 r k := by
  funext a
  refine Fin.ext ?_
  match a with
  | ⟨0, _⟩ => rfl
  | ⟨1, _⟩ => rfl

/-- The lane maximum at row `r`: the fold of `max` from the accumulator's value over the row. -/
theorem rowmax_apply (src : FVec Ideal S1024x512 .f32) (h : S1024x512.Reduces [1] S1024) (hφ : FKind.Formats .f32)
    (hacc : (0xFF800000#32 : BitVec 32) = 0xFF800000#32) (r : Fin 1024) :
    multiReduction .maximumf [1] S1024 src 0xFF800000#32 h hφ hacc (ix1 r)
      = (Finset.univ : Finset (Fin 512)).fold max (FloatOps.ofBits (F := Ideal) .f32 0xFF800000#32) (fun j => src (ix2 r j)) := by
  refine (Ideal.multiReduction_maximumf_single src 0xFF800000#32 h hφ hacc (ix1 r)).trans ?_
  show (Finset.univ : Finset (Fin 512)).fold max (FloatOps.ofBits (F := Ideal) .f32 0xFF800000#32) (fun k => src (h.lift (ix1 r) k)) = _
  exact congrArg (fun g => (Finset.univ : Finset (Fin 512)).fold max (FloatOps.ofBits (F := Ideal) .f32 0xFF800000#32) g)
    (funext fun k => congrArg src (lift_row h r k))

/-! ## The scores and the block's row maximum -/

/-- The scaled score of query row `r` against key `j` of the block. -/
def sc (qv : Fin 1024 → Fin 1024 → ℝ) (kv : Fin 512 → Fin 1024 → ℝ) (r : Fin 1024) (j : Fin 512) : ℝ :=
  (∑ e : Fin 1024, qv r e * kv j e) / 64

/-- The largest score of query row `r` over the block's 512 keys. -/
def bmax (qv : Fin 1024 → Fin 1024 → ℝ) (kv : Fin 512 → Fin 1024 → ℝ) (r : Fin 1024) : ℝ :=
  Finset.univ.sup' Finset.univ_nonempty (sc qv kv r)

/-! ## The payloads at an index -/

section Payloads

variable (x0 : Vec Ideal S1x1024x1024 .bf16) (x1 : Vec Ideal S1x512x1024 .bf16)
  (m0 : Vec Ideal S1024x1 .f32)
  (qv : Fin 1024 → Fin 1024 → ℝ) (kv : Fin 512 → Fin 1024 → ℝ)

/-- (P8) The scores: the product of the query block with the transposed key block, times `1/64`. -/
theorem pay8_apply (hx0 : ∀ r e, x0 (ix3 0 r e) = ((qv r e : ℝ) : EReal)) (hx1 : ∀ j e, x1 (ix3 0 j e) = ((kv j e : ℝ) : EReal))
    (r : Fin 1024) (j : Fin 512) : k1_pay8 (F := Ideal) x0 x1 (ix2 r j) = ((sc qv kv r j : ℝ) : EReal) := by
  unfold k1_pay8
  rw [mulf_apply, broadcast_apply, matmul_qk_apply, Ideal.ofBits_def, ofBits_f32_one_sixtyfourth]
  refine (congrArg (· * ((1 / 64 : ℝ) : EReal)) (Finset.sum_congr rfl fun e _ =>
    congrArg₂ (· * ·) ((shapeCast_1ab_ab_apply _ _ r e).trans (hx0 r e))
      ((transpose_ix2_apply _ _ e j).trans ((shapeCast_1ab_ab_apply _ _ j e).trans (hx1 j e))))).trans ?_
  simp only [← EReal.coe_mul]
  rw [← coe_finset_sum, ← EReal.coe_mul, sc, mul_one_div]

/-- (P4) The running maximum starts at `-∞`. -/
theorem pay4_apply (r : Fin 1024) : k1_pay4 (F := Ideal) (ix2 r 0) = (⊥ : EReal) := by
  unfold k1_pay4
  rw [shapeCast_self, broadcast_apply]
  exact floatOps_ofBits_f32_neg_inf

/-- (P5) The running denominator starts at `0`. -/
theorem pay5_apply (r : Fin 1024) : k1_pay5 (F := Ideal) (ix2 r 0) = (0 : EReal) := by
  unfold k1_pay5
  rw [shapeCast_self, broadcast_apply, Ideal.ofBits_def, Ideal.ofBits_zero_f32]

/-- (P6) The running numerator starts at `0`. -/
theorem pay6_apply (r d : Fin 1024) : k1_pay6 (F := Ideal) (ix2 r d) = (0 : EReal) := by
  unfold k1_pay6
  rw [shapeCast_self, broadcast_apply, Ideal.ofBits_def, Ideal.ofBits_zero_f32]

/-- (P2) The stored maximum is the new maximum. -/
theorem pay2_apply (y : FVec Ideal S1024x1 .f32) (r : Fin 1024) : k1_pay2 y (ix2 r 0) = y (ix2 r 0) := by
  unfold k1_pay2
  rw [shapeCast_self]

/-! ### The block's row maximum as the kernel computes it, and the new maximum -/

/-- The fold of `max` from the accumulator's value over the scores of row `r`. -/
def bmE (r : Fin 1024) : EReal :=
  (Finset.univ : Finset (Fin 512)).fold max (FloatOps.ofBits (F := Ideal) .f32 0xFF800000#32)
    (fun j => k1_pay8 (F := Ideal) x0 x1 (ix2 r j))

/-- With real blocks it is the largest score of the row. -/
theorem bmE_eq (hx0 : ∀ r e, x0 (ix3 0 r e) = ((qv r e : ℝ) : EReal)) (hx1 : ∀ j e, x1 (ix3 0 j e) = ((kv j e : ℝ) : EReal))
    (r : Fin 1024) : bmE x0 x1 r = ((bmax qv kv r : ℝ) : EReal) :=
  fold_max_floatOps_neg_inf_univ (fun j => k1_pay8 (F := Ideal) x0 x1 (ix2 r j)) (sc qv kv r)
    (pay8_apply x0 x1 qv kv hx0 hx1 r)

/-- The new maximum is the larger of the running maximum and the block's. -/
theorem pay9_unfold (r : Fin 1024) :
    k1_pay9 (F := Ideal) x0 x1 m0 (ix2 r 0) = max (m0 (ix2 r 0)) (bmE x0 x1 r) := by
  unfold k1_pay9
  rw [maximumf_apply]
  exact congrArg (max (m0 (ix2 r 0))) ((shapeCast_a_a1_apply _ _ r 0).trans (rowmax_apply _ _ _ _ r))

/-- (P9, first block.) From the running maximum `-∞` the new maximum is the block's. -/
theorem pay9_first (hx0 : ∀ r e, x0 (ix3 0 r e) = ((qv r e : ℝ) : EReal)) (hx1 : ∀ j e, x1 (ix3 0 j e) = ((kv j e : ℝ) : EReal))
    (r : Fin 1024) (hm : m0 (ix2 r 0) = (⊥ : EReal)) :
    k1_pay9 (F := Ideal) x0 x1 m0 (ix2 r 0) = ((bmax qv kv r : ℝ) : EReal) := by
  rw [pay9_unfold]
  exact first_block_max hm (bmE_eq x0 x1 qv kv hx0 hx1 r)

/-- (P9, a later block.) From a real running maximum `μ` the new maximum is `max μ (bmax r)`. -/
theorem pay9_later (hx0 : ∀ r e, x0 (ix3 0 r e) = ((qv r e : ℝ) : EReal)) (hx1 : ∀ j e, x1 (ix3 0 j e) = ((kv j e : ℝ) : EReal))
    (r : Fin 1024) {μ : ℝ} (hm : m0 (ix2 r 0) = ((μ : ℝ) : EReal)) :
    k1_pay9 (F := Ideal) x0 x1 m0 (ix2 r 0) = ((max μ (bmax qv kv r) : ℝ) : EReal) := by
  rw [pay9_unfold]
  exact later_block_max hm (bmE_eq x0 x1 qv kv hx0 hx1 r)

end Payloads

end Cert.KernelIdeal.Pay

end
-- ==== Proof.IdealPayloadsNum.lean ====
/-
  The running denominator, the running numerator and the final quotient of one step of the attention kernel, read at
  an index as real numbers.

  The kernel walks over the keys in blocks of 512. At one step it holds, per query row `r`, the old running maximum
  `m`, the old running sum `l` and the old running weighted sums `acc r d`; with `s j` the scaled scores of the row
  against the block's keys, `M` the new running maximum and `v j d` the block's values it computes

    the new denominator   exp (m − M) · l + ∑ j, exp (s j − M)
    the new numerator     exp (m − M) · acc r d + ∑ j, exp (s j − M) · v j d

  and at the end the quotient acc r d / l. From the start value m = −∞ the factor exp (m − M) is 0 and the old
  terms vanish; from a real m = μ it is the real exp (μ − M).

  Floats are read at the ideal instance: an extended real, every operation exact, a change of format the identity.
  Each payload is unfolded, the index is pushed through the pointwise operations, and each operation that is not
  pointwise (a shape cast, a broadcast of a column, a lane sum, a matrix product) is read at an index by one small
  lemma. The scores and the new maximum enter as hypotheses.
-/
import proofs.«105470_j53377853555119_2_alg».proof.Proof.Gen.KernelIdeal.Skeleton
import proofs.«105470_j53377853555119_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayNum

open scoped BigOperators
open Idealize.ShloMosaic Idealize.ShloMosaic.ValueIdx
open Cert.KernelIdeal Cert.KernelIdeal.Gen
open Cert.Lib.OnlineSoftmax

/-! ## Layout operations read at an index given by coordinates -/

section Layout
variable {α : Type}

/-- An `[a]` array cast to the column `[a, 1]` reads, at `(i, u)`, the operand at `i`. -/
private theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of a vector at an index is the exponential of the element. -/
private theorem exp_apply {s : Shape} {φ : FTy} (x : FVec Ideal s φ) (i : s.Idx) : exp x i = Ideal.exp (x i) := rfl

/-! ## The lane sum read at an index -/

/-- The source index over row `r` with coordinate `k` on the reduced axis is `(r, k)`. -/
private theorem lift_row (h : S1024x512.Reduces [1] S1024) (r : Fin 1024) (k : Fin 512) :
    h.lift (ix1 r) k = ix2 r k := by
  funext a
  refine Fin.ext ?_
  match a with
  | ⟨0, _⟩ => rfl
  | ⟨1, _⟩ => rfl

/-- The lane sum at row `r`: the sum of the row's 512 entries. -/
private theorem rowsum_apply (src : FVec Ideal S1024x512 .f32) (h : S1024x512.Reduces [1] S1024)
    (hφ : FKind.Formats .f32) (hacc : (0x00000000#32 : BitVec 32) = 0x00000000#32) (r : Fin 1024) :
    multiReduction .add [1] S1024 src 0x00000000#32 h hφ hacc (ix1 r) = ∑ j : Fin 512, src (ix2 r j) := by
  refine (Ideal.multiReduction_add_single src 0x00000000#32 h hφ hacc (ix1 r)).trans ?_
  show ∑ k : Fin 512, src (h.lift (ix1 r) k) = _
  exact Finset.sum_congr rfl fun k _ => congrArg src (lift_row h r k)

/-! ## The matrix product of the weights with the values read at an index

It contracts the left operand's axis 1 with the right operand's axis 0, into a zero accumulator: the element at
`(r, d)` is the sum over the contraction coordinate `j` of `lhs (r, j) * rhs (j, d)`. -/

private theorem pv_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

private theorem pv_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of the weights `[1024, 512]` with the values `[512, 1024]` at `(r, d)`. -/
private theorem matmul_pv_apply (lhs : FVec Ideal S1024x512 .bf16) (rhs : FVec Ideal S512x1024 .bf16) (r : Fin 1024)
    (d : Fin 1024) :
    matmul dot_S1024x512_S512x1024_S1024x1024_1_0_0_1_n_n none lhs rhs
        (constant (F := Ideal) S1024x1024 .f32 0x00000000#32) (ix2 r d)
      = ∑ j : Fin 512, lhs (ix2 r j) * rhs (ix2 j d) := by
  show FloatOps.matmul dot_S1024x512_S512x1024_S1024x1024_1_0_0_1_n_n none lhs rhs
    (constant (F := Ideal) S1024x1024 .f32 0x00000000#32) (ix2 r d) = _
  rw [Ideal.matmul_constant_zero_apply,
    ← Equiv.sum_comp (contrEquiv1 dot_S1024x512_S512x1024_S1024x1024_1_0_0_1_n_n 512 rfl rfl).symm]
  refine Finset.sum_congr rfl fun j _ => ?_
  have hk := contrEquiv1_symm_val dot_S1024x512_S512x1024_S1024x1024_1_0_0_1_n_n 512 rfl rfl j
  have el : dot_S1024x512_S512x1024_S1024x1024_1_0_0_1_n_n.lhsIdx (ix2 r d)
      ((contrEquiv1 dot_S1024x512_S512x1024_S1024x1024_1_0_0_1_n_n 512 rfl rfl).symm j) = ix2 r j :=
    funext fun a => Fin.ext (by
      match a with
      | ⟨0, _⟩ => exact pv_lhs_0 _ _
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 r d)
      ((contrEquiv1 dot_S1024x512_S512x1024_S1024x1024_1_0_0_1_n_n 512 rfl rfl).symm j) = ix2 j d :=
    funext fun a => Fin.ext (by
      match a with
      | ⟨0, _⟩ => exact (dot_S1024x512_S512x1024_S1024x1024_1_0_0_1_n_n.rhsIdx_val_of_single rfl _ _).trans hk
      | ⟨1, _⟩ => exact pv_rhs_1 _ _)
  rw [el, er]

/-! ## The payloads at an index, over their operands -/

/-- The rescaling factor at row `r`: the exponential of the old maximum minus the new one. -/
private theorem pay10_apply (v3 : Vec Ideal S1x1024x1024 .bf16) (v5 : Vec Ideal S1x512x1024 .bf16)
    (v13 v17 : Vec Ideal S1024x1 .f32) (r : Fin 1024) :
    k1_pay10 (F := Ideal) v3 v5 v13 v17 (ix2 r 0)
      = Ideal.exp (v17 (ix2 r 0) - k1_pay9 (F := Ideal) v3 v5 v13 (ix2 r 0)) := by
  unfold k1_pay10
  rw [exp_apply, subf_apply]

/-- The block's weights at `(r, j)`: the exponential of the score minus the new maximum of the row. -/
private theorem pay11_apply (v3 : Vec Ideal S1x1024x1024 .bf16) (v5 : Vec Ideal S1x512x1024 .bf16)
    (v13 : Vec Ideal S1024x1 .f32) (r : Fin 1024) (j : Fin 512) :
    k1_pay11 (F := Ideal) v3 v5 v13 (ix2 r j)
      = Ideal.exp (k1_pay8 (F := Ideal) v3 v5 (ix2 r j) - k1_pay9 (F := Ideal) v3 v5 v13 (ix2 r 0)) := by
  unfold k1_pay11
  rw [exp_apply, subf_apply, broadcastTo_col_apply]

/-- The new denominator at row `r`: the factor times the old sum, plus the lane sum of the block's weights. -/
private theorem pay12_apply (v3 : Vec Ideal S1x1024x1024 .bf16) (v5 : Vec Ideal S1x512x1024 .bf16)
    (v13 v17 v23 : Vec Ideal S1024x1 .f32) (r : Fin 1024) :
    k1_pay12 (F := Ideal) v3 v5 v13 v17 v23 (ix2 r 0)
      = k1_pay10 (F := Ideal) v3 v5 v13 v17 (ix2 r 0) * v23 (ix2 r 0)
        + ∑ j : Fin 512, k1_pay11 (F := Ideal) v3 v5 v13 (ix2 r j) := by
  unfold k1_pay12
  rw [shapeCast_self, addf_apply, mulf_apply, shapeCast_col_apply, rowsum_apply]

/-- The block's values `[1, 512, 1024]` with the unit axis dropped, at `(j, d)`. -/
private theorem pay7_apply (v7 : Vec Ideal S1x512x1024 .bf16) (j : Fin 512) (d : Fin 1024) :
    k1_pay7 (F := Ideal) v7 (ix2 j d) = v7 (ix3 (0 : Fin 1) j d) := by
  unfold k1_pay7
  exact shapeCast_1ab_ab_apply _ _ j d

/-- The new numerator at `(r, d)`: the factor times the old weighted sum, plus the block's weights times its values. -/
private theorem pay1_apply (v8 : FVec Ideal S512x1024 .bf16) (v19 : FVec Ideal S1024x1 .f32)
    (v22 : FVec Ideal S1024x512 .f32) (v31 : Vec Ideal S1024x1024 .f32) (r d : Fin 1024) :
    k1_pay1 (F := Ideal) v8 v19 v22 v31 (ix2 r d)
      = v19 (ix2 r 0) * v31 (ix2 r d) + ∑ j : Fin 512, v22 (ix2 r j) * v8 (ix2 j d) := by
  unfold k1_pay1
  rw [shapeCast_self, addf_apply, mulf_apply, broadcastTo_col_apply, matmul_pv_apply]
  rfl

/-- The final quotient at `(0, r, d)`: the weighted sum over the row's sum. -/
private theorem pay3_apply (v46 : Vec Ideal S1024x1024 .f32) (v47 : Vec Ideal S1024x1 .f32) (r d : Fin 1024) :
    k1_pay3 (F := Ideal) v46 v47 (ix3 (0 : Fin 1) r d) = Ideal.div (v46 (ix2 r d)) (v47 (ix2 r 0)) := by
  unfold k1_pay3
  rw [shapeCast_ab_1ab_apply, divf_apply, broadcastTo_col_apply]

/-! ## One step of the walk, in real numbers -/

section Steps

variable (x0 : Vec Ideal S1x1024x1024 .bf16) (x1 x2 : Vec Ideal S1x512x1024 .bf16)
  (m0 l0 : Vec Ideal S1024x1 .f32) (a0 : Vec Ideal S1024x1024 .f32) (r : Fin 1024) (d : Fin 1024)
  (s : Fin 512 → ℝ) (vv : Fin 512 → ℝ) (M μ lam alpha : ℝ)

/-- (The first block's denominator.) From the old maximum −∞ the factor exp (−∞ − M) is 0, the old sum drops out
    whatever it is, and the new denominator is the block's own sum of exp (s j − M). -/
theorem den_first (h8 : ∀ j : Fin 512, k1_pay8 (F := Ideal) x0 x1 (ix2 r j) = ((s j : ℝ) : EReal))
    (hm : m0 (ix2 r 0) = (⊥ : EReal)) (h9 : k1_pay9 (F := Ideal) x0 x1 m0 (ix2 r 0) = ((M : ℝ) : EReal)) :
    k1_pay12 (F := Ideal) x0 x1 m0 m0 l0 (ix2 r 0) = ((∑ j : Fin 512, Real.exp (s j - M) : ℝ) : EReal) := by
  rw [pay12_apply, pay10_apply, hm, exp_bot_sub, zero_mul, zero_add]
  simp only [pay11_apply, h8, h9]
  exact sum_exp_coe_sub_coe Finset.univ s M

/-- (A later block's denominator.) From a real old maximum μ and a real old sum the new denominator is
    exp (μ − M) · lam + ∑ j, exp (s j − M). -/
theorem den_later (h8 : ∀ j : Fin 512, k1_pay8 (F := Ideal) x0 x1 (ix2 r j) = ((s j : ℝ) : EReal))
    (hm : m0 (ix2 r 0) = ((μ : ℝ) : EReal)) (h9 : k1_pay9 (F := Ideal) x0 x1 m0 (ix2 r 0) = ((M : ℝ) : EReal))
    (hl : l0 (ix2 r 0) = ((lam : ℝ) : EReal)) :
    k1_pay12 (F := Ideal) x0 x1 m0 m0 l0 (ix2 r 0)
      = ((Real.exp (μ - M) * lam + ∑ j : Fin 512, Real.exp (s j - M) : ℝ) : EReal) := by
  rw [pay12_apply, pay10_apply, hm, h9, hl, exp_coe_sub_coe]
  simp only [pay11_apply, h8, h9]
  rw [sum_exp_coe_sub_coe, coe_mul_add_coe]

/-- (The first block's numerator.) From the old maximum −∞ the old weighted sum drops out and the new numerator at
    feature `d` is the block's own sum of exp (s j − M) · v j. -/
theorem num_first (h8 : ∀ j : Fin 512, k1_pay8 (F := Ideal) x0 x1 (ix2 r j) = ((s j : ℝ) : EReal))
    (hm : m0 (ix2 r 0) = (⊥ : EReal)) (h9 : k1_pay9 (F := Ideal) x0 x1 m0 (ix2 r 0) = ((M : ℝ) : EReal))
    (hx2 : ∀ j : Fin 512, x2 (ix3 0 j d) = ((vv j : ℝ) : EReal)) :
    k1_pay1 (F := Ideal) (k1_pay7 (F := Ideal) x2) (k1_pay10 (F := Ideal) x0 x1 m0 m0) (k1_pay11 (F := Ideal) x0 x1 m0) a0
        (ix2 r d)
      = ((∑ j : Fin 512, Real.exp (s j - M) * vv j : ℝ) : EReal) := by
  rw [pay1_apply, pay10_apply, hm, exp_bot_sub, zero_mul, zero_add]
  simp only [pay11_apply, pay7_apply, h8, h9, hx2, exp_coe_sub_coe, ← EReal.coe_mul]
  exact (coe_finset_sum Finset.univ fun j : Fin 512 => Real.exp (s j - M) * vv j).symm

/-- (A later block's numerator.) From a real old maximum μ and a real old weighted sum the new numerator is
    exp (μ − M) · alpha + ∑ j, exp (s j − M) · v j. -/
theorem num_later (h8 : ∀ j : Fin 512, k1_pay8 (F := Ideal) x0 x1 (ix2 r j) = ((s j : ℝ) : EReal))
    (hm : m0 (ix2 r 0) = ((μ : ℝ) : EReal)) (h9 : k1_pay9 (F := Ideal) x0 x1 m0 (ix2 r 0) = ((M : ℝ) : EReal))
    (ha : a0 (ix2 r d) = ((alpha : ℝ) : EReal)) (hx2 : ∀ j : Fin 512, x2 (ix3 0 j d) = ((vv j : ℝ) : EReal)) :
    k1_pay1 (F := Ideal) (k1_pay7 (F := Ideal) x2) (k1_pay10 (F := Ideal) x0 x1 m0 m0) (k1_pay11 (F := Ideal) x0 x1 m0) a0
        (ix2 r d)
      = ((Real.exp (μ - M) * alpha + ∑ j : Fin 512, Real.exp (s j - M) * vv j : ℝ) : EReal) := by
  rw [pay1_apply, pay10_apply, hm, h9, ha, exp_coe_sub_coe]
  simp only [pay11_apply, pay7_apply, h8, h9, hx2, exp_coe_sub_coe, ← EReal.coe_mul]
  rw [← coe_finset_sum, ← EReal.coe_add]

/-- (The final quotient.) With a real weighted sum and a real nonzero row sum the quotient is the real quotient. -/
theorem quot (acc : Vec Ideal S1024x1024 .f32) (l : Vec Ideal S1024x1 .f32)
    (ha : acc (ix2 r d) = ((alpha : ℝ) : EReal)) (hl : l (ix2 r 0) = ((lam : ℝ) : EReal)) (hlam : lam ≠ 0) :
    k1_pay3 (F := Ideal) acc l (ix3 0 r d) = ((alpha / lam : ℝ) : EReal) := by
  rw [pay3_apply]
  exact div_of_eq_coe ha hl hlam

end Steps

end Cert.KernelIdeal.PayNum

end
-- ==== Proof.LibKeyBlocks.lean ====
/-
  Blocks of consecutive keys.

  Among `n * b` keys, numbered `0 … n * b - 1`, block `t : Fin n` is the `b` consecutive keys
  `b * t, …, b * t + b - 1`: the key at position `j : Fin b` of block `t` has the number `j + b * t`, and is
  `finProdFinEquiv (t, j) : Fin (n * b)`. This file names the set of keys of one block (`blockSet`) and the set
  of keys of the blocks before a given one (`seenSet`), says when a key is in each in terms of its number,
  reads a sum and a maximum over a block as a sum and a maximum over the positions `j : Fin b`, and shows that
  the blocks walked in order exhaust the keys: `seenSet 0 = ∅`, `seenSet t ∪ blockSet t = seenSet (t + 1)`
  disjointly, `seenSet n` is everything.

  With these the online softmax's closed forms over sets of keys become statements about a walk over the
  blocks `t = 0, 1, …, n - 1`: the first block (`online_first`), a later block (`online_step`) and the final
  quotient, which is the softmax-weighted sum over all keys at the global maximum (`online_last`).

  On `Fin (n * b)` at literal sizes: `4 * 512` and `2048` are the same natural number by evaluation, so
  `Fin (4 * 512)` and `Fin 2048` are the same type by definition and a function on `Fin 2048` is accepted where
  one on `Fin (4 * 512)` is expected, with no cast; and `finProdFinEquiv (t, j)` is by definition the key
  `⟨j + 512 * t, _⟩`. The last section restates the three walk theorems at `n = 4`, `b = 512` over `Fin 2048` with
  the key written that way, for a use that wants the literal forms.
-/
import Mathlib.Data.Finset.Lattice.Fold
import Mathlib.Logic.Equiv.Fin.Basic
import Mathlib.Algebra.BigOperators.Group.Finset.Basic
import Mathlib.Analysis.SpecialFunctions.Exp
import proofs.«105470_j53377853555119_2_alg».proof.Proof.LibOnlineSoftmax

namespace Cert.Lib.KeyBlocks

open scoped BigOperators
open Cert.Lib.OnlineSoftmax

/-! ## The sets of keys -/

/-- The keys of block `t`: those numbered `b * t ≤ k < b * t + b`. -/
def blockSet (n b : ℕ) (t : Fin n) : Finset (Fin (n * b)) :=
  Finset.univ.filter fun k => b * t.val ≤ k.val ∧ k.val < b * t.val + b

/-- The keys of the blocks with index `< s`: those numbered `k < b * s`. -/
def seenSet (n b s : ℕ) : Finset (Fin (n * b)) :=
  Finset.univ.filter fun k => k.val < b * s

variable {n b : ℕ}

/-- A key is in block `t` iff its number is in `[b * t, b * t + b)`. -/
theorem mem_blockSet {t : Fin n} {k : Fin (n * b)} :
    k ∈ blockSet n b t ↔ b * t.val ≤ k.val ∧ k.val < b * t.val + b := by
  simp [blockSet]

/-- A key is among those of the blocks before `s` iff its number is `< b * s`. -/
theorem mem_seenSet {s : ℕ} {k : Fin (n * b)} : k ∈ seenSet n b s ↔ k.val < b * s := by
  simp [seenSet]

/-- Position `j` of block `t` as a key: an embedding of the positions into the keys. -/
def blockEmb (n b : ℕ) (t : Fin n) : Fin b ↪ Fin (n * b) :=
  ⟨fun j => finProdFinEquiv (t, j), fun _ _ h => (Prod.mk.inj (finProdFinEquiv.injective h)).2⟩

@[simp] theorem blockEmb_apply (t : Fin n) (j : Fin b) : blockEmb n b t j = finProdFinEquiv (t, j) := rfl

/-- The key at position `j` of block `t` is in block `t`. -/
theorem blockKey_mem_blockSet (t : Fin n) (j : Fin b) : finProdFinEquiv (t, j) ∈ blockSet n b t := by
  rw [mem_blockSet, blockKey_val]
  have := j.isLt
  omega

/-- Block `t` is the set of the keys at its `b` positions. -/
theorem blockSet_eq_map (t : Fin n) : blockSet n b t = Finset.univ.map (blockEmb n b t) := by
  ext k
  simp only [Finset.mem_map, Finset.mem_univ, true_and, blockEmb_apply]
  constructor
  · intro hk
    obtain ⟨h1, h2⟩ := mem_blockSet.1 hk
    refine ⟨⟨k.val - b * t.val, by omega⟩, Fin.ext ?_⟩
    rw [blockKey_val]
    show k.val - b * t.val + b * t.val = k.val
    omega
  · rintro ⟨j, rfl⟩
    exact blockKey_mem_blockSet t j

/-! ## Sums and maxima over a block -/

/-- A sum over the keys of block `t` is the sum over its positions. -/
theorem sum_blockSet {M : Type*} [AddCommMonoid M] (f : Fin (n * b) → M) (t : Fin n) :
    ∑ k ∈ blockSet n b t, f k = ∑ j : Fin b, f (finProdFinEquiv (t, j)) := by
  rw [blockSet_eq_map, Finset.sum_map]
  rfl

/-- The maximum over the keys of block `t` is the maximum over its positions. -/
theorem sup'_blockSet {α : Type*} [SemilatticeSup α] (f : Fin (n * b) → α) (t : Fin n)
    (h : (blockSet n b t).Nonempty) (h' : (Finset.univ : Finset (Fin b)).Nonempty) :
    (blockSet n b t).sup' h f = Finset.univ.sup' h' fun j : Fin b => f (finProdFinEquiv (t, j)) := by
  refine eq_of_forall_ge_iff fun c => ?_
  simp only [Finset.sup'_le_iff, Finset.mem_univ, true_imp_iff]
  constructor
  · intro hc j
    exact hc _ (blockKey_mem_blockSet t j)
  · intro hc k hk
    rw [blockSet_eq_map] at hk
    obtain ⟨j, -, rfl⟩ := Finset.mem_map.1 hk
    exact hc j

/-! ## Nonemptiness -/

/-- The positions of a block of positive width are not empty. -/
theorem univ_pos_nonempty (hb : 0 < b) : (Finset.univ : Finset (Fin b)).Nonempty :=
  ⟨⟨0, hb⟩, Finset.mem_univ _⟩

/-- A block of positive width is not empty. -/
theorem blockSet_nonempty (n b : ℕ) (hb : 0 < b) (t : Fin n) : (blockSet n b t).Nonempty :=
  ⟨finProdFinEquiv (t, ⟨0, hb⟩), blockKey_mem_blockSet t _⟩

/-- The keys before block `s` are not empty once `0 < s`, for a positive width and at least one block. -/
theorem seenSet_nonempty (n b : ℕ) {s : ℕ} (hs : 0 < s) (hb : 0 < b) (hn : 0 < n) : (seenSet n b s).Nonempty :=
  ⟨⟨0, Nat.mul_pos hn hb⟩, mem_seenSet.2 (Nat.mul_pos hb hs)⟩

/-! ## The blocks in order exhaust the keys -/

/-- Before block `0` there is nothing. -/
theorem seenSet_zero (n b : ℕ) : seenSet n b 0 = ∅ := by
  ext k
  simp [mem_seenSet]

/-- The keys before block `t` and the keys of block `t` are disjoint. -/
theorem disjoint_seen_block (n b : ℕ) (t : Fin n) : Disjoint (seenSet n b t.val) (blockSet n b t) := by
  rw [Finset.disjoint_left]
  intro k hk hk'
  have h1 := mem_seenSet.1 hk
  have h2 := (mem_blockSet.1 hk').1
  omega

/-- The keys before block `t` together with block `t` are the keys before block `t + 1`. -/
theorem seen_union_block (n b : ℕ) (t : Fin n) :
    seenSet n b t.val ∪ blockSet n b t = seenSet n b (t.val + 1) := by
  ext k
  simp only [Finset.mem_union, mem_seenSet, mem_blockSet, Nat.mul_add_one]
  omega

/-- The keys before block `1` are block `0`. -/
theorem seenSet_one (n b : ℕ) (hn : 0 < n) : seenSet n b 1 = blockSet n b ⟨0, hn⟩ := by
  ext k
  simp only [mem_seenSet, mem_blockSet, Nat.mul_one, Nat.mul_zero, Nat.zero_le, true_and, Nat.zero_add]

/-- The keys before block `n` are all the keys. -/
theorem seenSet_all (n b : ℕ) : seenSet n b n = Finset.univ := by
  ext k
  simp only [mem_seenSet, Finset.mem_univ, iff_true]
  exact lt_of_lt_of_eq k.isLt (Nat.mul_comm n b)

/-! ## The walk over the blocks

Over scores `σ` and values `ν` on the `n * b` keys. The state after the blocks before `t` is the maximum `μ`,
the denominator `lam` and the numerator `alpha` over `seenSet n b t`; the block's own maximum is `M`. Each is
given by an equation, so `rfl` recovers the literal form. -/

section Walk

variable (σ ν : Fin (n * b) → ℝ)

/-- The keys before block `n` are not empty when there is a key at all. -/
theorem seenSet_all_nonempty (hne : (Finset.univ : Finset (Fin (n * b))).Nonempty) : (seenSet n b n).Nonempty := by
  rw [seenSet_all]; exact hne

/-- The first block: its maximum `M` over the positions is the maximum over the keys before block `1`, and its
    sums over the positions of `exp (σ - M)`, and of `exp (σ - M) * ν`, are the closed forms over those keys. -/
theorem online_first (hn : 0 < n) (hb : 0 < b) (M : ℝ)
    (hM : M = Finset.univ.sup' (univ_pos_nonempty hb) fun j : Fin b => σ (finProdFinEquiv ((⟨0, hn⟩ : Fin n), j))) :
    M = (seenSet n b 1).sup' (seenSet_nonempty n b Nat.one_pos hb hn) σ
      ∧ ∑ j : Fin b, Real.exp (σ (finProdFinEquiv ((⟨0, hn⟩ : Fin n), j)) - M)
          = ∑ k ∈ seenSet n b 1, Real.exp (σ k - M)
      ∧ ∑ j : Fin b, Real.exp (σ (finProdFinEquiv ((⟨0, hn⟩ : Fin n), j)) - M)
            * ν (finProdFinEquiv ((⟨0, hn⟩ : Fin n), j))
          = ∑ k ∈ seenSet n b 1, Real.exp (σ k - M) * ν k := by
  have h1 := seenSet_one n b hn
  refine ⟨?_, ?_, ?_⟩
  · rw [hM, ← sup'_blockSet σ ⟨0, hn⟩ (blockSet_nonempty n b hb _) (univ_pos_nonempty hb)]
    exact Finset.sup'_congr _ h1.symm fun _ _ => rfl
  · rw [h1, sum_blockSet]
  · rw [h1, sum_blockSet]

/-- A later block `t` (`0 < t`): from the maximum, denominator and numerator over the keys before block `t`,
    with `M` the block's maximum over its positions and `μ' = max μ M`: `μ'` is the maximum over the keys before
    block `t + 1`, and the rescaled sums plus the block's sums over its positions are the closed forms over those
    keys. -/
theorem online_step (hb : 0 < b) (t : Fin n) (ht : 0 < t.val) (μ lam alpha M μ' : ℝ)
    (hμ : μ = (seenSet n b t.val).sup' (seenSet_nonempty n b ht hb t.pos) σ)
    (hlam : lam = ∑ k ∈ seenSet n b t.val, Real.exp (σ k - μ))
    (halpha : alpha = ∑ k ∈ seenSet n b t.val, Real.exp (σ k - μ) * ν k)
    (hM : M = Finset.univ.sup' (univ_pos_nonempty hb) fun j : Fin b => σ (finProdFinEquiv (t, j)))
    (hμ' : μ' = max μ M) :
    μ' = (seenSet n b (t.val + 1)).sup' (seenSet_nonempty n b (Nat.succ_pos _) hb t.pos) σ
      ∧ Real.exp (μ - μ') * lam + ∑ j : Fin b, Real.exp (σ (finProdFinEquiv (t, j)) - μ')
          = ∑ k ∈ seenSet n b (t.val + 1), Real.exp (σ k - μ')
      ∧ Real.exp (μ - μ') * alpha
            + ∑ j : Fin b, Real.exp (σ (finProdFinEquiv (t, j)) - μ') * ν (finProdFinEquiv (t, j))
          = ∑ k ∈ seenSet n b (t.val + 1), Real.exp (σ k - μ') * ν k := by
  have hK := seenSet_nonempty n b ht hb t.pos
  have hJ := blockSet_nonempty n b hb t
  have hd := disjoint_seen_block n b t
  have hu := seen_union_block n b t
  have hMJ : M = (blockSet n b t).sup' hJ σ := by rw [hM, sup'_blockSet σ t hJ (univ_pos_nonempty hb)]
  have e1 := running_max σ _ _ hK hJ μ hμ
  have e2 := rescale_den σ _ _ hJ hd μ lam hlam
  have e3 := rescale_num σ ν _ _ hJ hd μ alpha halpha
  rw [← hMJ, ← hμ'] at e1 e2 e3
  rw [hu, sum_blockSet] at e2 e3
  exact ⟨e1.trans (Finset.sup'_congr _ hu fun _ _ => rfl), e2, e3⟩

/-- The end: with the maximum, denominator and numerator over the keys before block `n`, that is over all keys,
    the quotient is the softmax-weighted sum of the values over all keys at the global maximum, and the
    denominator is not zero. -/
theorem online_last (hne : (Finset.univ : Finset (Fin (n * b))).Nonempty) (μ lam alpha : ℝ)
    (hμ : μ = (seenSet n b n).sup' (seenSet_all_nonempty hne) σ)
    (hlam : lam = ∑ k ∈ seenSet n b n, Real.exp (σ k - μ))
    (halpha : alpha = ∑ k ∈ seenSet n b n, Real.exp (σ k - μ) * ν k) :
    alpha / lam
        = ∑ k : Fin (n * b), (Real.exp (σ k - Finset.univ.sup' hne σ)
            / ∑ k' : Fin (n * b), Real.exp (σ k' - Finset.univ.sup' hne σ)) * ν k
      ∧ lam ≠ 0 := by
  have hall := seenSet_all n b
  have hμ2 : μ = Finset.univ.sup' hne σ := hμ.trans (Finset.sup'_congr _ hall fun _ _ => rfl)
  rw [hall] at hlam halpha
  refine ⟨?_, (den_pos σ Finset.univ hne μ lam hlam).ne'⟩
  rw [quotient_eq σ ν Finset.univ μ lam alpha hlam halpha, hμ2]

end Walk

/-! ## At `n = 4`, `b = 512` over `Fin 2048`

`4 * 512` evaluates to `2048`, so these are the theorems above at `n = 4`, `b = 512` with nothing to prove; the
key at position `j` of block `t` is written `⟨j + 512 * t, _⟩ : Fin 2048`. -/

section Literal

/-- The key at position `j` of block `t`, among `4` blocks of `512`, is `⟨j + 512 * t, _⟩ : Fin 2048`. -/
theorem blockKey_4_512 (t : Fin 4) (j : Fin 512) :
    (finProdFinEquiv (t, j) : Fin (4 * 512)) = (⟨j.val + 512 * t.val, by omega⟩ : Fin 2048) := rfl

/-- `online_first` at `4` blocks of `512` keys over `Fin 2048`. -/
theorem online_first_4_512 (σ ν : Fin 2048 → ℝ) (M : ℝ)
    (hM : M = Finset.univ.sup' Finset.univ_nonempty fun j : Fin 512 => σ ⟨j.val + 512 * 0, by omega⟩) :
    M = (seenSet 4 512 1).sup' (seenSet_nonempty 4 512 Nat.one_pos (by norm_num) (by norm_num)) σ
      ∧ ∑ j : Fin 512, Real.exp (σ ⟨j.val + 512 * 0, by omega⟩ - M) = ∑ k ∈ seenSet 4 512 1, Real.exp (σ k - M)
      ∧ ∑ j : Fin 512, Real.exp (σ ⟨j.val + 512 * 0, by omega⟩ - M) * ν ⟨j.val + 512 * 0, by omega⟩
          = ∑ k ∈ seenSet 4 512 1, Real.exp (σ k - M) * ν k :=
  online_first (n := 4) (b := 512) σ ν (by norm_num) (by norm_num) M hM

/-- `online_step` at `4` blocks of `512` keys over `Fin 2048`. -/
theorem online_step_4_512 (σ ν : Fin 2048 → ℝ) (t : Fin 4) (ht : 0 < t.val) (μ lam alpha M μ' : ℝ)
    (hμ : μ = (seenSet 4 512 t.val).sup' (seenSet_nonempty 4 512 ht (by norm_num) (by norm_num)) σ)
    (hlam : lam = ∑ k ∈ seenSet 4 512 t.val, Real.exp (σ k - μ))
    (halpha : alpha = ∑ k ∈ seenSet 4 512 t.val, Real.exp (σ k - μ) * ν k)
    (hM : M = Finset.univ.sup' Finset.univ_nonempty fun j : Fin 512 => σ ⟨j.val + 512 * t.val, by omega⟩)
    (hμ' : μ' = max μ M) :
    μ' = (seenSet 4 512 (t.val + 1)).sup' (seenSet_nonempty 4 512 (Nat.succ_pos _) (by norm_num) (by norm_num)) σ
      ∧ Real.exp (μ - μ') * lam + ∑ j : Fin 512, Real.exp (σ ⟨j.val + 512 * t.val, by omega⟩ - μ')
          = ∑ k ∈ seenSet 4 512 (t.val + 1), Real.exp (σ k - μ')
      ∧ Real.exp (μ - μ') * alpha
            + ∑ j : Fin 512, Real.exp (σ ⟨j.val + 512 * t.val, by omega⟩ - μ') * ν ⟨j.val + 512 * t.val, by omega⟩
          = ∑ k ∈ seenSet 4 512 (t.val + 1), Real.exp (σ k - μ') * ν k :=
  online_step (n := 4) (b := 512) σ ν (by norm_num) t ht μ lam alpha M μ' hμ hlam halpha hM hμ'

/-- `online_last` at `4` blocks of `512` keys over `Fin 2048`. -/
theorem online_last_4_512 (σ ν : Fin 2048 → ℝ) (μ lam alpha : ℝ)
    (hμ : μ = (seenSet 4 512 4).sup' (seenSet_all_nonempty (n := 4) (b := 512) Finset.univ_nonempty) σ)
    (hlam : lam = ∑ k ∈ seenSet 4 512 4, Real.exp (σ k - μ))
    (halpha : alpha = ∑ k ∈ seenSet 4 512 4, Real.exp (σ k - μ) * ν k) :
    alpha / lam
        = ∑ k : Fin 2048, (Real.exp (σ k - Finset.univ.sup' Finset.univ_nonempty σ)
            / ∑ k' : Fin 2048, Real.exp (σ k' - Finset.univ.sup' Finset.univ_nonempty σ)) * ν k
      ∧ lam ≠ 0 :=
  online_last (n := 4) (b := 512) σ ν Finset.univ_nonempty μ lam alpha hμ hlam halpha

end Literal

end Cert.Lib.KeyBlocks
-- ==== Proof.IdealValue1Row.lean ====
/-
  One step of the online softmax on one query row, in real terms.  A key block contributes its 512 scaled scores
  s j and values; the running state of the row after the blocks before block kb is (μ, Λ, A d): the maximum of the scores
  seen so far, the sum of exp (score − μ) over them, and that sum weighted by the values of column d.  The first block
  starts from (−∞, anything, anything) and yields the closed forms over the first block's keys; a later block rescales
  by exp (μ − μ') with μ' the new maximum and yields the closed forms over the keys seen so far and the block's own;
  after the last block the quotient is the softmax-weighted sum over all keys.
-/
import proofs.«105470_j53377853555119_2_alg».proof.Proof.IdealPayloads
import proofs.«105470_j53377853555119_2_alg».proof.Proof.IdealPayloadsNum
import proofs.«105470_j53377853555119_2_alg».proof.Proof.LibKeyBlocks
import proofs.«105470_j53377853555119_2_alg».proof.Proof.Spec

noncomputable section

open scoped BigOperators

namespace Cert.KernelIdeal.Value1

open Idealize.ShloMosaic Idealize.ShloMosaic.ValueIdx
open Cert.KernelIdeal Cert.KernelIdeal.Gen Cert.KernelIdeal.Pay Cert.KernelIdeal.PayNum
open Cert.Lib.KeyBlocks Cert.Lib.OnlineSoftmax

/-- The keys seen before block `s` are not empty, for `0 < s`. -/
theorem seen_ne (s : ℕ) (hs : 0 < s) : (seenSet 4 512 s).Nonempty := seenSet_nonempty 4 512 hs (by norm_num) (by norm_num)

/-- The row's running state after the blocks before `s`, for scores `σ` and values `ν d`: the three buffers' entries are
    the coerced closed forms at a maximum `μ` that is the maximum of the scores seen. -/
def RowState (σ : Fin 2048 → ℝ) (ν : Fin 1024 → Fin 2048 → ℝ) (s : ℕ) (hs : 0 < s)
    (mv lv : EReal) (av : Fin 1024 → EReal) : Prop :=
  ∃ μ : ℝ, μ = (seenSet 4 512 s).sup' (seen_ne s hs) σ ∧ mv = ((μ : ℝ) : EReal)
    ∧ lv = ((∑ k ∈ seenSet 4 512 s, Real.exp (σ k - μ) : ℝ) : EReal)
    ∧ ∀ d : Fin 1024, av d = ((∑ k ∈ seenSet 4 512 s, Real.exp (σ k - μ) * ν d k : ℝ) : EReal)

variable (x0 : Vec Ideal S1x1024x1024 .bf16) (x1 x2 : Vec Ideal S1x512x1024 .bf16)
variable (qv : Fin 1024 → Fin 1024 → ℝ) (kv vv : Fin 512 → Fin 1024 → ℝ)
variable (hx0 : ∀ r e, x0 (ix3 (0 : Fin 1) r e) = ((qv r e : ℝ) : EReal)) (hx1 : ∀ j e, x1 (ix3 (0 : Fin 1) j e) = ((kv j e : ℝ) : EReal))
  (hx2 : ∀ j e, x2 (ix3 (0 : Fin 1) j e) = ((vv j e : ℝ) : EReal))
variable (σ : Fin 2048 → ℝ) (ν : Fin 1024 → Fin 2048 → ℝ) (r : Fin 1024)

/-- The block's maximum over its positions is the maximum of the row's scores at the block's keys. -/
theorem bmax_eq (kb : Fin 4) (hσ : ∀ j : Fin 512, sc qv kv r j = σ ⟨j.val + 512 * kb.val, by omega⟩) :
    bmax qv kv r = Finset.univ.sup' Finset.univ_nonempty fun j : Fin 512 => σ ⟨j.val + 512 * kb.val, by omega⟩ := by
  unfold bmax
  exact congrArg (Finset.univ.sup' Finset.univ_nonempty) (funext hσ)

include hx0 hx1 hx2 in
/-- THE FIRST BLOCK: from a running maximum of −∞ (and any denominator and numerator) the row's state after block 0. -/
theorem first_row (m0 l0 : Vec Ideal S1024x1 .f32) (a0 : Vec Ideal S1024x1024 .f32) (hm : m0 (ix2 r (0 : Fin 1)) = ⊥)
    (hσ : ∀ j : Fin 512, sc qv kv r j = σ ⟨j.val + 512 * 0, by omega⟩)
    (hν : ∀ (d : Fin 1024) (j : Fin 512), vv j d = ν d ⟨j.val + 512 * 0, by omega⟩) :
    RowState σ ν 1 Nat.one_pos (k1_pay2 (k1_pay9 x0 x1 m0) (ix2 r (0 : Fin 1))) (k1_pay12 x0 x1 m0 m0 l0 (ix2 r (0 : Fin 1)))
      (fun d => k1_pay1 (k1_pay7 x2) (k1_pay10 x0 x1 m0 m0) (k1_pay11 x0 x1 m0) a0 (ix2 r d)) := by
  have h8 : ∀ j : Fin 512, k1_pay8 x0 x1 (ix2 r j) = ((σ ⟨j.val + 512 * 0, by omega⟩ : ℝ) : EReal) := fun j => by
    rw [pay8_apply x0 x1 qv kv hx0 hx1 r j, hσ j]
  have hb : bmax qv kv r = Finset.univ.sup' Finset.univ_nonempty fun j : Fin 512 => σ ⟨j.val + 512 * 0, by omega⟩ :=
    bmax_eq qv kv σ r 0 hσ
  have h9 : k1_pay9 x0 x1 m0 (ix2 r (0 : Fin 1)) = ((bmax qv kv r : ℝ) : EReal) := pay9_first x0 x1 m0 qv kv hx0 hx1 r hm
  refine ⟨bmax qv kv r, (online_first_4_512 σ (ν 0) _ hb).1, ?_, ?_, fun d => ?_⟩
  · rw [pay2_apply, h9]
  · rw [den_first x0 x1 m0 l0 r (fun j => σ ⟨j.val + 512 * 0, by omega⟩) (bmax qv kv r) h8 hm h9]
    exact congrArg _ (online_first_4_512 σ (ν 0) _ hb).2.1
  · beta_reduce
    rw [num_first x0 x1 x2 m0 a0 r d (fun j => σ ⟨j.val + 512 * 0, by omega⟩) (fun j => ν d ⟨j.val + 512 * 0, by omega⟩) (bmax qv kv r) h8 hm h9
      (fun j => by rw [hx2 j d, hν d j])]
    exact congrArg _ (online_first_4_512 σ (ν d) _ hb).2.2

include hx0 hx1 hx2 in
/-- A LATER BLOCK: from the row's state after the blocks before `kb` to its state after block `kb`. -/
theorem later_row (kb : Fin 4) (hkb : 0 < kb.val) (m0 l0 : Vec Ideal S1024x1 .f32) (a0 : Vec Ideal S1024x1024 .f32)
    (hσ : ∀ j : Fin 512, sc qv kv r j = σ ⟨j.val + 512 * kb.val, by omega⟩)
    (hν : ∀ (d : Fin 1024) (j : Fin 512), vv j d = ν d ⟨j.val + 512 * kb.val, by omega⟩)
    (hS : RowState σ ν kb.val hkb (m0 (ix2 r (0 : Fin 1))) (l0 (ix2 r (0 : Fin 1))) (fun d => a0 (ix2 r d))) :
    RowState σ ν (kb.val + 1) (Nat.succ_pos _) (k1_pay2 (k1_pay9 x0 x1 m0) (ix2 r (0 : Fin 1))) (k1_pay12 x0 x1 m0 m0 l0 (ix2 r (0 : Fin 1)))
      (fun d => k1_pay1 (k1_pay7 x2) (k1_pay10 x0 x1 m0 m0) (k1_pay11 x0 x1 m0) a0 (ix2 r d)) := by
  obtain ⟨μ, hμ, hm, hl, ha⟩ := hS
  have h8 : ∀ j : Fin 512, k1_pay8 x0 x1 (ix2 r j) = ((σ ⟨j.val + 512 * kb.val, by omega⟩ : ℝ) : EReal) := fun j => by
    rw [pay8_apply x0 x1 qv kv hx0 hx1 r j, hσ j]
  have hb : bmax qv kv r = Finset.univ.sup' Finset.univ_nonempty fun j : Fin 512 => σ ⟨j.val + 512 * kb.val, by omega⟩ :=
    bmax_eq qv kv σ r kb hσ
  have h9 : k1_pay9 x0 x1 m0 (ix2 r (0 : Fin 1)) = ((max μ (bmax qv kv r) : ℝ) : EReal) := pay9_later x0 x1 m0 qv kv hx0 hx1 r hm
  have step := fun d => online_step_4_512 σ (ν d) kb hkb μ _ _ (bmax qv kv r) (max μ (bmax qv kv r)) hμ rfl rfl hb rfl
  refine ⟨max μ (bmax qv kv r), (step 0).1, ?_, ?_, fun d => ?_⟩
  · rw [pay2_apply, h9]
  · rw [den_later x0 x1 m0 l0 r (fun j => σ ⟨j.val + 512 * kb.val, by omega⟩) (max μ (bmax qv kv r)) μ _ h8 hm h9 hl]
    exact congrArg _ (step 0).2.1
  · beta_reduce
    rw [num_later x0 x1 x2 m0 a0 r d (fun j => σ ⟨j.val + 512 * kb.val, by omega⟩) (fun j => ν d ⟨j.val + 512 * kb.val, by omega⟩) (max μ (bmax qv kv r)) μ _ h8 hm h9 (ha d)
      (fun j => by rw [hx2 j d, hν d j])]
    exact congrArg _ (step d).2.2

/-- THE END: after the last block the numerator divided by the denominator is the softmax-weighted sum over all keys. -/
theorem last_row (acc : Vec Ideal S1024x1024 .f32) (l : Vec Ideal S1024x1 .f32) (mv : EReal)
    (hS : RowState σ ν 4 (by norm_num) mv (l (ix2 r (0 : Fin 1))) (fun d => acc (ix2 r d))) (d : Fin 1024) :
    k1_pay3 acc l (ix3 (0 : Fin 1) r d)
      = ((∑ j : Fin 2048, (Real.exp (σ j - Finset.univ.sup' Finset.univ_nonempty σ)
          / ∑ j' : Fin 2048, Real.exp (σ j' - Finset.univ.sup' Finset.univ_nonempty σ)) * ν d j : ℝ) : EReal) := by
  obtain ⟨μ, hμ, -, hl, ha⟩ := hS
  have hlast := online_last_4_512 σ (ν d) μ _ _ hμ rfl rfl
  rw [quot r d _ _ acc l (ha d) hl hlast.2]
  exact congrArg _ hlast.1

end Cert.KernelIdeal.Value1

end
-- ==== Proof.IdealValue1.lean ====
/-
  What the attention region leaves in the result array, when the projected array it is entered with holds, in its three
  column bands, real-valued queries, keys and values q, k, v: at (batch b, position i, feature d) the softmax-weighted
  sum  ∑ j, (exp (s j − M) / ∑ j', exp (s j' − M)) · v b j d  of the specification.
  Along the grid (batch, query block, key block — the key block innermost) the three scratch buffers hold, row by row,
  the running maximum, denominator and numerator over the keys of the blocks walked so far (by induction on the grid
  point: the first key block starts afresh, each later one continues from the point before, which is the same batch and
  query block); at the last key block the stored quotient is the specification's value; the sixteen output blocks written
  back there tile the result array.
-/
import proofs.«105470_j53377853555119_2_alg».proof.Proof.IdealValue1Blocks
import proofs.«105470_j53377853555119_2_alg».proof.Proof.IdealValue1Row

set_option maxRecDepth 16384

noncomputable section

open scoped BigOperators

namespace Cert.KernelIdeal.Value1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region1 Cert.KernelIdeal.Pay
open Cert.Lib.KeyBlocks Cert.Lib.OnlineSoftmax

variable (V : (c : Dev nD) → (b : Ref sig .tc) → Buf (Elt Ideal) ((c : Thread nD τ).loc b)) (c : Dev nD)
variable (q k v : Fin 8 → Fin 2048 → Fin 1024 → ℝ)

/-- The projected array as the region finds it: its three column bands are the coerced queries, keys and values. -/
structure Entry : Prop where
  hq : ∀ (bt : Fin 8) (n : Fin 2048) (e : Fin 1024), (V c main_v6 : S8x2048x3072.Idx → EReal) (ix3 bt n (⟨e.val, by omega⟩ : Fin 3072)) = ((q bt n e : ℝ) : EReal)
  hk : ∀ (bt : Fin 8) (n : Fin 2048) (e : Fin 1024), (V c main_v6 : S8x2048x3072.Idx → EReal) (ix3 bt n (⟨1024 + e.val, by omega⟩ : Fin 3072)) = ((k bt n e : ℝ) : EReal)
  hv : ∀ (bt : Fin 8) (n : Fin 2048) (e : Fin 1024), (V c main_v6 : S8x2048x3072.Idx → EReal) (ix3 bt n (⟨2048 + e.val, by omega⟩ : Fin 3072)) = ((v bt n e : ℝ) : EReal)

variable {V c q k v}

section Point

variable (E : Entry V c q k v) (t : Fin cfg1.N) (b : Fin 8) (qb : Fin 2) (kb : Fin 4) (ht : t.val = 8 * b.val + 4 * qb.val + kb.val)

include E ht in
/-- The query block at a point of batch `b`, query block `qb`. -/
theorem x0_at (r : Fin 1024) (e : Fin 1024) :
    iblk V c 0 t (ix3 (0 : Fin 1) r e) = ((q b ⟨1024 * qb.val + r.val, by omega⟩ e : ℝ) : EReal) := by
  rw [← E.hq b ⟨1024 * qb.val + r.val, by omega⟩ e]
  obtain ⟨e0, e1, e2, -⟩ := idx_facts t
  show (V c main_v6 : S8x2048x3072.Idx → EReal) (((cfg1.win 0).blk t).view.emb (ix3 (0 : Fin 1) r e)) = _
  refine congrArg (V c main_v6 : S8x2048x3072.Idx → EReal) (funext fun a => Fin.ext ?_)
  match a with
  | ⟨0, _⟩ => show win1_0.index t (0 : Fin 3) * 1 + 1 * 0 = b.val; omega
  | ⟨1, _⟩ => show win1_0.index t (1 : Fin 3) * 1024 + 1 * r.val = 1024 * qb.val + r.val; omega
  | ⟨2, _⟩ => show win1_0.index t (2 : Fin 3) * 1024 + 1 * e.val = e.val; omega

include E ht in
/-- The key block at a point of batch `b`, key block `kb`. -/
theorem x1_at (j : Fin 512) (e : Fin 1024) :
    iblk V c 1 t (ix3 (0 : Fin 1) j e) = ((k b ⟨j.val + 512 * kb.val, by omega⟩ e : ℝ) : EReal) := by
  rw [← E.hk b ⟨j.val + 512 * kb.val, by omega⟩ e]
  obtain ⟨-, -, -, e0, e1, e2, -⟩ := idx_facts t
  show (V c main_v6 : S8x2048x3072.Idx → EReal) (((cfg1.win 1).blk t).view.emb (ix3 (0 : Fin 1) j e)) = _
  refine congrArg (V c main_v6 : S8x2048x3072.Idx → EReal) (funext fun a => Fin.ext ?_)
  match a with
  | ⟨0, _⟩ => show win1_1.index t (0 : Fin 3) * 1 + 1 * 0 = b.val; omega
  | ⟨1, _⟩ => show win1_1.index t (1 : Fin 3) * 512 + 1 * j.val = j.val + 512 * kb.val; omega
  | ⟨2, _⟩ => show win1_1.index t (2 : Fin 3) * 1024 + 1 * e.val = 1024 + e.val; omega

include E ht in
/-- The value block at a point of batch `b`, key block `kb`. -/
theorem x2_at (j : Fin 512) (e : Fin 1024) :
    iblk V c 2 t (ix3 (0 : Fin 1) j e) = ((v b ⟨j.val + 512 * kb.val, by omega⟩ e : ℝ) : EReal) := by
  rw [← E.hv b ⟨j.val + 512 * kb.val, by omega⟩ e]
  obtain ⟨-, -, -, -, -, -, e0, e1, e2, -⟩ := idx_facts t
  show (V c main_v6 : S8x2048x3072.Idx → EReal) (((cfg1.win 2).blk t).view.emb (ix3 (0 : Fin 1) j e)) = _
  refine congrArg (V c main_v6 : S8x2048x3072.Idx → EReal) (funext fun a => Fin.ext ?_)
  match a with
  | ⟨0, _⟩ => show win1_2.index t (0 : Fin 3) * 1 + 1 * 0 = b.val; omega
  | ⟨1, _⟩ => show win1_2.index t (1 : Fin 3) * 512 + 1 * j.val = j.val + 512 * kb.val; omega
  | ⟨2, _⟩ => show win1_2.index t (2 : Fin 3) * 1024 + 1 * e.val = 2048 + e.val; omega

end Point

/-- The row's scores and values: query row `1024·qb + r` of batch `b` against every key; column `d` of the values. -/
abbrev sg (q k : Fin 8 → Fin 2048 → Fin 1024 → ℝ) (b : Fin 8) (qb : Fin 2) (r : Fin 1024) : Fin 2048 → ℝ :=
  Cert.Spec.score q k b ⟨1024 * qb.val + r.val, by omega⟩
abbrev nu (v : Fin 8 → Fin 2048 → Fin 1024 → ℝ) (b : Fin 8) : Fin 1024 → Fin 2048 → ℝ := fun d j => v b j d

/-- The row's state does not depend on how the number of blocks walked is written. -/
theorem RowState.cast {σ : Fin 2048 → ℝ} {ν : Fin 1024 → Fin 2048 → ℝ} {s s' : ℕ} (h : s = s') {hs : 0 < s} {hs' : 0 < s'}
    {mv lv : EReal} {av : Fin 1024 → EReal} (H : RowState σ ν s hs mv lv av) : RowState σ ν s' hs' mv lv av := by
  subst h; exact H

/-- THE INVARIANT after the body at position `n`: in every row the scratch buffers hold the row's running state over the
    keys of the blocks up to this point's key block. -/
def Inv (V : (c : Dev nD) → (b : Ref sig .tc) → Buf (Elt Ideal) ((c : Thread nD τ).loc b)) (c : Dev nD)
    (q k v : Fin 8 → Fin 2048 → Fin 1024 → ℝ) (n : ℕ) (hn : n < cfg1.N) : Prop :=
  ∀ (b : Fin 8) (qb : Fin 2) (kb : Fin 4), n = 8 * b.val + 4 * qb.val + kb.val → ∀ r : Fin 1024,
    RowState (sg q k b qb r) (nu v b) (kb.val + 1) (Nat.succ_pos _)
      ((outsAt V c n hn).2.1 (ix2 r (0 : Fin 1))) ((outsAt V c n hn).2.2.1 (ix2 r (0 : Fin 1))) (fun d => (outsAt V c n hn).2.2.2 (ix2 r d))

/-- The invariant holds at every point, by induction along the grid. -/
theorem inv (E : Entry V c q k v) : ∀ (n : ℕ) (hn : n < cfg1.N), Inv V c q k v n hn := by
  intro n
  induction n with
  | zero =>
    intro hn b qb kb hco r
    obtain rfl : kb = 0 := Fin.ext (by have := kb.isLt; omega)
    have ht : (⟨0, hn⟩ : Fin cfg1.N).val = 8 * b.val + 4 * qb.val + (0 : Fin 4).val := hco
    rw [show outsAt V c 0 hn = outsAt V c (⟨0, hn⟩ : Fin cfg1.N).val (⟨0, hn⟩ : Fin cfg1.N).isLt from rfl, outsAt_A V c ⟨0, hn⟩ (Nat.zero_mod _)]
    unfold stepA; dsimp only
    rw [sout_A_0_eq, sout_A_1_eq, sout_A_2_eq]
    exact first_row _ _ _ _ _ _ (x0_at E ⟨0, hn⟩ b qb 0 ht) (x1_at E ⟨0, hn⟩ b qb 0 ht) (x2_at E ⟨0, hn⟩ b qb 0 ht) (sg q k b qb r) (nu v b) r
      _ _ _ (pay4_apply r) (fun j => rfl) (fun d j => rfl)
  | succ n ih =>
    intro hn b qb kb hco r
    have ht : (⟨n + 1, hn⟩ : Fin cfg1.N).val = 8 * b.val + 4 * qb.val + kb.val := hco
    by_cases h0 : (n + 1) % 4 = 0
    · obtain rfl : kb = 0 := Fin.ext (by have := kb.isLt; have := qb.isLt; omega)
      rw [show outsAt V c (n + 1) hn = outsAt V c (⟨n + 1, hn⟩ : Fin cfg1.N).val (⟨n + 1, hn⟩ : Fin cfg1.N).isLt from rfl, outsAt_A V c ⟨n + 1, hn⟩ h0]
      unfold stepA; dsimp only
      rw [sout_A_0_eq, sout_A_1_eq, sout_A_2_eq]
      exact first_row _ _ _ _ _ _ (x0_at E ⟨n + 1, hn⟩ b qb 0 ht) (x1_at E ⟨n + 1, hn⟩ b qb 0 ht) (x2_at E ⟨n + 1, hn⟩ b qb 0 ht) (sg q k b qb r) (nu v b) r
        _ _ _ (pay4_apply r) (fun j => rfl) (fun d j => rfl)
    · have hkb : 0 < kb.val := by have := kb.isLt; have := qb.isLt; omega
      have hprev := ih (Nat.lt_of_succ_lt hn) b qb ⟨kb.val - 1, by have := kb.isLt; omega⟩ (by show n = 8 * b.val + 4 * qb.val + (kb.val - 1); omega) r
      have hS : RowState (sg q k b qb r) (nu v b) kb.val hkb
          ((outsAt V c n (Nat.lt_of_succ_lt hn)).2.1 (ix2 r (0 : Fin 1))) ((outsAt V c n (Nat.lt_of_succ_lt hn)).2.2.1 (ix2 r (0 : Fin 1)))
          (fun d => (outsAt V c n (Nat.lt_of_succ_lt hn)).2.2.2 (ix2 r d)) :=
        hprev.cast (by show kb.val - 1 + 1 = kb.val; omega)
      by_cases h3 : (n + 1) % 4 = 3
      · rw [show outsAt V c (n + 1) hn = outsAt V c (⟨n + 1, hn⟩ : Fin cfg1.N).val (⟨n + 1, hn⟩ : Fin cfg1.N).isLt from rfl, outsAt_C V c ⟨n + 1, hn⟩ h0 h3]
        unfold stepC; dsimp only
        rw [sout_C_0_eq, sout_C_1_eq, sout_C_2_eq]
        exact later_row _ _ _ _ _ _ (x0_at E ⟨n + 1, hn⟩ b qb kb ht) (x1_at E ⟨n + 1, hn⟩ b qb kb ht) (x2_at E ⟨n + 1, hn⟩ b qb kb ht) (sg q k b qb r) (nu v b) r
          kb hkb _ _ _ (fun j => rfl) (fun d j => rfl) hS
      · rw [show outsAt V c (n + 1) hn = outsAt V c (⟨n + 1, hn⟩ : Fin cfg1.N).val (⟨n + 1, hn⟩ : Fin cfg1.N).isLt from rfl, outsAt_B V c ⟨n + 1, hn⟩ h0 h3]
        unfold stepB; dsimp only
        rw [sout_B_0_eq, sout_B_1_eq, sout_B_2_eq]
        exact later_row _ _ _ _ _ _ (x0_at E ⟨n + 1, hn⟩ b qb kb ht) (x1_at E ⟨n + 1, hn⟩ b qb kb ht) (x2_at E ⟨n + 1, hn⟩ b qb kb ht) (sg q k b qb r) (nu v b) r
          kb hkb _ _ _ (fun j => rfl) (fun d j => rfl) hS

/-- WHAT A LAST KEY BLOCK WRITES BACK: the output block of batch `b`, query block `qb` holds the specification's values. -/
theorem out_at (E : Entry V c q k v) (t : Fin cfg1.N) (h3 : t.val % 4 = 3) (b : Fin 8) (qb : Fin 2) (ht : t.val = 8 * b.val + 4 * qb.val + 3)
    (r : Fin 1024) (d : Fin 1024) :
    (outsAt V c t.val t.isLt).1 (ix3 (0 : Fin 1) r d) = ((Cert.Spec.attn q k v b ⟨1024 * qb.val + r.val, by omega⟩ d : ℝ) : EReal) := by
  have h0 : ¬ t.val % 4 = 0 := by omega
  have hN : cfg1.N = 64 := N_1
  have hpos : 0 < t.val := by omega
  have hprev := inv E (t.val - 1) (by have := t.isLt; omega) b qb 2 (by show t.val - 1 = 8 * b.val + 4 * qb.val + 2; omega) r
  have htt : t.val = 8 * b.val + 4 * qb.val + (3 : Fin 4).val := ht
  have hnew := later_row _ _ _ _ _ _ (x0_at E t b qb 3 htt) (x1_at E t b qb 3 htt) (x2_at E t b qb 3 htt) (sg q k b qb r) (nu v b) r
    3 (by decide) (outsAt V c (t.val - 1) (Nat.lt_of_le_of_lt (Nat.sub_le _ _) t.isLt)).2.1 (outsAt V c (t.val - 1) (Nat.lt_of_le_of_lt (Nat.sub_le _ _) t.isLt)).2.2.1
    (outsAt V c (t.val - 1) (Nat.lt_of_le_of_lt (Nat.sub_le _ _) t.isLt)).2.2.2 (fun j => rfl) (fun d j => rfl) hprev
  rw [outsAt_C V c t h0 h3]
  unfold stepC; dsimp only
  rw [out_C_3_eq]
  exact last_row (sg q k b qb r) (nu v b) r _ _ _ hnew d

/-- THE RESULT ARRAY after the region: the specification's attention of q, k, v, index by index. -/
theorem arr_value (E : Entry V c q k v) :
    (Region1.dat (F := Ideal) V c).arrAt 3 cfg1.N
      = (fun i : S8x2048x1024.Idx => ((Cert.Spec.attn q k v (i 0) (i 1) (i 2) : ℝ) : EReal)) := by
  refine (Region1.dat (F := Ideal) V c).arrAt_eq_of_cover 3 _ (fun t hf => ?_) cover3
  have h3 : t.val % 4 = 3 := (flush1_3 t).mp hf
  have htl : t.val < 64 := lt_of_lt_of_eq t.isLt N_1
  show (cfg1.win 3).cut (grid1.coords t) ((Region1.dat (F := Ideal) V c).after 3 t) = _
  rw [after_3]
  funext (y : S1x1024x1024.Idx)
  obtain ⟨y0, r, d, rfl⟩ : ∃ (y0 : Fin 1) (r : Fin 1024) (d : Fin 1024), y = ix3 y0 r d := ⟨y 0, y 1, y 2, eq_ix3 y⟩
  obtain rfl : y0 = 0 := Subsingleton.elim _ _
  show (outsAt V c t.val t.isLt).1 (ix3 (0 : Fin 1) r d) = (fun i : S8x2048x1024.Idx => ((Cert.Spec.attn q k v (i 0) (i 1) (i 2) : ℝ) : EReal)) (((cfg1.win 3).blk t).view.emb (ix3 (0 : Fin 1) r d))
  rw [oblk_emb t (ix3 (0 : Fin 1) r d)]
  rw [out_at E t h3 ⟨t.val / 8, by omega⟩ ⟨(t.val / 4) % 2, by omega⟩ (by show t.val = 8 * (t.val / 8) + 4 * ((t.val / 4) % 2) + 3; omega) r d]

end Cert.KernelIdeal.Value1

end
-- ==== Proof.IdealValue.lean ====
/-
  The idealized kernel's result array is the specification of its arguments, when every argument entry is finite.
  The projected array the attention region is entered with holds, in its three column bands, the three projections
  (input row times weight column plus bias, term by term: sums and products of real numbers stay real); the attention
  region then leaves the specification's softmax-weighted sums of those.
-/
import proofs.«105470_j53377853555119_2_alg».proof.Proof.IdealValue0
import proofs.«105470_j53377853555119_2_alg».proof.Proof.IdealValue1
import proofs.«105470_j53377853555119_2_alg».proof.Proof.IdealRun
import proofs.«105470_j53377853555119_2_alg».proof.Proof.LibOnlineSoftmax
import proofs.«105470_j53377853555119_2_alg».proof.Proof.Spec

noncomputable section

open scoped BigOperators

namespace Cert.KernelIdeal.Value

open Idealize.ShloMosaic Idealize.ShloMosaic.TcCoe Idealize.ShloMosaic.ValueIdx
open Idealize.SL Idealize.SL.Sem
open Cert.KernelIdeal Cert.KernelIdeal.Gen Cert.Lib.OnlineSoftmax

/-- A projection entry of finite arrays is the coerced real projection. -/
theorem proj_coe (X : Cert.Spec.SX.Idx → EReal) (W : Cert.Spec.SW.Idx → EReal) (b : Cert.Spec.SB.Idx → EReal)
    (hX : Cert.Spec.Finite X) (hW : Cert.Spec.Finite W) (hb : Cert.Spec.Finite b) (bt : Fin 8) (n : Fin 2048) (e : Fin 1024) :
    (∑ d : Fin 1024, X (ix3 bt n d) * W (ix2 d e)) + b (ix1 e) = ((Cert.Spec.proj X W b bt n e : ℝ) : EReal) := by
  unfold Cert.Spec.proj
  rw [EReal.coe_add, coe_finset_sum]
  congr 1
  · refine Finset.sum_congr rfl fun d _ => ?_
    rw [EReal.coe_mul, ← hX (ix3 bt n d), ← hW (ix2 d e)]
  · exact hb (ix1 e)

variable (m : (ℓ : Loc nD τ sig) → Buf (Elt Ideal) ℓ) (ρ : Dev nD → PrngReg) (c : Dev nD)

/-- THE KERNEL'S VALUE: the result array after the run is the specification of the seven argument arrays. -/
theorem kernel_value
    (f0 : Cert.Spec.Finite (S := Cert.Spec.SX) (m ((c : Thread nD τ).loc main_arg0))) (f1 : Cert.Spec.Finite (S := Cert.Spec.SW) (m ((c : Thread nD τ).loc main_arg1)))
    (f2 : Cert.Spec.Finite (S := Cert.Spec.SB) (m ((c : Thread nD τ).loc main_arg2))) (f3 : Cert.Spec.Finite (S := Cert.Spec.SW) (m ((c : Thread nD τ).loc main_arg3)))
    (f4 : Cert.Spec.Finite (S := Cert.Spec.SB) (m ((c : Thread nD τ).loc main_arg4))) (f5 : Cert.Spec.Finite (S := Cert.Spec.SW) (m ((c : Thread nD τ).loc main_arg5)))
    (f6 : Cert.Spec.Finite (S := Cert.Spec.SB) (m ((c : Thread nD τ).loc main_arg6))) :
    (Region1.dat (Run.VE3 (F := Ideal) m ρ) c).arrAt 3 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have E : Value1.Entry (Run.VE3 (F := Ideal) m ρ) c
      (Cert.Spec.proj (m ((c : Thread nD τ).loc main_arg0)) (m ((c : Thread nD τ).loc main_arg1)) (m ((c : Thread nD τ).loc main_arg2)))
      (Cert.Spec.proj (m ((c : Thread nD τ).loc main_arg0)) (m ((c : Thread nD τ).loc main_arg3)) (m ((c : Thread nD τ).loc main_arg4)))
      (Cert.Spec.proj (m ((c : Thread nD τ).loc main_arg0)) (m ((c : Thread nD τ).loc main_arg5)) (m ((c : Thread nD τ).loc main_arg6))) :=
    ⟨fun bt n e => (Value0.v6_q m ρ c bt n e).trans (proj_coe _ _ _ f0 f1 f2 bt n e),
     fun bt n e => (Value0.v6_k m ρ c bt n e).trans (proj_coe _ _ _ f0 f3 f4 bt n e),
     fun bt n e => (Value0.v6_v m ρ c bt n e).trans (proj_coe _ _ _ f0 f5 f6 bt n e)⟩
  exact (Value1.arr_value E).trans rfl

end Cert.KernelIdeal.Value

end
-- ==== Proof.lean ====
/-
  The certificate's five claims.
  The kernel computes scaled dot-product attention by a fused projection followed by the online softmax: per block of
  512 keys it keeps a running maximum, denominator and numerator, rescales them by exp (old maximum − new maximum),
  and divides at the end.  The reference computes the three projections, the scores divided by √1024 and multiplied by
  1/2, the softmax with the row maximum subtracted, and the weighted sum of the values.  Read over the extended reals
  with finite inputs both are ONE function of the seven argument arrays (`Cert.Spec.G`): the projections agree
  term by term; 2⁻⁶ is 1/64 = (1/32)·(1/2); the rescaling identity exp (μ − μ')·exp (s − μ) = exp (s − μ') turns the
  running sums into the sums over all keys with the global maximum; and (∑ e·v)/L = ∑ (e/L)·v because L is a positive
  real.  The three frames are the programs' runs with the statement about the result array dropped; the ideal pass
  rewrote nothing, so the preservation claim is trivial.
-/
import proofs.«105470_j53377853555119_2_alg».proof.Defs
import proofs.«105470_j53377853555119_2_alg».proof.Proof.Gen.Kernel
import proofs.«105470_j53377853555119_2_alg».proof.Proof.Gen.KernelIdeal
import proofs.«105470_j53377853555119_2_alg».proof.Proof.Gen.ReferenceIdeal
import proofs.«105470_j53377853555119_2_alg».proof.Proof.Gen.Pre_finite_inputs
import proofs.«105470_j53377853555119_2_alg».proof.Proof.RefFrame
import proofs.«105470_j53377853555119_2_alg».proof.Proof.RefValue
import proofs.«105470_j53377853555119_2_alg».proof.Proof.FiniteInputs
import proofs.«105470_j53377853555119_2_alg».proof.Proof.BitsRun
import proofs.«105470_j53377853555119_2_alg».proof.Proof.IdealRun
import proofs.«105470_j53377853555119_2_alg».proof.Proof.IdealValue
import Idealize.ShloMosaic.Adequacy
import Idealize.ShloMosaic.Init

noncomputable section

namespace Cert.Proof

open Idealize.ShloMosaic Idealize.SL.Sem

/-- The word-level kernel runs and leaves its arguments unchanged: its run, the result array's clause dropped. -/
theorem frame_k : Cert.frame_Kernel := fun m ρ _ =>
  (θ_run Cert.Kernel.defs _ _).mono (fun _ h c => (h c).2) (Cert.Kernel.Run.run (F := Bits) m ρ)

/-- The idealized kernel runs and leaves its arguments unchanged. -/
theorem frame_ki : Cert.frame_KernelIdeal := fun m ρ _ =>
  (θ_run Cert.KernelIdeal.defs _ _).mono (fun _ h c => (h c).2) (Cert.KernelIdeal.Run.run (F := Ideal) m ρ)

/-- Both idealized programs end with the result array at the common specification of the (agreeing, finite) arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Run.run (F := Ideal) m ρ)
    obtain ⟨f0, f1, f2, f3, f4, f5, f6⟩ := Cert.Proof.FiniteInputs.finite_of_pre _ _ _ _ _ _ _ (hpre c)
    exact Cert.KernelIdeal.Value.kernel_value m ρ c f0 f1 f2 f3 f4 f5 f6
  · refine (θ_run Cert.ReferenceIdeal.defs _ _).mono (fun _ h c => ⟨(h c).1.trans ?_, (h c).2⟩) (Cert.ReferenceIdeal.Value.run (F := Ideal) m' ρ')
    obtain ⟨f0, f1, f2, f3, f4, f5, f6⟩ := Cert.Proof.FiniteInputs.finite_of_pre _ _ _ _ _ _ _ (hpre c)
    rw [Cert.ReferenceIdeal.Read.val_main_v29_eq, (hagree c).1, (hagree c).2.1, (hagree c).2.2.1, (hagree c).2.2.2.1, (hagree c).2.2.2.2.1, (hagree c).2.2.2.2.2.1, (hagree c).2.2.2.2.2.2]
    exact Cert.Proof.RefValue.ref_is_G _ _ _ _ _ _ _ f0 f1 f2 f3 f4 f5 f6

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
